-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S32000x4 : Shape := ⟨2, ![32000, 4]⟩
abbrev S32000x128 : Shape := ⟨2, ![32000, 128]⟩
abbrev S128x512 : Shape := ⟨2, ![128, 512]⟩
abbrev S512 : Shape := ⟨1, ![512]⟩
abbrev S512x512 : Shape := ⟨2, ![512, 512]⟩
abbrev S512x32000 : Shape := ⟨2, ![512, 32000]⟩
abbrev S32000 : Shape := ⟨1, ![32000]⟩
abbrev S_ : Shape := ⟨0, ![]⟩

class Facts : Prop where
  bcast_S_S32000x4 : S_.BroadcastsInDim S32000x4 (![] : Fin 0 → Fin S32000x4.rank)
  reducesTo_S32000x4_S_d0_1 : S32000x4.ReducesTo [0, 1] S_
  h_S_ : 0 < S_.numel
  bcast_S_S32000x128 : S_.BroadcastsInDim S32000x128 (![] : Fin 0 → Fin S32000x128.rank)
  reducesTo_S32000x128_S_d0_1 : S32000x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x32000 : S_.BroadcastsInDim S512x32000 (![] : Fin 0 → Fin S512x32000.rank)
  reducesTo_S512x32000_S_d0_1 : S512x32000.ReducesTo [0, 1] S_
  bcast_S_S32000 : S_.BroadcastsInDim S32000 (![] : Fin 0 → Fin S32000.rank)
  reducesTo_S32000_S_d0 : S32000.ReducesTo [0] S_

variable [Facts]

def fn_part2 {F : FTy → Type} [FloatOps F] (main_arg9 : FVec F S32000 .f32) (main_v33 : IVec S_ 1) : IVec S_ 1 :=
  let main_v34 : FVec F S32000 .f32 := Host.absf main_arg9
  let main_cst_12 : FVec F S_ .f32 := constant S_ .f32 0x7F800000#32
  let main_v35 : FVec F S32000 .f32 := broadcastInDim S32000 ![] bcast_S_S32000 main_cst_12
  let main_v36 : IVec S32000 1 := cmpf .olt main_v34 main_v35
  let main_c_13 : IVec S_ 1 := constantI S_ 1 1#1
  let main_v37 : IVec S_ 1 := (fun x v => Host.reduce IntOp.andi x v reducesTo_S32000_S_d0 h_S_) main_v36 main_c_13
  let main_v38 : IVec S_ 1 := andi main_v33 main_v37
  main_v38

def fn_part1 {F : FTy → Type} [FloatOps F] (main_arg6 : FVec F S512x512 .f32) (main_arg7 : FVec F S512 .f32) (main_arg8 : FVec F S512x32000 .f32) (main_arg9 : FVec F S32000 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg6
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x32000 .f32 := Host.absf main_arg8
  let main_cst_10 : FVec F S_ .f32 := constant S_ .f32 0x7F800000#32
  let main_v30 : FVec F S512x32000 .f32 := broadcastInDim S512x32000 ![] bcast_S_S512x32000 main_cst_10
  let main_v31 : IVec S512x32000 1 := cmpf .olt main_v29 main_v30
  let main_c_11 : IVec S_ 1 := constantI S_ 1 1#1
  let main_v32 : IVec S_ 1 := (fun x v => Host.reduce IntOp.andi x v reducesTo_S512x32000_S_d0_1 h_S_) main_v31 main_c_11
  let main_v33 : IVec S_ 1 := andi main_v28 main_v32
  fn_part2 (F := F) main_arg9 main_v33

def fn {F : FTy → Type} [FloatOps F] (main_arg0 : IVec S16x4096 32) (main_arg1 : IVec S32000x4 32) (main_arg2 : FVec F S32000x4 .f32) (main_arg3 : FVec F S32000x128 .f32) (main_arg4 : FVec F S128x512 .f32) (main_arg5 : FVec F S512 .f32) (main_arg6 : FVec F S512x512 .f32) (main_arg7 : FVec F S512 .f32) (main_arg8 : FVec F S512x32000 .f32) (main_arg9 : FVec F S32000 .f32) : IVec S_ 1 :=
  let main_v0 : FVec F S32000x4 .f32 := Host.absf main_arg2
  let main_cst : FVec F S_ .f32 := constant S_ .f32 0x7F800000#32
  let main_v1 : FVec F S32000x4 .f32 := broadcastInDim S32000x4 ![] bcast_S_S32000x4 main_cst
  let main_v2 : IVec S32000x4 1 := cmpf .olt main_v0 main_v1
  let main_c : IVec S_ 1 := constantI S_ 1 1#1
  let main_v3 : IVec S_ 1 := (fun x v => Host.reduce IntOp.andi x v reducesTo_S32000x4_S_d0_1 h_S_) main_v2 main_c
  let main_v4 : FVec F S32000x128 .f32 := Host.absf main_arg3
  let main_cst_0 : FVec F S_ .f32 := constant S_ .f32 0x7F800000#32
  let main_v5 : FVec F S32000x128 .f32 := broadcastInDim S32000x128 ![] bcast_S_S32000x128 main_cst_0
  let main_v6 : IVec S32000x128 1 := cmpf .olt main_v4 main_v5
  let main_c_1 : IVec S_ 1 := constantI S_ 1 1#1
  let main_v7 : IVec S_ 1 := (fun x v => Host.reduce IntOp.andi x v reducesTo_S32000x128_S_d0_1 h_S_) main_v6 main_c_1
  let main_v8 : IVec S_ 1 := andi main_v3 main_v7
  let main_v9 : FVec F S128x512 .f32 := Host.absf main_arg4
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_arg8 main_arg9 main_v13 main_v16
-- ==== Kernel.lean ====
abbrev S16x4096 : Shape := ⟨2, ![16, 4096]⟩
abbrev S32000x4 : Shape := ⟨2, ![32000, 4]⟩
abbrev S32000x128 : Shape := ⟨2, ![32000, 128]⟩
abbrev S128x512 : Shape := ⟨2, ![128, 512]⟩
abbrev S512 : Shape := ⟨1, ![512]⟩
abbrev S512x512 : Shape := ⟨2, ![512, 512]⟩
abbrev S512x32000 : Shape := ⟨2, ![512, 32000]⟩
abbrev S32000 : Shape := ⟨1, ![32000]⟩
abbrev S_ : Shape := ⟨0, ![]⟩
abbrev S16x4096x1 : Shape := ⟨3, ![16, 4096, 1]⟩
abbrev S16x4096x4 : Shape := ⟨3, ![16, 4096, 4]⟩
abbrev S16x4096x4x1 : Shape := ⟨4, ![16, 4096, 4, 1]⟩
abbrev S16x4096x4x128 : Shape := ⟨4, ![16, 4096, 4, 128]⟩
abbrev S16x4096x128 : Shape := ⟨3, ![16, 4096, 128]⟩
abbrev S65536x128 : Shape := ⟨2, ![65536, 128]⟩
abbrev S8192x8x128 : Shape := ⟨3, ![8192, 8, 128]⟩
abbrev S8192x128 : Shape := ⟨2, ![8192, 128]⟩
abbrev S1x32000 : Shape := ⟨2, ![1, 32000]⟩
abbrev S8192x1 : Shape := ⟨2, ![8192, 1]⟩
abbrev S2048x128 : Shape := ⟨2, ![2048, 128]⟩
abbrev S512x640 : Shape := ⟨2, ![512, 640]⟩
abbrev S1x640 : Shape := ⟨2, ![1, 640]⟩
abbrev S2048x1 : Shape := ⟨2, ![2048, 1]⟩
abbrev S2048x512 : Shape := ⟨2, ![2048, 512]⟩
abbrev S1x512 : Shape := ⟨2, ![1, 512]⟩
abbrev S2048x640 : Shape := ⟨2, ![2048, 640]⟩
abbrev S2048 : Shape := ⟨1, ![2048]⟩
abbrev S8192x32000 : Shape := ⟨2, ![8192, 32000]⟩

abbrev nBuf : Space → Nat
  | .hbm => 49
  | .vmem => 30
  | .smem => 0
  | _ => 0

abbrev bufTy : (tb : Table) → Fin (tcTables nBuf tb) → BufTy
  | .hbm, ⟨0, _⟩ => ⟨S16x4096, .i32⟩
  | .hbm, ⟨1, _⟩ => ⟨S32000x4, .i32⟩
  | .hbm, ⟨2, _⟩ => ⟨S32000x4, .f32⟩
  | .hbm, ⟨3, _⟩ => ⟨S32000x128, .f32⟩
  | .hbm, ⟨4, _⟩ => ⟨S128x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x32000, .f32⟩
  | .hbm, ⟨9, _⟩ => ⟨S32000, .f32⟩
  | .hbm, ⟨10, _⟩ => ⟨S_, .i32⟩
  | .hbm, ⟨11, _⟩ => ⟨S16x4096, .i32⟩
  | .hbm, ⟨12, _⟩ => ⟨S16x4096, .i1⟩
  | .hbm, ⟨13, _⟩ => ⟨S_, .i32⟩
  | .hbm, ⟨14, _⟩ => ⟨S16x4096, .i32⟩
  | .hbm, ⟨15, _⟩ => ⟨S16x4096, .i32⟩
  | .hbm, ⟨16, _⟩ => ⟨S16x4096, .i32⟩
  | .hbm, ⟨17, _⟩ => ⟨S16x4096x1, .i32⟩
  | .hbm, ⟨18, _⟩ => ⟨S16x4096x4, .i32⟩
  | .hbm, ⟨19, _⟩ => ⟨S_, .i32⟩
  | .hbm, ⟨20, _⟩ => ⟨S16x4096, .i32⟩
  | .hbm, ⟨21, _⟩ => ⟨S16x4096, .i1⟩
  | .hbm, ⟨22, _⟩ => ⟨S_, .i32⟩
  | .hbm, ⟨23, _⟩ => ⟨S16x4096, .i32⟩
  | .hbm, ⟨24, _⟩ => ⟨S16x4096, .i32⟩
  | .hbm, ⟨25, _⟩ => ⟨S16x4096, .i32⟩
  | .hbm, ⟨26, _⟩ => ⟨S16x4096x1, .i32⟩
  | .hbm, ⟨27, _⟩ => ⟨S16x4096x4, .f32⟩
  | .hbm, ⟨28, _⟩ => ⟨S_, .i32⟩
  | .hbm, ⟨29, _⟩ => ⟨S16x4096x4, .i32⟩
  | .hbm, ⟨30, _⟩ => ⟨S16x4096x4, .i1⟩
  | .hbm, ⟨31, _⟩ => ⟨S_, .i32⟩
  | .hbm, ⟨32, _⟩ => ⟨S16x4096x4, .i32⟩
  | .hbm, ⟨33, _⟩ => ⟨S16x4096x4, .i32⟩
  | .hbm, ⟨34, _⟩ => ⟨S16x4096x4, .i32⟩
  | .hbm, ⟨35, _⟩ => ⟨S16x4096x4x1, .i32⟩
  | .hbm, ⟨36, _⟩ => ⟨S16x4096x4x128, .f32⟩
  | .hbm, ⟨37, _⟩ => ⟨S16x4096x4x1, .f32⟩
  | .hbm, ⟨38, _⟩ => ⟨S16x4096x4x128, .f32⟩
  | .hbm, ⟨39, _⟩ => ⟨S16x4096x4x128, .f32⟩
  | .hbm, ⟨40, _⟩ => ⟨S_, .f32⟩
  | .hbm, ⟨41, _⟩ => ⟨S16x4096x128, .f32⟩
  | .hbm, ⟨42, _⟩ => ⟨S65536x128, .f32⟩
  | .hbm, ⟨43, _⟩ => ⟨S8192x8x128, .f32⟩
  | .hbm, ⟨44, _⟩ => ⟨S_, .f32⟩
  | .hbm, ⟨45, _⟩ => ⟨S8192x128, .f32⟩
  | .hbm, ⟨46, _⟩ => ⟨S1x32000, .f32⟩
  | .hbm, ⟨47, _⟩ => ⟨S8192x1, .f32⟩
  | .hbm, ⟨48, _⟩ => ⟨S8192x32000, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S512, .f32⟩
  | .local _ .vmem, ⟨4, _⟩ => ⟨S512x512, .f32⟩
  | .local _ .vmem, ⟨5, _⟩ => ⟨S512, .f32⟩
  | .local _ .vmem, ⟨6, _⟩ => ⟨S512x640, .f32⟩
  | .local _ .vmem, ⟨7, _⟩ => ⟨S512x640, .f32⟩
  | .local _ .vmem, ⟨8, _⟩ => ⟨S1x640, .f32⟩
  | .local _ .vmem, ⟨9, _⟩ => ⟨S1x640, .f32⟩
  | .local _ .vmem, ⟨10, _⟩ => ⟨S2048x1, .f32⟩
  | .local _ .vmem, ⟨11, _⟩ => ⟨S2048x1, .f32⟩
  | .local _ .vmem, ⟨12, _⟩ => ⟨S2048x512, .f32⟩
  | .local _ .vmem, ⟨13, _⟩ => ⟨S2048x1, .f32⟩
  | .local _ .vmem, ⟨14, _⟩ => ⟨S2048x1, .f32⟩
  | .local _ .vmem, ⟨15, _⟩ => ⟨S2048x128, .f32⟩
  | .local _ .vmem, ⟨16, _⟩ => ⟨S2048x128, .f32⟩
  | .local _ .vmem, ⟨17, _⟩ => ⟨S128x512, .f32⟩
  | .local _ .vmem, ⟨18, _⟩ => ⟨S512, .f32⟩
  | .local _ .vmem, ⟨19, _⟩ => ⟨S512x512, .f32⟩
  | .local _ .vmem, ⟨20, _⟩ => ⟨S512, .f32⟩
  | .local _ .vmem, ⟨21, _⟩ => ⟨S512x640, .f32⟩
  | .local _ .vmem, ⟨22, _⟩ => ⟨S512x640, .f32⟩
  | .local _ .vmem, ⟨23, _⟩ => ⟨S1x640, .f32⟩
  | .local _ .vmem, ⟨24, _⟩ => ⟨S1x640, .f32⟩
  | .local _ .vmem, ⟨25, _⟩ => ⟨S2048x1, .f32⟩
  | .local _ .vmem, ⟨26, _⟩ => ⟨S2048x1, .f32⟩
  | .local _ .vmem, ⟨27, _⟩ => ⟨S2048x640, .f32⟩
  | .local _ .vmem, ⟨28, _⟩ => ⟨S2048x640, .f32⟩
  | .local _ .vmem, ⟨29, _⟩ => ⟨S2048x512, .f32⟩
  | _, _ => ⟨S16x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v33 : BitVec 1 := Scalar.cmpi .eq arg1 c49_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 50], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S2048x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x640 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S_S16x4096x4 : S_.BroadcastsInDim S16x4096x4 (![] : Fin 0 → Fin S16x4096x4.rank)
  bcast_S16x4096x4_S16x4096x4x1_0_1_2 : S16x4096x4.BroadcastsInDim S16x4096x4x1 (![0, 1, 2] : Fin 3 → Fin S16x4096x4x1.rank)
  bcast_S16x4096x4x1_S16x4096x4x128_0_1_2_3 : S16x4096x4x1.BroadcastsInDim S16x4096x4x128 (![0, 1, 2, 3] : Fin 4 → Fin S16x4096x4x128.rank)
  reducesTo_S16x4096x4x128_S16x4096x128_d2 : S16x4096x4x128.ReducesTo [2] S16x4096x128
  h_S_ : 0 < S_.numel
  shapeCasts_S16x4096x128_S65536x128 : S16x4096x128.ShapeCasts S65536x128
  shapeCasts_S65536x128_S8192x8x128 : S65536x128.ShapeCasts S8192x8x128
  reducesTo_S8192x8x128_S8192x128_d1 : S8192x8x128.ReducesTo [1] S8192x128
  shapeCasts_S32000_S1x32000 : S32000.ShapeCasts S1x32000
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x640_S512x640_0_0 : ∀ a, (![0, 0] : Fin 2 → Nat) a + S512x640.size a ≤ S512x640.size a
  h_S512x640 : 0 < S512x640.numel
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  reduces_S2048x640_S2048 : S2048x640.Reduces [1] S2048
  shapeCasts_S2048_S2048x1 : S2048.ShapeCasts S2048x1
  broadcasts_S2048x1_S2048x640 : S2048x1.Broadcasts S2048x640
  inb_S2048x640_S2048x640_0_0 : ∀ a, (![0, 0] : Fin 2 → Nat) a + S2048x640.size a ≤ S2048x640.size a
  h_S2048x640 : 0 < S2048x640.numel
  gather_S32000x4_S16x4096x1_S16x4096x4_2_0_n_n_0_2_14_wf : GatherDims.WF S32000x4 S16x4096x1 S16x4096x4 [2] [0] [] [0] [] 2 ![1, 4]
  gather_S32000x128_S16x4096x4x1_S16x4096x4x128_3_0_n_n_0_3_1128_wf : GatherDims.WF S32000x128 S16x4096x4x1 S16x4096x4x128 [3] [0] [] [0] [] 3 ![1, 128]
  dot_S2048x128_S128x512_S2048x512_1_0_0_1_n_n_wf : DotDims.WF S2048x128 S128x512 S2048x512 [1] [0] [0] [1] [] []
  dot_S2048x512_S512x512_S2048x512_1_0_0_1_n_n_wf : DotDims.WF S2048x512 S512x512 S2048x512 [1] [0] [0] [1] [] []
  dot_S2048x512_S512x640_S2048x640_1_0_0_1_n_n_wf : DotDims.WF S2048x512 S512x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x640.size a ≤ S512x32000.size a
  hwx0_5 : ∀ i : grid0.Coords, EltTy.bits .f32 = 32 ∨ (Rect.block (s := S512x32000) S512x640.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x640.size a ≤ S1x32000.size a
  hwx0_6 : ∀ i : grid0.Coords, EltTy.bits .f32 = 32 ∨ (Rect.block (s := S1x32000) S1x640.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x1.size a ≤ S8192x1.size a
  hwx0_7 : ∀ i : grid0.Coords, EltTy.bits .f32 = 32 ∨ (Rect.block (s := S8192x1) S2048x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x640.size a ≤ S512x32000.size a
  hwx1_5 : ∀ i : grid1.Coords, EltTy.bits .f32 = 32 ∨ (Rect.block (s := S512x32000) S512x640.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x640.size a ≤ S1x32000.size a
  hwx1_6 : ∀ i : grid1.Coords, EltTy.bits .f32 = 32 ∨ (Rect.block (s := S1x32000) S1x640.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x1.size a ≤ S8192x1.size a
  hwx1_7 : ∀ i : grid1.Coords, EltTy.bits .f32 = 32 ∨ (Rect.block (s := S8192x1) S2048x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x640.size a ≤ S8192x32000.size a
  hwx1_8 : ∀ i : grid1.Coords, EltTy.bits .f32 = 32 ∨ (Rect.block (s := S8192x32000) S2048x640.size (cc1_transform_8 i) (hinb1_8 i)).WholeWords (EltTy.packing .f32)

variable [Facts₀]

def gather_S32000x4_S16x4096x1_S16x4096x4_2_0_n_n_0_2_14 : GatherDims S32000x4 S16x4096x1 S16x4096x4 where
  offsetDims := [2]
  collapsedSliceDims := [0]
  operandBatchingDims := []
  startIndicesBatchingDims := []
  startIndexMap := [0]
  indexVectorDim := 2
  sliceSizes := ![1, 4]
  wf := gather_S32000x4_S16x4096x1_S16x4096x4_2_0_n_n_0_2_14_wf
def gather_S32000x128_S16x4096x4x1_S16x4096x4x128_3_0_n_n_0_3_1128 : GatherDims S32000x128 S16x4096x4x1 S16x4096x4x128 where
  offsetDims := [3]
  collapsedSliceDims := [0]
  operandBatchingDims := []
  startIndicesBatchingDims := []
  startIndexMap := [0]
  indexVectorDim := 3
  sliceSizes := ![1, 128]
  wf := gather_S32000x128_S16x4096x4x1_S16x4096x4x128_3_0_n_n_0_3_1128_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x640_S2048x640_1_0_0_1_n_n : DotDims S2048x512 S512x640 S2048x640 where
  lhsContracting := [1]
  rhsContracting := [0]
  lhsNonContracting := [0]
  rhsNonContracting := [1]
  lhsBatch := []
  rhsBatch := []
  wf := dot_S2048x512_S512x640_S2048x640_1_0_0_1_n_n_wf

abbrev win0_0 : Pipeline.Window sig grid0 :=
  Pipeline.Window.ofSpec (Memref.whole main_v27) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S512x640.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x640.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29) S2048x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v27) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S512x640.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x640.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v29) S2048x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30) S2048x640.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16x4096 : Shape := ⟨2, ![16, 4096]⟩
abbrev S32000x4 : Shape := ⟨2, ![32000, 4]⟩
abbrev S32000x128 : Shape := ⟨2, ![32000, 128]⟩
abbrev S128x512 : Shape := ⟨2, ![128, 512]⟩
abbrev S512 : Shape := ⟨1, ![512]⟩
abbrev S512x512 : Shape := ⟨2, ![512, 512]⟩
abbrev S512x32000 : Shape := ⟨2, ![512, 32000]⟩
abbrev S32000 : Shape := ⟨1, ![32000]⟩
abbrev S_ : Shape := ⟨0, ![]⟩
abbrev S16x4096x1 : Shape := ⟨3, ![16, 4096, 1]⟩
abbrev S16x4096x4 : Shape := ⟨3, ![16, 4096, 4]⟩
abbrev S16x4096x4x1 : Shape := ⟨4, ![16, 4096, 4, 1]⟩
abbrev S16x4096x4x128 : Shape := ⟨4, ![16, 4096, 4, 128]⟩
abbrev S16x4096x128 : Shape := ⟨3, ![16, 4096, 128]⟩
abbrev S65536x128 : Shape := ⟨2, ![65536, 128]⟩
abbrev S8192x8x128 : Shape := ⟨3, ![8192, 8, 128]⟩
abbrev S8192x128 : Shape := ⟨2, ![8192, 128]⟩
abbrev S8192x512 : Shape := ⟨2, ![8192, 512]⟩
abbrev S1x512 : Shape := ⟨2, ![1, 512]⟩
abbrev S8192x32000 : Shape := ⟨2, ![8192, 32000]⟩
abbrev S1x32000 : Shape := ⟨2, ![1, 32000]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S16x4096, .i32⟩
  | .hbm, ⟨1, _⟩ => ⟨S32000x4, .i32⟩
  | .hbm, ⟨2, _⟩ => ⟨S32000x4, .f32⟩
  | .hbm, ⟨3, _⟩ => ⟨S32000x128, .f32⟩
  | .hbm, ⟨4, _⟩ => ⟨S128x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x32000, .f32⟩
  | .hbm, ⟨9, _⟩ => ⟨S32000, .f32⟩
  | .hbm, ⟨10, _⟩ => ⟨S_, .i32⟩
  | .hbm, ⟨11, _⟩ => ⟨S16x4096, .i32⟩
  | .hbm, ⟨12, _⟩ => ⟨S16x4096, .i1⟩
  | .hbm, ⟨13, _⟩ => ⟨S_, .i32⟩
  | .hbm, ⟨14, _⟩ => ⟨S16x4096, .i32⟩
  | .hbm, ⟨15, _⟩ => ⟨S16x4096, .i32⟩
  | .hbm, ⟨16, _⟩ => ⟨S16x4096, .i32⟩
  | .hbm, ⟨17, _⟩ => ⟨S16x4096x1, .i32⟩
  | .hbm, ⟨18, _⟩ => ⟨S16x4096x4, .i32⟩
  | .hbm, ⟨19, _⟩ => ⟨S_, .i32⟩
  | .hbm, ⟨20, _⟩ => ⟨S16x4096, .i32⟩
  | .hbm, ⟨21, _⟩ => ⟨S16x4096, .i1⟩
  | .hbm, ⟨22, _⟩ => ⟨S_, .i32⟩
  | .hbm, ⟨23, _⟩ => ⟨S16x4096, .i32⟩
  | .hbm, ⟨24, _⟩ => ⟨S16x4096, .i32⟩
  | .hbm, ⟨25, _⟩ => ⟨S16x4096, .i32⟩
  | .hbm, ⟨26, _⟩ => ⟨S16x4096x1, .i32⟩
  | .hbm, ⟨27, _⟩ => ⟨S16x4096x4, .f32⟩
  | .hbm, ⟨28, _⟩ => ⟨S_, .i32⟩
  | .hbm, ⟨29, _⟩ => ⟨S16x4096x4, .i32⟩
  | .hbm, ⟨30, _⟩ => ⟨S16x4096x4, .i1⟩
  | .hbm, ⟨31, _⟩ => ⟨S_, .i32⟩
  | .hbm, ⟨32, _⟩ => ⟨S16x4096x4, .i32⟩
  | .hbm, ⟨33, _⟩ => ⟨S16x4096x4, .i32⟩
  | .hbm, ⟨34, _⟩ => ⟨S16x4096x4, .i32⟩
  | .hbm, ⟨35, _⟩ => ⟨S16x4096x4x1, .i32⟩
  | .hbm, ⟨36, _⟩ => ⟨S16x4096x4x128, .f32⟩
  | .hbm, ⟨37, _⟩ => ⟨S16x4096x4x1, .f32⟩
  | .hbm, ⟨38, _⟩ => ⟨S16x4096x4x128, .f32⟩
  | .hbm, ⟨39, _⟩ => ⟨S16x4096x4x128, .f32⟩
  | .hbm, ⟨40, _⟩ => ⟨S_, .f32⟩
  | .hbm, ⟨41, _⟩ => ⟨S16x4096x128, .f32⟩
  | .hbm, ⟨42, _⟩ => ⟨S65536x128, .f32⟩
  | .hbm, ⟨43, _⟩ => ⟨S8192x8x128, .f32⟩
  | .hbm, ⟨44, _⟩ => ⟨S_, .f32⟩
  | .hbm, ⟨45, _⟩ => ⟨S8192x128, .f32⟩
  | .hbm, ⟨46, _⟩ => ⟨S8192x512, .f32⟩
  | .hbm, ⟨47, _⟩ => ⟨S1x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S8192x512, .f32⟩
  | .hbm, ⟨59, _⟩ => ⟨S8192x512, .f32⟩
  | .hbm, ⟨60, _⟩ => ⟨S8192x32000, .f32⟩
  | .hbm, ⟨61, _⟩ => ⟨S1x32000, .f32⟩
  | .hbm, ⟨62, _⟩ => ⟨S8192x32000, .f32⟩
  | .hbm, ⟨63, _⟩ => ⟨S8192x32000, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192x1, .f32⟩
  | .hbm, ⟨70, _⟩ => ⟨S8192x32000, .f32⟩
  | .hbm, ⟨71, _⟩ => ⟨S8192x32000, .f32⟩
  | .hbm, ⟨72, _⟩ => ⟨S8192x32000, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1, .f32⟩
  | .hbm, ⟨77, _⟩ => ⟨S8192x32000, .f32⟩
  | .hbm, ⟨78, _⟩ => ⟨S8192x32000, .f32⟩
  | _, _ => ⟨S16x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call2_cst : Ref sig .tc := ⟨.hbm, 64, rfl⟩
abbrev main_call2_v0 : Ref sig .tc := ⟨.hbm, 65, rfl⟩
abbrev main_call2_cst_0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_cst_1 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_v42 : Ref sig .tc := ⟨.hbm, 78, rfl⟩

abbrev nD : Nat := 1
abbrev τ : Topo := Topo.v7x

variable {F : FTy → Type} [FloatOps F]

class Facts₀ : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S_S16x4096x4 : S_.BroadcastsInDim S16x4096x4 (![] : Fin 0 → Fin S16x4096x4.rank)
  bcast_S16x4096x4_S16x4096x4x1_0_1_2 : S16x4096x4.BroadcastsInDim S16x4096x4x1 (![0, 1, 2] : Fin 3 → Fin S16x4096x4x1.rank)
  bcast_S16x4096x4x1_S16x4096x4x128_0_1_2_3 : S16x4096x4x1.BroadcastsInDim S16x4096x4x128 (![0, 1, 2, 3] : Fin 4 → Fin S16x4096x4x128.rank)
  reducesTo_S16x4096x4x128_S16x4096x128_d2 : S16x4096x4x128.ReducesTo [2] S16x4096x128
  h_S_ : 0 < S_.numel
  shapeCasts_S16x4096x128_S65536x128 : S16x4096x128.ShapeCasts S65536x128
  shapeCasts_S65536x128_S8192x8x128 : S65536x128.ShapeCasts S8192x8x128
  reducesTo_S8192x8x128_S8192x128_d1 : S8192x8x128.ReducesTo [1] S8192x128
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S32000_S1x32000_1 : S32000.BroadcastsInDim S1x32000 (![1] : Fin 1 → Fin S1x32000.rank)
  bcast_S1x32000_S8192x32000_0_1 : S1x32000.BroadcastsInDim S8192x32000 (![0, 1] : Fin 2 → Fin S8192x32000.rank)
  reducesTo_S8192x32000_S8192_d1 : S8192x32000.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  gather_S32000x4_S16x4096x1_S16x4096x4_2_0_n_n_0_2_14_wf : GatherDims.WF S32000x4 S16x4096x1 S16x4096x4 [2] [0] [] [0] [] 2 ![1, 4]
  gather_S32000x128_S16x4096x4x1_S16x4096x4x128_3_0_n_n_0_3_1128_wf : GatherDims.WF S32000x128 S16x4096x4x1 S16x4096x4x128 [3] [0] [] [0] [] 3 ![1, 128]
  dot_S8192x128_S128x512_S8192x512_1_0_0_1_n_n_wf : DotDims.WF S8192x128 S128x512 S8192x512 [1] [0] [0] [1] [] []
  dot_S8192x512_S512x512_S8192x512_1_0_0_1_n_n_wf : DotDims.WF S8192x512 S512x512 S8192x512 [1] [0] [0] [1] [] []
  dot_S8192x512_S512x32000_S8192x32000_1_0_0_1_n_n_wf : DotDims.WF S8192x512 S512x32000 S8192x32000 [1] [0] [0] [1] [] []

variable [Facts₀]

def gather_S32000x4_S16x4096x1_S16x4096x4_2_0_n_n_0_2_14 : GatherDims S32000x4 S16x4096x1 S16x4096x4 where
  offsetDims := [2]
  collapsedSliceDims := [0]
  operandBatchingDims := []
  startIndicesBatchingDims := []
  startIndexMap := [0]
  indexVectorDim := 2
  sliceSizes := ![1, 4]
  wf := gather_S32000x4_S16x4096x1_S16x4096x4_2_0_n_n_0_2_14_wf
def gather_S32000x128_S16x4096x4x1_S16x4096x4x128_3_0_n_n_0_3_1128 : GatherDims S32000x128 S16x4096x4x1 S16x4096x4x128 where
  offsetDims := [3]
  collapsedSliceDims := [0]
  operandBatchingDims := []
  startIndicesBatchingDims := []
  startIndexMap := [0]
  indexVectorDim := 3
  sliceSizes := ![1, 128]
  wf := gather_S32000x128_S16x4096x4x1_S16x4096x4x128_3_0_n_n_0_3_1128_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x32000_S8192x32000_1_0_0_1_n_n : DotDims S8192x512 S512x32000 S8192x32000 where
  lhsContracting := [1]
  rhsContracting := [0]
  lhsNonContracting := [0]
  rhsNonContracting := [1]
  lhsBatch := []
  rhsBatch := []
  wf := dot_S8192x512_S512x32000_S8192x32000_1_0_0_1_n_n_wf

class Facts : Prop extends Facts₀ where

variable [Facts]
-- ==== Proof.KernelR0Runs.lean ====
/-
  Kernel 1 (the row statistics), what its three control cases share.

  The grid is 4 row tiles by 50 column tiles, the column tile running fastest. The body branches twice on the column
  tile j: at j = 0 it recomputes the hidden tile and resets the running maximum and running sum; at j = 49 it writes
  the tile of log-sum-exp values. So a point is in one of three cases: first column tile, a middle one, the last one.
  The output block (one per row tile) is stored only in the last case and written back only there.
-/
import proofs.«128076_j14156212207627_1_alg».proof.Proof.Gen.Kernel.Launch
import proofs.«128076_j14156212207627_1_alg».proof.Proof.Gen.Kernel.Skeleton
import proofs.«128076_j14156212207627_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions, in closed form over the grid -/

/-- The body's first branch: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The body's second branch: the column tile is the last. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last column tile the output block is neither stored into nor written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev VO0_7 : View sig .tc .vmem S2048x1 .f32 := (Memref.whole cc0_stg7_0 : Memref sig .tc .vmem S2048x1 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1 .f32 := win0_7.stage (cfg0.slots t 7)
abbrev hs0_7 (t : Fin cfg0.N) : (ms0_7 t).IsWhole := hstage0_7 ((cfg0.slots t 7).cast nbuf0_7)
/-- The three scratch buffers: the hidden tile, the running maximum, the running sum. -/
abbrev scM0_0 : Memref sig .tc .vmem S2048x512 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x512 .f32 := scM0_0.view
abbrev VS0_1 : View sig .tc .vmem S2048x1 .f32 := scM0_1.view
abbrev VS0_2 : View sig .tc .vmem S2048x1 .f32 := scM0_2.view

/-- The scoped buffers of the core other than this kernel's staging buffers and its three scratch buffers. -/
abbrev others0 (c : Dev nD) : sProp 𝕄 :=
  Pipeline.scopedRestBut (Ix := Unit) (Name := ℕ) (U := Pipeline.UD sig nD τ) (Lvl := ℕ) (Val := Elt F) spec0 c [cc0_scratch0, cc0_scratch1, cc0_scratch2]

/-- The class invariant with the three scratch buffers named. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d) ∗ (∃ d, owns (c : Thread nD τ) scM0_2 fullShare d))
          ∗ others0 c) ∗ (∃ r, prngReg c r)) := by
  unfold Pipeline.ΦA
  rw [Pipeline.scopedRest_split_of_list spec0 c [cc0_scratch0, cc0_scratch1, cc0_scratch2] (by decide) (by decide)]
  simp only [scM0_0, scM0_1, scM0_2, owns_whole]; try rfl

end Cert.Kernel.Hand

end
-- ==== Proof.KernelR0RunA.lean ====
/-
  Kernel 1, first column tile of a row tile: the hidden tile is recomputed and stored, the running maximum and the
  running sum are reset and then updated with this tile; the output block is left untouched.
-/
import proofs.«128076_j14156212207627_1_alg».proof.Proof.KernelR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the first case, on whole memrefs: the seven inputs at their contents, the output block at contents
    handed back untouched, the three scratch buffers at anything. It runs to the continuation holding the inputs as
    they were and each scratch buffer with the stores made into it (the lists are found by running the body). -/
noncomputable def kernelRun0_A (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) :
    Σ' (LS0 : List (View.Piece (Elt F) S2048x512 .f32)) (LS1 : List (View.Piece (Elt F) S2048x1 .f32)), { LS2 : List (View.Piece (Elt F) S2048x1 .f32) //
      ∀ (xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.Kernel.Hand

end
-- ==== Proof.KernelR0RunB.lean ====
/-
  Kernel 1, a middle column tile: the hidden tile is read from its scratch buffer, the running maximum and the running
  sum are updated with this tile; the output block is left untouched.
-/
import proofs.«128076_j14156212207627_1_alg».proof.Proof.KernelR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the middle case, on whole memrefs: the inputs at their contents, the output block handed back untouched,
    the hidden tile's scratch at what the point before left (handed back as it is), the running maximum and sum at what
    the point before left, ending with the stores made into them. -/
noncomputable def kernelRun0_B (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    Σ' (LS1 : List (View.Piece (Elt F) S2048x1 .f32)), { LS2 : List (View.Piece (Elt F) S2048x1 .f32) //
      ∀ (xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
                ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]; · iexists _; iexact HS1
    iexists _; iexact HS2

end Cert.Kernel.Hand

end
-- ==== Proof.KernelR0RunC.lean ====
/-
  Kernel 1, the last column tile: as a middle tile, and then the tile of log-sum-exp values — running maximum plus the
  logarithm of the running sum — is stored into the output block.
-/
import proofs.«128076_j14156212207627_1_alg».proof.Proof.KernelR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the last case, on whole memrefs: the inputs at their contents, the output block at anything, ending with
    the store made into it; the scratch buffers as in the middle case. -/
noncomputable def kernelRun0_C (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    Σ' (L7 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)
                ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    iexists _; iexact HS2

end Cert.Kernel.Hand

end
-- ==== Proof.KernelR0Data.lean ====
/-
  Kernel 1: what its scratch buffers and its output block hold point by point, the proof data of its pipeline, and the
  body obligation.
-/
import proofs.«128076_j14156212207627_1_alg».proof.Proof.KernelR0RunA
import proofs.«128076_j14156212207627_1_alg».proof.Proof.KernelR0RunB
import proofs.«128076_j14156212207627_1_alg».proof.Proof.KernelR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- First case, the hidden tile's scratch: the stores cover the buffer: one store of the whole shape. -/
theorem scover0_A_0 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1 S2048x512.size (by sl_kernel_rfl) y
/-- What the case leaves there: its stores read back. -/
def sout0_A_0 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- First case, the running maximum: the stores cover the buffer: one store of the whole shape. -/
theorem scover0_A_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1 S2048x1.size (by sl_kernel_rfl) y
/-- What the case leaves there: its stores read back. -/
def sout0_A_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- First case, the running sum: the stores cover the buffer: one store of the whole shape. -/
theorem scover0_A_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S2048x1.size (by sl_kernel_rfl) y
/-- What the case leaves there: its stores read back. -/
def sout0_A_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Middle case, the running maximum: the stores cover the buffer: one store of the whole shape. -/
theorem scover0_B_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S2048x1.size (by sl_kernel_rfl) y
/-- What the case leaves there: its stores read back. -/
def sout0_B_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1)

/-- Middle case, the running sum: the stores cover the buffer: one store of the whole shape. -/
theorem scover0_B_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S2048x1.size (by sl_kernel_rfl) y
/-- What the case leaves there: its stores read back. -/
def sout0_B_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1)

/-- Last case, the output block: the stores cover the buffer: one store of the whole shape. -/
theorem cover0_C_7 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S2048x1.size (by sl_kernel_rfl) y
/-- What the case leaves there: its stores read back. -/
def out0_C_7 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1)

/-- Last case, the running maximum: the stores cover the buffer: one store of the whole shape. -/
theorem scover0_C_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S2048x1.size (by sl_kernel_rfl) y
/-- What the case leaves there: its stores read back. -/
def sout0_C_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1)

/-- Last case, the running sum: the stores cover the buffer: one store of the whole shape. -/
theorem scover0_C_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S2048x1.size (by sl_kernel_rfl) y
/-- What the case leaves there: its stores read back. -/
def sout0_C_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1)

section Points
variable (V : (c : Dev nD) → (b : Ref sig .tc) → Buf (Elt F) ((c : Thread nD τ).loc b))

/-- Window `w`'s block at point `t`, read off its array as the kernel call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After a point of the first case: the output block's buffer is not consulted; the three scratch buffers hold what the
    case stored. -/
def stepA (c : Dev nD) (t : Fin cfg0.N) (h0 : t.val % 50 = 0) : Vec F S2048x1 .f32 × Vec F S2048x512 .f32 × Vec F S2048x1 .f32 × Vec F S2048x1 .f32 :=
  (VO0_7.read (Elt F) VO0_7.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t))

/-- After a point of the middle case: the hidden tile as before, the running maximum and sum as the case stored them
    from what the point before left. -/
def stepB (c : Dev nD) (t : Fin cfg0.N) (h0 : ¬t.val % 50 = 0) (h1 : ¬t.val % 50 = 49) (prev : Vec F S2048x1 .f32 × Vec F S2048x512 .f32 × Vec F S2048x1 .f32 × Vec F S2048x1 .f32) : Vec F S2048x1 .f32 × Vec F S2048x512 .f32 × Vec F S2048x1 .f32 × Vec F S2048x1 .f32 :=
  (VO0_7.read (Elt F) VO0_7.junk, prev.2.1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) prev.2.1 prev.2.2.1 prev.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) prev.2.1 prev.2.2.1 prev.2.2.2)

/-- After a point of the last case: also the output block as the case stored it. -/
def stepC (c : Dev nD) (t : Fin cfg0.N) (h0 : ¬t.val % 50 = 0) (h1 : t.val % 50 = 49) (prev : Vec F S2048x1 .f32 × Vec F S2048x512 .f32 × Vec F S2048x1 .f32 × Vec F S2048x1 .f32) : Vec F S2048x1 .f32 × Vec F S2048x512 .f32 × Vec F S2048x1 .f32 × Vec F S2048x1 .f32 :=
  (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2, prev.2.1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2)

/-- What the output block's staging buffer and the three scratch buffers hold after the body at position `n`, by recursion
    on the position: the case the column tile selects, run on what the position before left. -/
def outsAt0 (c : Dev nD) : (n : ℕ) → n < cfg0.N → Vec F S2048x1 .f32 × Vec F S2048x512 .f32 × Vec F S2048x1 .f32 × Vec F S2048x1 .f32
  | 0, hn => stepA V c ⟨0, hn⟩ (Nat.zero_mod _)
  | n + 1, hn =>
    if h0 : (n + 1) % 50 = 0 then stepA V c ⟨n + 1, hn⟩ h0
    else if h1 : (n + 1) % 50 = 49 then stepC V c ⟨n + 1, hn⟩ h0 h1 (outsAt0 c n (Nat.lt_of_succ_lt hn))
    else stepB V c ⟨n + 1, hn⟩ h0 h1 (outsAt0 c n (Nat.lt_of_succ_lt hn))

theorem outsAt0_A (c : Dev nD) (t : Fin cfg0.N) (h0 : t.val % 50 = 0) : outsAt0 V c t.val t.isLt = stepA V c t h0 := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 V c t.val t.isLt = stepB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 V c t.val t.isLt = stepC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The kernel call's invariant before position `n`: before the first point every scratch buffer at anything; afterwards the
    three scratch buffers at what the point before left. -/
def PhiS0 (c : Dev nD) : (n : ℕ) → n ≤ cfg0.N → sProp 𝕄
  | 0, _ => Pipeline.ΦA spec0 c
  | n + 1, hn => iprop((((owns (c : Thread nD τ) scM0_0 fullShare (outsAt0 V c n hn).2.1) ∗ (owns (c : Thread nD τ) scM0_1 fullShare (outsAt0 V c n hn).2.2.1) ∗ (owns (c : Thread nD τ) scM0_2 fullShare (outsAt0 V c n hn).2.2.2))
      ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((((owns (c : Thread nD τ) scM0_0 fullShare (outsAt0 V c n hn).2.1) ∗ (owns (c : Thread nD τ) scM0_1 fullShare (outsAt0 V c n hn).2.2.1) ∗ (owns (c : Thread nD τ) scM0_2 fullShare (outsAt0 V c n hn).2.2.2))
      ∗ others0 c) ∗ (∃ r, prngReg c r)) := rfl

theorem PhiS0_pos (c : Dev nD) (n : ℕ) (h : n ≤ cfg0.N) (hz : n ≠ 0) :
    PhiS0 V c n h = iprop((((owns (c : Thread nD τ) scM0_0 fullShare (outsAt0 V c (n - 1) (by omega)).2.1) ∗ (owns (c : Thread nD τ) scM0_1 fullShare (outsAt0 V c (n - 1) (by omega)).2.2.1) ∗ (owns (c : Thread nD τ) scM0_2 fullShare (outsAt0 V c (n - 1) (by omega)).2.2.2))
      ∗ others0 c) ∗ (∃ r, prngReg c r)) := by
  cases n with
  | zero => exact absurd rfl hz
  | succ n => rfl

/-! ## The proof data -/

/-- The arrays as the kernel call finds them; after the body each input's buffer at its block, the output's at the
    recursion's first component; the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

end Points

end Cert.Kernel.Hand

end
-- ==== Proof.KernelR0Body.lean ====
/-
  Kernel 1: the body obligation at every grid point, and the invariant's two ends.
-/
import proofs.«128076_j14156212207627_1_alg».proof.Proof.KernelR0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (V : (c : Dev nD) → (b : Ref sig .tc) → Buf (Elt F) ((c : Thread nD τ).loc b))

/-- What the body is called with at point `t`: the invariant, the (empty) dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the column tile says which of the three cases the point is in; the inputs' buffers hold their
    blocks; the invariant hands over the scratch buffers at what the point before left (at anything before the first
    point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 200 := lt_of_lt_of_eq t.isLt (show cfg0.N = 200 from N_0)
  by_cases h0 : t.val % 50 = 0
  · have h1 : ¬t.val % 50 = 49 := by omega
    rw [Dat.leavesExact_idle (dat0 V c) 7 t (idleAt0_7 t (fun h => h1 ((hcond0_1 t).mp h))) (noFlush0_7 t (fun h => h1 ((hcond0_1 t).mp h)))]
    rw [outsAt0_A V c t h0]
    unfold stepA sout0_A_0 sout0_A_1 sout0_A_2; (try dsimp only)
    by_cases hz : t.val = 0
    · rw [PhiS0_castSucc V c t, PhiS0_zero V c _ _ hz, PhiA0_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 50 = 49
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold stepC out0_C_7 sout0_C_1 sout0_C_2; (try dsimp only)
      rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, HS0, ⟨%es1, HS1⟩, ⟨%es2, HS2⟩⟩
      isplitl [HS0 HS1 HS2 Hoth Hg]
      · isplitl [HS0 HS1 HS2 Hoth]
        · isplitl [HS0 HS1 HS2]
          · isplitl [HS0]; · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold stepB sout0_B_1 sout0_B_2; (try dsimp only)
      rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hoth Hg]
      · isplitl [HS0 HS1 HS2 Hoth]
        · isplitl [HS0 HS1 HS2]
          · isplitl [HS0]; · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

theorem Phi_last0 (c : Dev nD) : (dat0 V c).Φ (Fin.last cfg0.N) ⊢ Pipeline.ΦA spec0 c :=
  Phi_out0 V c _ (by rw [Fin.val_last]; have : cfg0.N = 200 := N_0; omega)

end Body

end Cert.Kernel.Hand

end
-- ==== Proof.KernelR1Runs.lean ====
/-
  Kernel 2 (the normalised scores), what its two control cases share.

  The same grid, 4 row tiles by 50 column tiles. The body branches once: at the first column tile it recomputes the
  hidden tile into its scratch buffer. At every point it stores the tile of scores minus the row's log-sum-exp into the
  output block, which is written back at every point.
-/
import proofs.«128076_j14156212207627_1_alg».proof.Proof.Gen.Kernel.Launch
import proofs.«128076_j14156212207627_1_alg».proof.Proof.Gen.Kernel.Skeleton
import proofs.«128076_j14156212207627_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's branch: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel

abbrev VO1_8 : View sig .tc .vmem S2048x640 .f32 := (Memref.whole cc1_stg8_0 : Memref sig .tc .vmem S2048x640 .f32).view
abbrev ms1_0 (t : Fin cfg1.N) : Memref sig .tc .vmem S2048x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x640 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x640 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x640 .f32 := win1_8.stage (cfg1.slots t 8)
abbrev hs1_8 (t : Fin cfg1.N) : (ms1_8 t).IsWhole := hstage1_8 ((cfg1.slots t 8).cast nbuf1_8)
/-- The scratch buffer: the hidden tile. -/
abbrev scM1_0 : Memref sig .tc .vmem S2048x512 .f32 := Memref.whole cc1_scratch0
abbrev VS1_0 : View sig .tc .vmem S2048x512 .f32 := scM1_0.view

/-- The scoped buffers of the core other than this kernel's staging buffers and its scratch buffer. -/
abbrev others1 (c : Dev nD) : sProp 𝕄 :=
  Pipeline.scopedRestBut (Ix := Unit) (Name := ℕ) (U := Pipeline.UD sig nD τ) (Lvl := ℕ) (Val := Elt F) spec1 c [cc1_scratch0]

/-- The class invariant with the scratch buffer named. -/
theorem PhiA1_eq (c : Dev nD) :
    (Pipeline.ΦA spec1 c : sProp 𝕄)
      = iprop(((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole]; try rfl

end Cert.Kernel.Hand

end
-- ==== Proof.KernelR1RunA.lean ====
/-
  Kernel 2, first column tile of a row tile: the hidden tile is recomputed and stored in the scratch buffer; the output
  tile is stored.
-/
import proofs.«128076_j14156212207627_1_alg».proof.Proof.KernelR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the first case, on whole memrefs: the eight inputs at their contents, the output block and the scratch
    buffer at anything; it ends with the stores made into the output block and into the scratch buffer. -/
noncomputable def kernelRun1_A (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) :
    Σ' (L8 : List (View.Piece (Elt F) S2048x640 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Hand

end
-- ==== Proof.KernelR1RunB.lean ====
/-
  Kernel 2, a later column tile: the hidden tile is read from the scratch buffer; the output tile is stored.
-/
import proofs.«128076_j14156212207627_1_alg».proof.Proof.KernelR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the second case, on whole memrefs: the eight inputs at their contents, the output block at anything, the
    scratch buffer at what the point before left (handed back as it is); it ends with the store made into the output block. -/
noncomputable def kernelRun1_B (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) :
    { L8 : List (View.Piece (Elt F) S2048x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.Kernel.Hand

end
-- ==== Proof.KernelR1Data.lean ====
/-
  Kernel 2: what its scratch buffer and its output block hold point by point, and the proof data of its pipeline.
-/
import proofs.«128076_j14156212207627_1_alg».proof.Proof.KernelR1RunA
import proofs.«128076_j14156212207627_1_alg».proof.Proof.KernelR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- First case, the output block: the stores cover the buffer: one store of the whole shape. -/
theorem cover1_A_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (y : S2048x640.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).1 S2048x640.size (by sl_kernel_rfl) y
/-- What the case leaves there: its stores read back. -/
def out1_A_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) : Vec F S2048x640 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6 x7).1)

/-- First case, the hidden tile's scratch: the stores cover the buffer: one store of the whole shape. -/
theorem scover1_A_0 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (y : S2048x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).2.1 S2048x512.size (by sl_kernel_rfl) y
/-- What the case leaves there: its stores read back. -/
def sout1_A_0 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) : Vec F S2048x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6 x7).2.1)

/-- Second case, the output block: the stores cover the buffer: one store of the whole shape. -/
theorem cover1_B_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) (y : S2048x640.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).1 S2048x640.size (by sl_kernel_rfl) y
/-- What the case leaves there: its stores read back. -/
def out1_B_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) : Vec F S2048x640 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).1)

section Points
variable (V : (c : Dev nD) → (b : Ref sig .tc) → Buf (Elt F) ((c : Thread nD τ).loc b))

/-- Window `w`'s block at point `t`, read off its array as the kernel call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After a point of the first case: the output block and the scratch buffer as the case stored them. -/
def stepA1 (c : Dev nD) (t : Fin cfg1.N) (h0 : t.val % 50 = 0) : Vec F S2048x640 .f32 × Vec F S2048x512 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t))

/-- After a point of the second case: the output block as the case stored it from the hidden tile the point before left,
    the hidden tile as before. -/
def stepB1 (c : Dev nD) (t : Fin cfg1.N) (h0 : ¬t.val % 50 = 0) (prev : Vec F S2048x640 .f32 × Vec F S2048x512 .f32) : Vec F S2048x640 .f32 × Vec F S2048x512 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) prev.2, prev.2)

/-- What the output block's staging buffer and the scratch buffer hold after the body at position `n`. -/
def outsAt1 (c : Dev nD) : (n : ℕ) → n < cfg1.N → Vec F S2048x640 .f32 × Vec F S2048x512 .f32
  | 0, hn => stepA1 V c ⟨0, hn⟩ (Nat.zero_mod _)
  | n + 1, hn =>
    if h0 : (n + 1) % 50 = 0 then stepA1 V c ⟨n + 1, hn⟩ h0
    else stepB1 V c ⟨n + 1, hn⟩ h0 (outsAt1 c n (Nat.lt_of_succ_lt hn))

theorem outsAt1_A (c : Dev nD) (t : Fin cfg1.N) (h0 : t.val % 50 = 0) : outsAt1 V c t.val t.isLt = stepA1 V c t h0 := by
  obtain ⟨n, hn⟩ := t
  cases n with
  | zero => rfl
  | succ n => exact dif_pos h0

theorem outsAt1_B (c : Dev nD) (t : Fin cfg1.N) (h0 : ¬t.val % 50 = 0) :
    outsAt1 V c t.val t.isLt = stepB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The kernel call's invariant before position `n`. -/
def PhiS1 (c : Dev nD) : (n : ℕ) → n ≤ cfg1.N → sProp 𝕄
  | 0, _ => Pipeline.ΦA spec1 c
  | n + 1, hn => iprop(((owns (c : Thread nD τ) scM1_0 fullShare (outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (outsAt1 V c n hn).2) ∗ others1 c) ∗ (∃ r, prngReg c r)) := rfl

theorem PhiS1_pos (c : Dev nD) (n : ℕ) (h : n ≤ cfg1.N) (hz : n ≠ 0) :
    PhiS1 V c n h = iprop(((owns (c : Thread nD τ) scM1_0 fullShare (outsAt1 V c (n - 1) (by omega)).2) ∗ others1 c) ∗ (∃ r, prngReg c r)) := by
  cases n with
  | zero => exact absurd rfl hz
  | succ n => rfl

/-- The proof data of kernel 2's pipeline. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input window 6's current staging buffer holds its block at every point, fetched there or not. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- Input window 7's current staging buffer holds its block at every point, fetched there or not. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

end Points

end Cert.Kernel.Hand

end
-- ==== Proof.KernelR1Body.lean ====
/-
  Kernel 2: the body obligation at every grid point, and the invariant's two ends.
-/
import proofs.«128076_j14156212207627_1_alg».proof.Proof.KernelR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the column tile says which case the point is in; the inputs' buffers hold their blocks; the
    invariant hands over the scratch buffer at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val % 50 = 0
  · rw [outsAt1_A V c t h0]
    unfold stepA1 out1_A_8 sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
  · have hz : t.val ≠ 0 := fun e => h0 (by rw [e])
    rw [outsAt1_B V c t h0]
    unfold stepB1 out1_B_8; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, HS0⟩
    isplitl [HS0 Hoth Hg]
    · isplitl [HS0 Hoth]
      · isplitl [HS0]; · iexact HS0
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]; · iexists _; iexact HS0
    iexact Hoth
  iexact Hg

theorem Phi_last1 (c : Dev nD) : (dat1 V c).Φ (Fin.last cfg1.N) ⊢ Pipeline.ΦA spec1 c :=
  Phi_out1 V c _ (by rw [Fin.val_last]; have : cfg1.N = 200 := N_1; omega)

end Body

end Cert.Kernel.Hand

end
-- ==== Proof.KernelMain.lean ====
/-
  The whole run of the kernel program: the host operations, then kernel 1, then kernel 2, composed in order. Between
  two of them the core holds every unscoped buffer at a named valuation: the launch contents, then those after the
  host operations, then with kernel 1's arrays at what its pipeline leaves, then with kernel 2's.
-/
import proofs.«128076_j14156212207627_1_alg».proof.Proof.KernelR0Body
import proofs.«128076_j14156212207627_1_alg».proof.Proof.KernelR1Body
import proofs.«128076_j14156212207627_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- After the host operations (kernel 1's entry). -/
abbrev W1 (c : Dev nD) : Valuation τ sig (Elt F) := Gen.V1 m c
abbrev VA : (c : Dev nD) → (b : Ref sig .tc) → Buf (Elt F) ((c : Thread nD τ).loc b) := fun c b => W1 m c b
/-- After kernel 1: its arrays at what its pipeline leaves, every other buffer as entered (kernel 2's entry). -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After kernel 2. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m c b
theorem hF1 (c : Dev nD) (w : Fin cfg1.W) : (dat1 (VB m) c).arrAt w cfg1.N = VC m c (Pipeline.arrRef spec1 w) :=
  (W3_arr m c w).symm
theorem hrest1 (c : Dev nD) : ∀ b, b ∉ Finset.univ.image (Pipeline.arrRef spec1) → VC m c b = VB m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The host operations as a segment, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two kernel calls as segments -/

set_option backward.isDefEq.respectTransparency.types false in
/-- Kernel 1 over the thread state: entered from every unscoped buffer at the contents after the host operations, left
    with its arrays at what its pipeline leaves. Its arrays are split out of the unscoped buffers and put back; the
    generator register goes into the invariant and comes back; nothing is owed; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state, in the same way: entered at the contents kernel 1 left, left with its arrays at what
    its pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_last1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m),
    .region (reg0 m),
    .region (reg1 m) ]

theorem main_run (c : Dev nD) : main (F := F) c = Pipeline.Seg.run (segs m) := by
  rw [main_chain c, Pipeline.Seg.run_eq_chain]
  rfl

set_option backward.isDefEq.respectTransparency.types false in
/-- From any memory with zero counters every weakly fair execution of the program terminates, nothing faulting, and every
    final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Hand

end
-- ==== Proof.KernelArgs.lean ====
/-
  The run read at the program's arguments and at its result: no host operation and no kernel call writes an argument,
  so each ends as launched; the result array ends at what kernel 2's pipeline leaves in it.
-/
import proofs.«128076_j14156212207627_1_alg».proof.Proof.KernelMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := Gen.V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := Gen.V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := Gen.V1_of m c main_arg9 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((dat1 (VB m) c).arrAt_in 1 rfl _).trans (A_eq1 (VB m) c 1))
    _ = W1 m c (Proc.devRef .tc main_arg4) := (W2_arr m c 1).trans (((dat0 (VA m) c).arrAt_in 1 rfl _).trans (A_eq0 (VA m) c 1))
    _ = m ((c : Thread nD τ).loc main_arg4) := Gen.V1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 2).trans (((dat1 (VB m) c).arrAt_in 2 rfl _).trans (A_eq1 (VB m) c 2))
    _ = W1 m c (Proc.devRef .tc main_arg5) := (W2_arr m c 2).trans (((dat0 (VA m) c).arrAt_in 2 rfl _).trans (A_eq0 (VA m) c 2))
    _ = m ((c : Thread nD τ).loc main_arg5) := Gen.V1_of m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (VB m) c).arrAt_in 3 rfl _).trans (A_eq1 (VB m) c 3))
    _ = W1 m c (Proc.devRef .tc main_arg6) := (W2_arr m c 3).trans (((dat0 (VA m) c).arrAt_in 3 rfl _).trans (A_eq0 (VA m) c 3))
    _ = m ((c : Thread nD τ).loc main_arg6) := Gen.V1_of m c main_arg6 (by decide)
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 4).trans (((dat1 (VB m) c).arrAt_in 4 rfl _).trans (A_eq1 (VB m) c 4))
    _ = W1 m c (Proc.devRef .tc main_arg7) := (W2_arr m c 4).trans (((dat0 (VA m) c).arrAt_in 4 rfl _).trans (A_eq0 (VA m) c 4))
    _ = m ((c : Thread nD τ).loc main_arg7) := Gen.V1_of m c main_arg7 (by decide)
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 5).trans (((dat1 (VB m) c).arrAt_in 5 rfl _).trans (A_eq1 (VB m) c 5))
    _ = W1 m c (Proc.devRef .tc main_arg8) := (W2_arr m c 5).trans (((dat0 (VA m) c).arrAt_in 5 rfl _).trans (A_eq0 (VA m) c 5))
    _ = m ((c : Thread nD τ).loc main_arg8) := Gen.V1_of m c main_arg8 (by decide)

/-- The window matrix, the one-row bias and kernel 1's output as kernel 2 finds them. -/
theorem VB_win (c : Dev nD) : VB m c main_v27 = VA m c main_v27 :=
  (W2_arr m c 0).trans (((dat0 (VA m) c).arrAt_in 0 rfl _).trans (A_eq0 (VA m) c 0))
theorem VB_bias (c : Dev nD) : VB m c main_v28 = VA m c main_v28 :=
  (W2_arr m c 6).trans (((dat0 (VA m) c).arrAt_in 6 rfl _).trans (A_eq0 (VA m) c 6))
theorem VB_lse (c : Dev nD) : VB m c main_v29 = (dat0 (VA m) c).arrAt 7 cfg0.N := W2_arr m c 7
theorem VB_arg4 (c : Dev nD) : VB m c main_arg4 = VA m c main_arg4 :=
  (W2_arr m c 1).trans (((dat0 (VA m) c).arrAt_in 1 rfl _).trans (A_eq0 (VA m) c 1))
theorem VB_arg5 (c : Dev nD) : VB m c main_arg5 = VA m c main_arg5 :=
  (W2_arr m c 2).trans (((dat0 (VA m) c).arrAt_in 2 rfl _).trans (A_eq0 (VA m) c 2))
theorem VB_arg6 (c : Dev nD) : VB m c main_arg6 = VA m c main_arg6 :=
  (W2_arr m c 3).trans (((dat0 (VA m) c).arrAt_in 3 rfl _).trans (A_eq0 (VA m) c 3))
theorem VB_arg7 (c : Dev nD) : VB m c main_arg7 = VA m c main_arg7 :=
  (W2_arr m c 4).trans (((dat0 (VA m) c).arrAt_in 4 rfl _).trans (A_eq0 (VA m) c 4))
theorem VB_arg8 (c : Dev nD) : VB m c main_arg8 = VA m c main_arg8 :=
  (W2_arr m c 5).trans (((dat0 (VA m) c).arrAt_in 5 rfl _).trans (A_eq0 (VA m) c 5))

/-- Every weakly fair execution terminates; the result array ends at what kernel 2's pipeline leaves, every argument as
    launched. -/
theorem run_result : θ_run defs (onTc (τ := τ) (main (F := F))) ⟨m, fun _ => 0, ρ⟩ (fun r => ∀ c : Dev nD,
      r.2.mem ((c.tc : Thread nD τ).loc main_v30) = (dat1 (VB m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v30 (by decide))).trans (W3_arr m c 8),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.Kernel.Hand

end
-- ==== Proof.KernelIdealR0Runs.lean ====
/-
  Kernel 1 (the row statistics), what its three control cases share.

  The grid is 4 row tiles by 50 column tiles, the column tile running fastest. The body branches twice on the column
  tile j: at j = 0 it recomputes the hidden tile and resets the running maximum and running sum; at j = 49 it writes
  the tile of log-sum-exp values. So a point is in one of three cases: first column tile, a middle one, the last one.
  The output block (one per row tile) is stored only in the last case and written back only there.
-/
import proofs.«128076_j14156212207627_1_alg».proof.Proof.Gen.KernelIdeal.Launch
import proofs.«128076_j14156212207627_1_alg».proof.Proof.Gen.KernelIdeal.Skeleton
import proofs.«128076_j14156212207627_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions, in closed form over the grid -/

/-- The body's first branch: the column tile is the first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- The body's second branch: the column tile is the last. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last column tile the output block is neither stored into nor written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev VO0_7 : View sig .tc .vmem S2048x1 .f32 := (Memref.whole cc0_stg7_0 : Memref sig .tc .vmem S2048x1 .f32).view
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1 .f32 := win0_7.stage (cfg0.slots t 7)
abbrev hs0_7 (t : Fin cfg0.N) : (ms0_7 t).IsWhole := hstage0_7 ((cfg0.slots t 7).cast nbuf0_7)
/-- The three scratch buffers: the hidden tile, the running maximum, the running sum. -/
abbrev scM0_0 : Memref sig .tc .vmem S2048x512 .f32 := Memref.whole cc0_scratch0
abbrev scM0_1 : Memref sig .tc .vmem S2048x1 .f32 := Memref.whole cc0_scratch1
abbrev scM0_2 : Memref sig .tc .vmem S2048x1 .f32 := Memref.whole cc0_scratch2
abbrev VS0_0 : View sig .tc .vmem S2048x512 .f32 := scM0_0.view
abbrev VS0_1 : View sig .tc .vmem S2048x1 .f32 := scM0_1.view
abbrev VS0_2 : View sig .tc .vmem S2048x1 .f32 := scM0_2.view

/-- The scoped buffers of the core other than this kernel's staging buffers and its three scratch buffers. -/
abbrev others0 (c : Dev nD) : sProp 𝕄 :=
  Pipeline.scopedRestBut (Ix := Unit) (Name := ℕ) (U := Pipeline.UD sig nD τ) (Lvl := ℕ) (Val := Elt F) spec0 c [cc0_scratch0, cc0_scratch1, cc0_scratch2]

/-- The class invariant with the three scratch buffers named. -/
theorem PhiA0_eq (c : Dev nD) :
    (Pipeline.ΦA spec0 c : sProp 𝕄)
      = iprop((((∃ d, owns (c : Thread nD τ) scM0_0 fullShare d) ∗ (∃ d, owns (c : Thread nD τ) scM0_1 fullShare d) ∗ (∃ d, owns (c : Thread nD τ) scM0_2 fullShare d))
          ∗ others0 c) ∗ (∃ r, prngReg c r)) := by
  unfold Pipeline.ΦA
  rw [Pipeline.scopedRest_split_of_list spec0 c [cc0_scratch0, cc0_scratch1, cc0_scratch2] (by decide) (by decide)]
  simp only [scM0_0, scM0_1, scM0_2, owns_whole]; try rfl

end Cert.KernelIdeal.Hand

end
-- ==== Proof.KernelIdealR0RunA.lean ====
/-
  Kernel 1, first column tile of a row tile: the hidden tile is recomputed and stored, the running maximum and the
  running sum are reset and then updated with this tile; the output block is left untouched.
-/
import proofs.«128076_j14156212207627_1_alg».proof.Proof.KernelIdealR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the first case, on whole memrefs: the seven inputs at their contents, the output block at contents
    handed back untouched, the three scratch buffers at anything. It runs to the continuation holding the inputs as
    they were and each scratch buffer with the stores made into it (the lists are found by running the body). -/
noncomputable def kernelRun0_A (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) :
    Σ' (LS0 : List (View.Piece (Elt F) S2048x512 .f32)) (LS1 : List (View.Piece (Elt F) S2048x1 .f32)), { LS2 : List (View.Piece (Elt F) S2048x1 .f32) //
      ∀ (xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, ?_, fun xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    iexists _; iexact HS2

end Cert.KernelIdeal.Hand

end
-- ==== Proof.KernelIdealR0RunB.lean ====
/-
  Kernel 1, a middle column tile: the hidden tile is read from its scratch buffer, the running maximum and the running
  sum are updated with this tile; the output block is left untouched.
-/
import proofs.«128076_j14156212207627_1_alg».proof.Proof.KernelIdealR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the middle case, on whole memrefs: the inputs at their contents, the output block handed back untouched,
    the hidden tile's scratch at what the point before left (handed back as it is), the running maximum and sum at what
    the point before left, ending with the stores made into them. -/
noncomputable def kernelRun0_B (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    Σ' (LS1 : List (View.Piece (Elt F) S2048x1 .f32)), { LS2 : List (View.Piece (Elt F) S2048x1 .f32) //
      ∀ (xi7 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7
                ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, fun xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    isplitl [HS1]; · iexists _; iexact HS1
    iexists _; iexact HS2

end Cert.KernelIdeal.Hand

end
-- ==== Proof.KernelIdealR0RunC.lean ====
/-
  Kernel 1, the last column tile: as a middle tile, and then the tile of log-sum-exp values — running maximum plus the
  logarithm of the running sum — is stored into the output block.
-/
import proofs.«128076_j14156212207627_1_alg».proof.Proof.KernelIdealR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the last case, on whole memrefs: the inputs at their contents, the output block at anything, ending with
    the store made into it; the scratch buffers as in the middle case. -/
noncomputable def kernelRun0_C (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    Σ' (L7 : List (View.Piece (Elt F) S2048x1 .f32)) (LS1 : List (View.Piece (Elt F) S2048x1 .f32)), { LS2 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)
                ∗ owns (c : Thread nD τ) arg10 fullShare xs0 ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    iexists _; iexact HS2

end Cert.KernelIdeal.Hand

end
-- ==== Proof.KernelIdealR0Data.lean ====
/-
  Kernel 1: what its scratch buffers and its output block hold point by point, the proof data of its pipeline, and the
  body obligation.
-/
import proofs.«128076_j14156212207627_1_alg».proof.Proof.KernelIdealR0RunA
import proofs.«128076_j14156212207627_1_alg».proof.Proof.KernelIdealR0RunB
import proofs.«128076_j14156212207627_1_alg».proof.Proof.KernelIdealR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- First case, the hidden tile's scratch: the stores cover the buffer: one store of the whole shape. -/
theorem scover0_A_0 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1 S2048x512.size (by sl_kernel_rfl) y
/-- What the case leaves there: its stores read back. -/
def sout0_A_0 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).1)

/-- First case, the running maximum: the stores cover the buffer: one store of the whole shape. -/
theorem scover0_A_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1 S2048x1.size (by sl_kernel_rfl) y
/-- What the case leaves there: its stores read back. -/
def sout0_A_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- First case, the running sum: the stores cover the buffer: one store of the whole shape. -/
theorem scover0_A_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (y : S2048x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1 S2048x1.size (by sl_kernel_rfl) y
/-- What the case leaves there: its stores read back. -/
def sout0_A_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) : Vec F S2048x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-- Middle case, the running maximum: the stores cover the buffer: one store of the whole shape. -/
theorem scover0_B_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S2048x1.size (by sl_kernel_rfl) y
/-- What the case leaves there: its stores read back. -/
def sout0_B_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1)

/-- Middle case, the running sum: the stores cover the buffer: one store of the whole shape. -/
theorem scover0_B_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S2048x1.size (by sl_kernel_rfl) y
/-- What the case leaves there: its stores read back. -/
def sout0_B_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1)

/-- Last case, the output block: the stores cover the buffer: one store of the whole shape. -/
theorem cover0_C_7 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1 S2048x1.size (by sl_kernel_rfl) y
/-- What the case leaves there: its stores read back. -/
def out0_C_7 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).1)

/-- Last case, the running maximum: the stores cover the buffer: one store of the whole shape. -/
theorem scover0_C_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1 S2048x1.size (by sl_kernel_rfl) y
/-- What the case leaves there: its stores read back. -/
def sout0_C_1 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.1)

/-- Last case, the running sum: the stores cover the buffer: one store of the whole shape. -/
theorem scover0_C_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) (y : S2048x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1 S2048x1.size (by sl_kernel_rfl) y
/-- What the case leaves there: its stores read back. -/
def sout0_C_2 (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) : Vec F S2048x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2).2.2.1)

section Points
variable (V : (c : Dev nD) → (b : Ref sig .tc) → Buf (Elt F) ((c : Thread nD τ).loc b))

/-- Window `w`'s block at point `t`, read off its array as the kernel call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- After a point of the first case: the output block's buffer is not consulted; the three scratch buffers hold what the
    case stored. -/
def stepA (c : Dev nD) (t : Fin cfg0.N) (h0 : t.val % 50 = 0) : Vec F S2048x1 .f32 × Vec F S2048x512 .f32 × Vec F S2048x1 .f32 × Vec F S2048x1 .f32 :=
  (VO0_7.read (Elt F) VO0_7.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t))

/-- After a point of the middle case: the hidden tile as before, the running maximum and sum as the case stored them
    from what the point before left. -/
def stepB (c : Dev nD) (t : Fin cfg0.N) (h0 : ¬t.val % 50 = 0) (h1 : ¬t.val % 50 = 49) (prev : Vec F S2048x1 .f32 × Vec F S2048x512 .f32 × Vec F S2048x1 .f32 × Vec F S2048x1 .f32) : Vec F S2048x1 .f32 × Vec F S2048x512 .f32 × Vec F S2048x1 .f32 × Vec F S2048x1 .f32 :=
  (VO0_7.read (Elt F) VO0_7.junk, prev.2.1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) prev.2.1 prev.2.2.1 prev.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) prev.2.1 prev.2.2.1 prev.2.2.2)

/-- After a point of the last case: also the output block as the case stored it. -/
def stepC (c : Dev nD) (t : Fin cfg0.N) (h0 : ¬t.val % 50 = 0) (h1 : t.val % 50 = 49) (prev : Vec F S2048x1 .f32 × Vec F S2048x512 .f32 × Vec F S2048x1 .f32 × Vec F S2048x1 .f32) : Vec F S2048x1 .f32 × Vec F S2048x512 .f32 × Vec F S2048x1 .f32 × Vec F S2048x1 .f32 :=
  (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2, prev.2.1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) prev.2.1 prev.2.2.1 prev.2.2.2)

/-- What the output block's staging buffer and the three scratch buffers hold after the body at position `n`, by recursion
    on the position: the case the column tile selects, run on what the position before left. -/
def outsAt0 (c : Dev nD) : (n : ℕ) → n < cfg0.N → Vec F S2048x1 .f32 × Vec F S2048x512 .f32 × Vec F S2048x1 .f32 × Vec F S2048x1 .f32
  | 0, hn => stepA V c ⟨0, hn⟩ (Nat.zero_mod _)
  | n + 1, hn =>
    if h0 : (n + 1) % 50 = 0 then stepA V c ⟨n + 1, hn⟩ h0
    else if h1 : (n + 1) % 50 = 49 then stepC V c ⟨n + 1, hn⟩ h0 h1 (outsAt0 c n (Nat.lt_of_succ_lt hn))
    else stepB V c ⟨n + 1, hn⟩ h0 h1 (outsAt0 c n (Nat.lt_of_succ_lt hn))

theorem outsAt0_A (c : Dev nD) (t : Fin cfg0.N) (h0 : t.val % 50 = 0) : outsAt0 V c t.val t.isLt = stepA V c t h0 := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 V c t.val t.isLt = stepB V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 V c t.val t.isLt = stepC V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The kernel call's invariant before position `n`: before the first point every scratch buffer at anything; afterwards the
    three scratch buffers at what the point before left. -/
def PhiS0 (c : Dev nD) : (n : ℕ) → n ≤ cfg0.N → sProp 𝕄
  | 0, _ => Pipeline.ΦA spec0 c
  | n + 1, hn => iprop((((owns (c : Thread nD τ) scM0_0 fullShare (outsAt0 V c n hn).2.1) ∗ (owns (c : Thread nD τ) scM0_1 fullShare (outsAt0 V c n hn).2.2.1) ∗ (owns (c : Thread nD τ) scM0_2 fullShare (outsAt0 V c n hn).2.2.2))
      ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((((owns (c : Thread nD τ) scM0_0 fullShare (outsAt0 V c n hn).2.1) ∗ (owns (c : Thread nD τ) scM0_1 fullShare (outsAt0 V c n hn).2.2.1) ∗ (owns (c : Thread nD τ) scM0_2 fullShare (outsAt0 V c n hn).2.2.2))
      ∗ others0 c) ∗ (∃ r, prngReg c r)) := rfl

theorem PhiS0_pos (c : Dev nD) (n : ℕ) (h : n ≤ cfg0.N) (hz : n ≠ 0) :
    PhiS0 V c n h = iprop((((owns (c : Thread nD τ) scM0_0 fullShare (outsAt0 V c (n - 1) (by omega)).2.1) ∗ (owns (c : Thread nD τ) scM0_1 fullShare (outsAt0 V c (n - 1) (by omega)).2.2.1) ∗ (owns (c : Thread nD τ) scM0_2 fullShare (outsAt0 V c (n - 1) (by omega)).2.2.2))
      ∗ others0 c) ∗ (∃ r, prngReg c r)) := by
  cases n with
  | zero => exact absurd rfl hz
  | succ n => rfl

/-! ## The proof data -/

/-- The arrays as the kernel call finds them; after the body each input's buffer at its block, the output's at the
    recursion's first component; the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Input window 4's current staging buffer holds its block at every point, fetched there or not. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Input window 5's current staging buffer holds its block at every point, fetched there or not. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Input window 6's current staging buffer holds its block at every point, fetched there or not. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

end Points

end Cert.KernelIdeal.Hand

end
-- ==== Proof.KernelIdealR1Runs.lean ====
/-
  Kernel 2 (the normalised scores), what its two control cases share.

  The same grid, 4 row tiles by 50 column tiles. The body branches once: at the first column tile it recomputes the
  hidden tile into its scratch buffer. At every point it stores the tile of scores minus the row's log-sum-exp into the
  output block, which is written back at every point.
-/
import proofs.«128076_j14156212207627_1_alg».proof.Proof.Gen.KernelIdeal.Launch
import proofs.«128076_j14156212207627_1_alg».proof.Proof.Gen.KernelIdeal.Skeleton
import proofs.«128076_j14156212207627_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's branch: the column tile is the first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 50 = 0 :=
  (by decide +kernel : ∀ t : Fin grid1.N, cond1_0 (grid1.coords t) ↔ t.val % 50 = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel

abbrev VO1_8 : View sig .tc .vmem S2048x640 .f32 := (Memref.whole cc1_stg8_0 : Memref sig .tc .vmem S2048x640 .f32).view
abbrev ms1_0 (t : Fin cfg1.N) : Memref sig .tc .vmem S2048x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x640 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x640 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x640 .f32 := win1_8.stage (cfg1.slots t 8)
abbrev hs1_8 (t : Fin cfg1.N) : (ms1_8 t).IsWhole := hstage1_8 ((cfg1.slots t 8).cast nbuf1_8)
/-- The scratch buffer: the hidden tile. -/
abbrev scM1_0 : Memref sig .tc .vmem S2048x512 .f32 := Memref.whole cc1_scratch0
abbrev VS1_0 : View sig .tc .vmem S2048x512 .f32 := scM1_0.view

/-- The scoped buffers of the core other than this kernel's staging buffers and its scratch buffer. -/
abbrev others1 (c : Dev nD) : sProp 𝕄 :=
  Pipeline.scopedRestBut (Ix := Unit) (Name := ℕ) (U := Pipeline.UD sig nD τ) (Lvl := ℕ) (Val := Elt F) spec1 c [cc1_scratch0]

/-- The class invariant with the scratch buffer named. -/
theorem PhiA1_eq (c : Dev nD) :
    (Pipeline.ΦA spec1 c : sProp 𝕄)
      = iprop(((∃ d, owns (c : Thread nD τ) scM1_0 fullShare d) ∗ others1 c) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.KernelIdealR1RunA.lean ====
/-
  Kernel 2, first column tile of a row tile: the hidden tile is recomputed and stored in the scratch buffer; the output
  tile is stored.
-/
import proofs.«128076_j14156212207627_1_alg».proof.Proof.KernelIdealR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the first case, on whole memrefs: the eight inputs at their contents, the output block and the scratch
    buffer at anything; it ends with the stores made into the output block and into the scratch buffer. -/
noncomputable def kernelRun1_A (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) :
    Σ' (L8 : List (View.Piece (Elt F) S2048x640 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Hand

end
-- ==== Proof.KernelIdealR1RunB.lean ====
/-
  Kernel 2, a later column tile: the hidden tile is read from the scratch buffer; the output tile is stored.
-/
import proofs.«128076_j14156212207627_1_alg».proof.Proof.KernelIdealR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- The body in the second case, on whole memrefs: the eight inputs at their contents, the output block at anything, the
    scratch buffer at what the point before left (handed back as it is); it ends with the store made into the output block. -/
noncomputable def kernelRun1_B (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i)
    (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) :
    { L8 : List (View.Piece (Elt F) S2048x640 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ owns (c : Thread nD τ) arg11 fullShare xs0) -∗ K ⟨⟩))
          ⊢ wp frame (wpE (defs₀ (F := F)) Variants.none c none) E (cc1__final_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__final_kernel_eq_skeleton]; unfold cc1__final_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg11.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; isplitr; · ipureintro; exact harg11.read_unread _
    iexact HS0

end Cert.KernelIdeal.Hand

end
-- ==== Proof.KernelIdealR1Data.lean ====
/-
  Kernel 2: what its scratch buffer and its output block hold point by point, and the proof data of its pipeline.
-/
import proofs.«128076_j14156212207627_1_alg».proof.Proof.KernelIdealR1RunA
import proofs.«128076_j14156212207627_1_alg».proof.Proof.KernelIdealR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- First case, the output block: the stores cover the buffer: one store of the whole shape. -/
theorem cover1_A_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (y : S2048x640.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).1 S2048x640.size (by sl_kernel_rfl) y
/-- What the case leaves there: its stores read back. -/
def out1_A_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) : Vec F S2048x640 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 x0 x1 x2 x3 x4 x5 x6 x7).1)

/-- First case, the hidden tile's scratch: the stores cover the buffer: one store of the whole shape. -/
theorem scover1_A_0 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (y : S2048x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7).2.1 S2048x512.size (by sl_kernel_rfl) y
/-- What the case leaves there: its stores read back. -/
def sout1_A_0 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) : Vec F S2048x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5 x6 x7).2.1)

/-- Second case, the output block: the stores cover the buffer: one store of the whole shape. -/
theorem cover1_B_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) (y : S2048x640.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 xs0).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 xs0).1 S2048x640.size (by sl_kernel_rfl) y
/-- What the case leaves there: its stores read back. -/
def out1_B_8 (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) : Vec F S2048x640 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 x0 x1 x2 x3 x4 x5 x6 x7 xs0).1)

section Points
variable (V : (c : Dev nD) → (b : Ref sig .tc) → Buf (Elt F) ((c : Thread nD τ).loc b))

/-- Window `w`'s block at point `t`, read off its array as the kernel call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After a point of the first case: the output block and the scratch buffer as the case stored them. -/
def stepA1 (c : Dev nD) (t : Fin cfg1.N) (h0 : t.val % 50 = 0) : Vec F S2048x640 .f32 × Vec F S2048x512 .f32 :=
  (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t))

/-- After a point of the second case: the output block as the case stored it from the hidden tile the point before left,
    the hidden tile as before. -/
def stepB1 (c : Dev nD) (t : Fin cfg1.N) (h0 : ¬t.val % 50 = 0) (prev : Vec F S2048x640 .f32 × Vec F S2048x512 .f32) : Vec F S2048x640 .f32 × Vec F S2048x512 .f32 :=
  (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) prev.2, prev.2)

/-- What the output block's staging buffer and the scratch buffer hold after the body at position `n`. -/
def outsAt1 (c : Dev nD) : (n : ℕ) → n < cfg1.N → Vec F S2048x640 .f32 × Vec F S2048x512 .f32
  | 0, hn => stepA1 V c ⟨0, hn⟩ (Nat.zero_mod _)
  | n + 1, hn =>
    if h0 : (n + 1) % 50 = 0 then stepA1 V c ⟨n + 1, hn⟩ h0
    else stepB1 V c ⟨n + 1, hn⟩ h0 (outsAt1 c n (Nat.lt_of_succ_lt hn))

theorem outsAt1_A (c : Dev nD) (t : Fin cfg1.N) (h0 : t.val % 50 = 0) : outsAt1 V c t.val t.isLt = stepA1 V c t h0 := by
  obtain ⟨n, hn⟩ := t
  cases n with
  | zero => rfl
  | succ n => exact dif_pos h0

theorem outsAt1_B (c : Dev nD) (t : Fin cfg1.N) (h0 : ¬t.val % 50 = 0) :
    outsAt1 V c t.val t.isLt = stepB1 V c t h0 (outsAt1 V c (t.val - 1) (Nat.lt_of_le_of_lt (Nat.sub_le _ _) t.isLt)) := by
  obtain ⟨n, hn⟩ := t
  cases n with
  | zero => exact absurd (Nat.zero_mod _) h0
  | succ n => exact dif_neg h0

/-- The kernel call's invariant before position `n`. -/
def PhiS1 (c : Dev nD) : (n : ℕ) → n ≤ cfg1.N → sProp 𝕄
  | 0, _ => Pipeline.ΦA spec1 c
  | n + 1, hn => iprop(((owns (c : Thread nD τ) scM1_0 fullShare (outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (outsAt1 V c n hn).2) ∗ others1 c) ∗ (∃ r, prngReg c r)) := rfl

theorem PhiS1_pos (c : Dev nD) (n : ℕ) (h : n ≤ cfg1.N) (hz : n ≠ 0) :
    PhiS1 V c n h = iprop(((owns (c : Thread nD τ) scM1_0 fullShare (outsAt1 V c (n - 1) (by omega)).2) ∗ others1 c) ∗ (∃ r, prngReg c r)) := by
  cases n with
  | zero => exact absurd rfl hz
  | succ n => rfl

/-- The proof data of kernel 2's pipeline. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4's current staging buffer holds its block at every point, fetched there or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Input window 5's current staging buffer holds its block at every point, fetched there or not. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Input window 6's current staging buffer holds its block at every point, fetched there or not. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- Input window 7's current staging buffer holds its block at every point, fetched there or not. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

end Points

end Cert.KernelIdeal.Hand

end
-- ==== Proof.KernelIdealPieces.lean ====
/-
  What each case of the two kernels stores, as the kernels' arithmetic applied to what the case loads: the stores found
  by running a body are its payload functions of the input blocks and of the scratch contents the point before left.
-/
import proofs.«128076_j14156212207627_1_alg».proof.Proof.KernelIdealR0Data
import proofs.«128076_j14156212207627_1_alg».proof.Proof.KernelIdealR1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz2 : (![0, 0] : Fin 2 → Nat) = fun _ => 0 := funext fun a => by fin_cases a <;> rfl
theorem hz1 : (![0] : Fin 1 → Nat) = fun _ => 0 := funext fun a => by fin_cases a; rfl

/-- First case of kernel 1: the hidden tile. -/
theorem sout0_A_0_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = (k0_pay2 x0 x1 x2 x3 x4) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- First case of kernel 1: the running maximum, from minus infinity. -/
theorem sout0_A_1_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay8 (k0_pay2 x0 x1 x2 x3 x4) x5 x6 (k0_pay3 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- First case of kernel 1: the running sum, from zero. -/
theorem sout0_A_2_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 = k0_pay7 (k0_pay2 x0 x1 x2 x3 x4) x5 x6 (k0_pay3 (F := F)) (k0_pay3 (F := F)) (k0_pay4 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Middle case of kernel 1: the running maximum. -/
theorem sout0_B_1_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay8 xs0 x5 x6 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Middle case of kernel 1: the running sum. -/
theorem sout0_B_2_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay7 xs0 x5 x6 xs1 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Last case of kernel 1: the running maximum. -/
theorem sout0_C_1_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay8 xs0 x5 x6 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Last case of kernel 1: the running sum. -/
theorem sout0_C_2_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay7 xs0 x5 x6 xs1 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Last case of kernel 1: the output block, the log-sum-exp of the final maximum and sum. -/
theorem out0_C_7_eq (c : Dev nD) (i : grid0.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x512 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (xs0 : Vec F S2048x512 .f32) (xs1 : Vec F S2048x1 .f32) (xs2 : Vec F S2048x1 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay1 (k0_pay8 xs0 x5 x6 xs1) (k0_pay7 xs0 x5 x6 xs1 xs1 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- First case of kernel 2: the hidden tile. -/
theorem sout1_A_0_eq (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) :
    sout1_A_0 c i arg2 harg2 arg3 harg3 arg4 harg4 arg5 harg5 arg6 harg6 arg7 harg7 arg8 harg8 arg9 harg9 arg10 harg10 arg11 harg11 hc0 x0 x1 x2 x3 x4 x5 x6 x7 = k1_pay1 x0 x1 x2 x3 x4 := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun1_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- First case of kernel 2: the output tile. -/
theorem out1_A_8_eq (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) :
    out1_A_8 c i arg2 harg2 arg3 harg3 arg4 harg4 arg5 harg5 arg6 harg6 arg7 harg7 arg8 harg8 arg9 harg9 arg10 harg10 arg11 harg11 hc0 x0 x1 x2 x3 x4 x5 x6 x7 = k1_pay2 (k1_pay1 x0 x1 x2 x3 x4) x5 x6 x7 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun1_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

/-- Second case of kernel 2: the output tile. -/
theorem out1_B_8_eq (c : Dev nD) (i : grid1.Coords) (arg2 : Memref sig .tc .vmem S2048x128 .f32) (harg2 : arg2.IsWhole) (arg3 : Memref sig .tc .vmem S128x512 .f32) (harg3 : arg3.IsWhole) (arg4 : Memref sig .tc .vmem S512 .f32) (harg4 : arg4.IsWhole) (arg5 : Memref sig .tc .vmem S512x512 .f32) (harg5 : arg5.IsWhole) (arg6 : Memref sig .tc .vmem S512 .f32) (harg6 : arg6.IsWhole) (arg7 : Memref sig .tc .vmem S512x640 .f32) (harg7 : arg7.IsWhole) (arg8 : Memref sig .tc .vmem S1x640 .f32) (harg8 : arg8.IsWhole) (arg9 : Memref sig .tc .vmem S2048x1 .f32) (harg9 : arg9.IsWhole) (arg10 : Memref sig .tc .vmem S2048x640 .f32) (harg10 : arg10.IsWhole) (arg11 : Memref sig .tc .vmem S2048x512 .f32) (harg11 : arg11.IsWhole) (hc0 : ¬cond1_0 i) (x0 : Vec F S2048x128 .f32) (x1 : Vec F S128x512 .f32) (x2 : Vec F S512 .f32) (x3 : Vec F S512x512 .f32) (x4 : Vec F S512 .f32) (x5 : Vec F S512x640 .f32) (x6 : Vec F S1x640 .f32) (x7 : Vec F S2048x1 .f32) (xs0 : Vec F S2048x512 .f32) :
    out1_B_8 c i arg2 harg2 arg3 harg3 arg4 harg4 arg5 harg5 arg6 harg6 arg7 harg7 arg8 harg8 arg9 harg9 arg10 harg10 arg11 harg11 hc0 x0 x1 x2 x3 x4 x5 x6 x7 xs0 = k1_pay2 xs0 x5 x6 x7 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun1_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread,
    View.ld_unit_zero (S := S2048x128) hz2, View.ld_unit_zero (S := S128x512) hz2, View.ld_unit_zero (S := S512) hz1, View.ld_unit_zero (S := S512x512) hz2,
    View.ld_unit_zero (S := S512x640) hz2, View.ld_unit_zero (S := S1x640) hz2, View.ld_unit_zero (S := S2048x1) hz2, View.ld_unit_zero (S := S2048x512) hz2, View.ld_unit_zero (S := S2048x640) hz2,
    View.readCov_unit_zero (S := S2048x1) _ hz2, View.canon_cons_unit_zero (S := S2048x1) hz2, View.canon_unit_zero (S := S2048x1) hz2,
    View.readCov_unit_zero (S := S2048x512) _ hz2, View.canon_cons_unit_zero (S := S2048x512) hz2, View.canon_unit_zero (S := S2048x512) hz2,
    View.readCov_unit_zero (S := S2048x640) _ hz2, View.canon_cons_unit_zero (S := S2048x640) hz2, View.canon_unit_zero (S := S2048x640) hz2]

end Cert.KernelIdeal.Hand

end
-- ==== Proof.KernelIdealSteps.lean ====
/-
  The two kernels' cases as their arithmetic: what a grid point leaves in the scratch buffers and in the output block,
  written with the kernels' payload functions of the point's input blocks and of what the point before left.
-/
import proofs.«128076_j14156212207627_1_alg».proof.Proof.KernelIdealPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Steps
variable (V : (c : Dev nD) → (b : Ref sig .tc) → Buf (Elt F) ((c : Thread nD τ).loc b)) (c : Dev nD)

/-- Kernel 1, input window 0's block at point t, at its literal shape. -/
def blkA0 (t : Fin cfg0.N) : Vec F S2048x128 .f32 := iblk0 V c 0 t
/-- Kernel 1, input window 1's block at point t, at its literal shape. -/
def blkA1 (t : Fin cfg0.N) : Vec F S128x512 .f32 := iblk0 V c 1 t
/-- Kernel 1, input window 2's block at point t, at its literal shape. -/
def blkA2 (t : Fin cfg0.N) : Vec F S512 .f32 := iblk0 V c 2 t
/-- Kernel 1, input window 3's block at point t, at its literal shape. -/
def blkA3 (t : Fin cfg0.N) : Vec F S512x512 .f32 := iblk0 V c 3 t
/-- Kernel 1, input window 4's block at point t, at its literal shape. -/
def blkA4 (t : Fin cfg0.N) : Vec F S512 .f32 := iblk0 V c 4 t
/-- Kernel 1, input window 5's block at point t, at its literal shape. -/
def blkA5 (t : Fin cfg0.N) : Vec F S512x640 .f32 := iblk0 V c 5 t
/-- Kernel 1, input window 6's block at point t, at its literal shape. -/
def blkA6 (t : Fin cfg0.N) : Vec F S1x640 .f32 := iblk0 V c 6 t
/-- Kernel 2, input window 0's block at point t, at its literal shape. -/
def blkB0 (t : Fin cfg1.N) : Vec F S2048x128 .f32 := iblk1 V c 0 t
/-- Kernel 2, input window 1's block at point t, at its literal shape. -/
def blkB1 (t : Fin cfg1.N) : Vec F S128x512 .f32 := iblk1 V c 1 t
/-- Kernel 2, input window 2's block at point t, at its literal shape. -/
def blkB2 (t : Fin cfg1.N) : Vec F S512 .f32 := iblk1 V c 2 t
/-- Kernel 2, input window 3's block at point t, at its literal shape. -/
def blkB3 (t : Fin cfg1.N) : Vec F S512x512 .f32 := iblk1 V c 3 t
/-- Kernel 2, input window 4's block at point t, at its literal shape. -/
def blkB4 (t : Fin cfg1.N) : Vec F S512 .f32 := iblk1 V c 4 t
/-- Kernel 2, input window 5's block at point t, at its literal shape. -/
def blkB5 (t : Fin cfg1.N) : Vec F S512x640 .f32 := iblk1 V c 5 t
/-- Kernel 2, input window 6's block at point t, at its literal shape. -/
def blkB6 (t : Fin cfg1.N) : Vec F S1x640 .f32 := iblk1 V c 6 t
/-- Kernel 2, input window 7's block at point t, at its literal shape. -/
def blkB7 (t : Fin cfg1.N) : Vec F S2048x1 .f32 := iblk1 V c 7 t

/-- The three scratch contents after a first column tile, from the point's blocks. -/
def payA (x0 : Vec F S2048x128 .f32) (x1 : Vec F S128x512 .f32) (x2 : Vec F S512 .f32) (x3 : Vec F S512x512 .f32) (x4 : Vec F S512 .f32)
    (x5 : Vec F S512x640 .f32) (x6 : Vec F S1x640 .f32) : Vec F S2048x512 .f32 × Vec F S2048x1 .f32 × Vec F S2048x1 .f32 :=
  (k0_pay2 x0 x1 x2 x3 x4, k0_pay8 (k0_pay2 x0 x1 x2 x3 x4) x5 x6 (k0_pay3 (F := F)),
    k0_pay7 (k0_pay2 x0 x1 x2 x3 x4) x5 x6 (k0_pay3 (F := F)) (k0_pay3 (F := F)) (k0_pay4 (F := F)))
/-- The running maximum and sum after a later column tile, from the tile's blocks and the scratch contents before. -/
def payB (x5 : Vec F S512x640 .f32) (x6 : Vec F S1x640 .f32) (h : Vec F S2048x512 .f32) (mm : Vec F S2048x1 .f32) (l : Vec F S2048x1 .f32) :
    Vec F S2048x1 .f32 × Vec F S2048x1 .f32 :=
  (k0_pay8 h x5 x6 mm, k0_pay7 h x5 x6 mm mm l)

/-- A pair of equal components. -/
theorem pair_eq {α β : Type} {a a' : α} {b b' : β} (h1 : a = a') (h2 : b = b') : (a, b) = (a', b') := by rw [h1, h2]

set_option maxHeartbeats 1000000 in
theorem stepA_eq (t : Fin cfg0.N) (h0 : t.val % 50 = 0) :
    stepA V c t h0 = (VO0_7.read (Elt F) VO0_7.junk, payA (blkA0 V c t) (blkA1 V c t) (blkA2 V c t) (blkA3 V c t) (blkA4 V c t) (blkA5 V c t) (blkA6 V c t)) :=
  pair_eq rfl (pair_eq (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (blkA0 V c t) (blkA1 V c t) (blkA2 V c t) (blkA3 V c t) (blkA4 V c t) (blkA5 V c t) (blkA6 V c t)) (pair_eq (sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (blkA0 V c t) (blkA1 V c t) (blkA2 V c t) (blkA3 V c t) (blkA4 V c t) (blkA5 V c t) (blkA6 V c t)) (sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (blkA0 V c t) (blkA1 V c t) (blkA2 V c t) (blkA3 V c t) (blkA4 V c t) (blkA5 V c t) (blkA6 V c t))))

set_option maxHeartbeats 1000000 in
theorem stepB_eq (t : Fin cfg0.N) (h0 : ¬t.val % 50 = 0) (h1 : ¬t.val % 50 = 49) (prev : Vec F S2048x1 .f32 × Vec F S2048x512 .f32 × Vec F S2048x1 .f32 × Vec F S2048x1 .f32) :
    stepB V c t h0 h1 prev = (VO0_7.read (Elt F) VO0_7.junk, prev.2.1, payB (blkA5 V c t) (blkA6 V c t) prev.2.1 prev.2.2.1 prev.2.2.2) :=
  pair_eq rfl (pair_eq rfl (pair_eq (sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (blkA0 V c t) (blkA1 V c t) (blkA2 V c t) (blkA3 V c t) (blkA4 V c t) (blkA5 V c t) (blkA6 V c t) prev.2.1 prev.2.2.1 prev.2.2.2) (sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (blkA0 V c t) (blkA1 V c t) (blkA2 V c t) (blkA3 V c t) (blkA4 V c t) (blkA5 V c t) (blkA6 V c t) prev.2.1 prev.2.2.1 prev.2.2.2)))

set_option maxHeartbeats 1000000 in
theorem stepC_eq (t : Fin cfg0.N) (h0 : ¬t.val % 50 = 0) (h1 : t.val % 50 = 49) (prev : Vec F S2048x1 .f32 × Vec F S2048x512 .f32 × Vec F S2048x1 .f32 × Vec F S2048x1 .f32) :
    stepC V c t h0 h1 prev = (k0_pay1 (k0_pay8 prev.2.1 (blkA5 V c t) (blkA6 V c t) prev.2.2.1) (k0_pay7 prev.2.1 (blkA5 V c t) (blkA6 V c t) prev.2.2.1 prev.2.2.1 prev.2.2.2),
      prev.2.1, payB (blkA5 V c t) (blkA6 V c t) prev.2.1 prev.2.2.1 prev.2.2.2) :=
  pair_eq (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blkA0 V c t) (blkA1 V c t) (blkA2 V c t) (blkA3 V c t) (blkA4 V c t) (blkA5 V c t) (blkA6 V c t) prev.2.1 prev.2.2.1 prev.2.2.2) (pair_eq rfl (pair_eq (sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blkA0 V c t) (blkA1 V c t) (blkA2 V c t) (blkA3 V c t) (blkA4 V c t) (blkA5 V c t) (blkA6 V c t) prev.2.1 prev.2.2.1 prev.2.2.2) (sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (blkA0 V c t) (blkA1 V c t) (blkA2 V c t) (blkA3 V c t) (blkA4 V c t) (blkA5 V c t) (blkA6 V c t) prev.2.1 prev.2.2.1 prev.2.2.2)))

set_option maxHeartbeats 1000000 in
theorem stepA1_eq (t : Fin cfg1.N) (h0 : t.val % 50 = 0) :
    stepA1 V c t h0 = (k1_pay2 (k1_pay1 (blkB0 V c t) (blkB1 V c t) (blkB2 V c t) (blkB3 V c t) (blkB4 V c t)) (blkB5 V c t) (blkB6 V c t) (blkB7 V c t), k1_pay1 (blkB0 V c t) (blkB1 V c t) (blkB2 V c t) (blkB3 V c t) (blkB4 V c t)) :=
  pair_eq (out1_A_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (blkB0 V c t) (blkB1 V c t) (blkB2 V c t) (blkB3 V c t) (blkB4 V c t) (blkB5 V c t) (blkB6 V c t) (blkB7 V c t)) (sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (blkB0 V c t) (blkB1 V c t) (blkB2 V c t) (blkB3 V c t) (blkB4 V c t) (blkB5 V c t) (blkB6 V c t) (blkB7 V c t))

set_option maxHeartbeats 1000000 in
theorem stepB1_eq (t : Fin cfg1.N) (h0 : ¬t.val % 50 = 0) (prev : Vec F S2048x640 .f32 × Vec F S2048x512 .f32) :
    stepB1 V c t h0 prev = (k1_pay2 prev.2 (blkB5 V c t) (blkB6 V c t) (blkB7 V c t), prev.2) :=
  pair_eq (out1_B_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (blkB0 V c t) (blkB1 V c t) (blkB2 V c t) (blkB3 V c t) (blkB4 V c t) (blkB5 V c t) (blkB6 V c t) (blkB7 V c t) prev.2) rfl

end Steps

end Cert.KernelIdeal.Hand

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«128076_j14156212207627_1_alg».proof.Proof.LibMatmulRows
import proofs.«128076_j14156212207627_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«128076_j14156212207627_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«128076_j14156212207627_1_alg».proof.Proof.LibMatmulRows
import proofs.«128076_j14156212207627_1_alg».proof.Proof.LibBiasRows
import proofs.«128076_j14156212207627_1_alg».proof.Proof.LibLayout
import proofs.«128076_j14156212207627_1_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.Spec.lean ====
/-
  The function both programs compute, on extended reals, index by index.

  A token window matrix win (8192 rows of 128 numbers) goes through two rectified affine layers to a hidden matrix of
  8192 rows of 512 numbers, then through an affine layer to 8192 rows of 32000 scores; each row of scores is
  replaced by its log-softmax: (z q - m) - log (sum over q' of exp (z q' - m)), m the row's maximum.
  The row count is left arbitrary for the hidden matrix and the scores, so that the same definitions read a block
  of rows.
-/
import proofs.«128076_j14156212207627_1_alg».proof.Proof.LibDenseLayers
import proofs.«128076_j14156212207627_1_alg».proof.Proof.LibSageLayers

noncomputable section

namespace Cert.Spec

open Idealize.ShloMosaic Idealize.ShloMosaic.ValueIdx Cert.LibDenseLayers Cert.Sage

/-- The hidden matrix: two rectified affine layers. -/
def hidden {R : ℕ} (win : Mat R 128) (W1 : Mat 128 512) (b1 : Vc 512) (W2 : Mat 512 512) (b2 : Vc 512) : Mat R 512 :=
  stage1 (stage1 win W1 b1) W2 b2

/-- The scores: the affine output layer over the hidden matrix. -/
def scores {R : ℕ} (win : Mat R 128) (W1 : Mat 128 512) (b1 : Vc 512) (W2 : Mat 512 512) (b2 : Vc 512)
    (Wout : Mat 512 32000) (bout : Vc 32000) : Mat R 32000 :=
  affine (hidden win W1 b1 W2 b2) Wout bout

/-- The result: the log-softmax of each row of scores. -/
def result {R : ℕ} (win : Mat R 128) (W1 : Mat 128 512) (b1 : Vc 512) (W2 : Mat 512 512) (b2 : Vc 512)
    (Wout : Mat 512 32000) (bout : Vc 32000) : Mat R 32000 :=
  fun i => lsmAt (fun q => scores win W1 b1 W2 b2 Wout bout (ix2 (i 0) q)) (i 1)

/-- Row p of the hidden matrix depends only on row p of the window matrix. -/
theorem hidden_row {R R' : ℕ} (win : Mat R 128) (win' : Mat R' 128) (W1 : Mat 128 512) (b1 : Vc 512) (W2 : Mat 512 512)
    (b2 : Vc 512) (p : Fin R) (p' : Fin R') (hh : ∀ k : Fin 128, win (ix2 p k) = win' (ix2 p' k)) (q : Fin 512) :
    hidden win W1 b1 W2 b2 (ix2 p q) = hidden win' W1 b1 W2 b2 (ix2 p' q) :=
  stage1_row _ _ W2 b2 p p' (fun k => stage1_row win win' W1 b1 p p' hh k) q

/-- Row p of the scores depends only on row p of the window matrix. -/
theorem scores_row {R R' : ℕ} (win : Mat R 128) (win' : Mat R' 128) (W1 : Mat 128 512) (b1 : Vc 512) (W2 : Mat 512 512)
    (b2 : Vc 512) (Wout : Mat 512 32000) (bout : Vc 32000) (p : Fin R) (p' : Fin R')
    (hh : ∀ k : Fin 128, win (ix2 p k) = win' (ix2 p' k)) (q : Fin 32000) :
    scores win W1 b1 W2 b2 Wout bout (ix2 p q) = scores win' W1 b1 W2 b2 Wout bout (ix2 p' q) :=
  affineAt_congr _ _ Wout bout p p' (fun k => hidden_row win win' W1 b1 W2 b2 p p' hh k) q

/-- Row p of the result depends only on row p of the window matrix. -/
theorem result_row {R R' : ℕ} (win : Mat R 128) (win' : Mat R' 128) (W1 : Mat 128 512) (b1 : Vc 512) (W2 : Mat 512 512)
    (b2 : Vc 512) (Wout : Mat 512 32000) (bout : Vc 32000) (p : Fin R) (p' : Fin R')
    (hh : ∀ k : Fin 128, win (ix2 p k) = win' (ix2 p' k)) (q : Fin 32000) :
    result win W1 b1 W2 b2 Wout bout (ix2 p q) = result win' W1 b1 W2 b2 Wout bout (ix2 p' q) := by
  show lsmAt (fun q => scores win W1 b1 W2 b2 Wout bout (ix2 p q)) q
     = lsmAt (fun q => scores win' W1 b1 W2 b2 Wout bout (ix2 p' q)) q
  rw [show (fun q => scores win W1 b1 W2 b2 Wout bout (ix2 p q))
        = (fun q => scores win' W1 b1 W2 b2 Wout bout (ix2 p' q)) from
      funext fun q => scores_row win win' W1 b1 W2 b2 Wout bout p p' hh q]

end Cert.Spec

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«128076_j14156212207627_1_alg».proof.Proof.LibMatmulRows
import proofs.«128076_j14156212207627_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.LibOnlineStep.lean ====
/-
  The two scalar steps of a running maximum and a running sum of exponentials, on extended reals.

  Given the old running maximum m, the number m' that the old sum was taken against, the old sum l and one more tile
  t of scores:
      the new maximum is  max (m, the tile's maximum),  the tile's maximum folded from minus infinity;
      the new sum is      l * exp (m' - new maximum) + the sum over the tile of exp (score - new maximum).
  Nothing here mentions a program; the tile's width is arbitrary.
-/
import Idealize.ShloMosaic.PureOps.Ideal

noncomputable section

namespace Cert.KMath

open Idealize.ShloMosaic
open scoped BigOperators

/-- The new running maximum: the old one met with the tile's maximum (folded from minus infinity). -/
def stepM {w : ℕ} (m : EReal) (t : Fin w → EReal) : EReal :=
  max m ((Finset.univ : Finset (Fin w)).fold max (Ideal.ofBits .f32 0xFF800000#32) t)

/-- The new running sum: the old one rescaled to the new maximum, plus the tile's sum of exponentials. -/
def stepL {w : ℕ} (m m' l : EReal) (t : Fin w → EReal) : EReal :=
  l * Ideal.exp (m' - stepM m t) + ∑ c : Fin w, Ideal.exp (t c - stepM m t)

end Cert.KMath

end
-- ==== Proof.KMathPayloads.lean ====
/-
  The kernels' pure arithmetic on extended reals, read index by index.

  One block of 2048 rows is carried through two rectified affine layers to a hidden block of 2048 rows of 512 numbers.
  For one tile of 640 score columns the scores are the hidden block times the tile of the output weights plus the tile
  of the output bias (kept as a matrix of one row). Per row the kernel keeps a running maximum m and a running sum l:
      m' = max (m, the tile's row maximum),   l' = l * exp (m - m') + sum over the tile of exp (score - m'),
  writes m + log l after the last tile, and in a second pass writes score - (m + log l).
  Each of these is read here at a row p (and a column c of the tile), as a scalar expression in the tile's scores.
-/
import proofs.«128076_j14156212207627_1_alg».proof.Proof.Gen.KernelIdeal.Skeleton
import proofs.«128076_j14156212207627_1_alg».proof.Proof.Spec
import proofs.«128076_j14156212207627_1_alg».proof.Proof.LibRowBias
import proofs.«128076_j14156212207627_1_alg».proof.Proof.LibLayout
import proofs.«128076_j14156212207627_1_alg».proof.Proof.LibLaneMax
import proofs.«128076_j14156212207627_1_alg».proof.Proof.LibOnlineStep
import Idealize.ShloMosaic.Lib.Pipeline.Value

noncomputable section

namespace Cert.KMath

open Idealize.ShloMosaic Idealize.ShloMosaic.ValueIdx Cert.KernelIdeal Cert.KernelIdeal.Gen Cert.LibDenseLayers Cert.Sage
open scoped BigOperators

/-! ## The three matrix products' index maps -/

theorem d1_l0 (i : S2048x512.Idx) (q : dot_S2048x128_S128x512_S2048x512_1_0_0_1_n_n.contr.Idx) : (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem d1_l1 (i : S2048x512.Idx) (q : dot_S2048x128_S128x512_S2048x512_1_0_0_1_n_n.contr.Idx) : (dot_S2048x128_S128x512_S2048x512_1_0_0_1_n_n.lhsIdx i q 1).val = (q ⟨0, by decide⟩).val :=
  dot_S2048x128_S128x512_S2048x512_1_0_0_1_n_n.lhsIdx_val_of_single rfl i q
theorem d1_r0 (i : S2048x512.Idx) (q : dot_S2048x128_S128x512_S2048x512_1_0_0_1_n_n.contr.Idx) : (dot_S2048x128_S128x512_S2048x512_1_0_0_1_n_n.rhsIdx i q 0).val = (q ⟨0, by decide⟩).val :=
  dot_S2048x128_S128x512_S2048x512_1_0_0_1_n_n.rhsIdx_val_of_single rfl i q
theorem d1_r1 (i : S2048x512.Idx) (q : dot_S2048x128_S128x512_S2048x512_1_0_0_1_n_n.contr.Idx) : (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

theorem d2_l0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem d2_l1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem d2_r0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem d2_r1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem d3_l0 (i : S2048x640.Idx) (q : dot_S2048x512_S512x640_S2048x640_1_0_0_1_n_n.contr.Idx) : (dot_S2048x512_S512x640_S2048x640_1_0_0_1_n_n.lhsIdx i q 0).val = (i 0).val := by
  unfold DotDims.lhsIdx
  rw [dif_neg (show ¬(0 : Fin S2048x512.rank) ∈ dot_S2048x512_S512x640_S2048x640_1_0_0_1_n_n.lhsBatch by decide), dif_pos (show (0 : Fin S2048x512.rank) ∈ dot_S2048x512_S512x640_S2048x640_1_0_0_1_n_n.lhsNonContracting by decide)]
  rfl
theorem d3_l1 (i : S2048x640.Idx) (q : dot_S2048x512_S512x640_S2048x640_1_0_0_1_n_n.contr.Idx) : (dot_S2048x512_S512x640_S2048x640_1_0_0_1_n_n.lhsIdx i q 1).val = (q ⟨0, by decide⟩).val :=
  dot_S2048x512_S512x640_S2048x640_1_0_0_1_n_n.lhsIdx_val_of_single rfl i q
theorem d3_r0 (i : S2048x640.Idx) (q : dot_S2048x512_S512x640_S2048x640_1_0_0_1_n_n.contr.Idx) : (dot_S2048x512_S512x640_S2048x640_1_0_0_1_n_n.rhsIdx i q 0).val = (q ⟨0, by decide⟩).val :=
  dot_S2048x512_S512x640_S2048x640_1_0_0_1_n_n.rhsIdx_val_of_single rfl i q
theorem d3_r1 (i : S2048x640.Idx) (q : dot_S2048x512_S512x640_S2048x640_1_0_0_1_n_n.contr.Idx) : (dot_S2048x512_S512x640_S2048x640_1_0_0_1_n_n.rhsIdx i q 1).val = (i 1).val := by
  unfold DotDims.rhsIdx
  rw [dif_neg (show ¬(1 : Fin S512x640.rank) ∈ dot_S2048x512_S512x640_S2048x640_1_0_0_1_n_n.rhsBatch by decide), dif_pos (show (1 : Fin S512x640.rank) ∈ dot_S2048x512_S512x640_S2048x640_1_0_0_1_n_n.rhsNonContracting by decide)]
  rfl

/-! ## The two column reductions, for any extents -/

/-- A column met with the row maxima of a matrix (the maxima cast to a column), read at row p. -/
theorem colMax_apply {a b : ℕ} (z : FVec Ideal ⟨2, ![a, b]⟩ .f32) (m : FVec Ideal ⟨2, ![a, 1]⟩ .f32)
    (hred : Shape.Reduces ⟨2, ![a, b]⟩ [1] ⟨1, ![a]⟩) (hc1 : (⟨1, ![a]⟩ : Shape).ShapeCasts ⟨2, ![a, 1]⟩)
    (hφ : FKind.Formats .f32) (hmax : (0xFF800000#32 : BitVec 32) = FKind.maximumf.neutral .f32 hφ) (p : Fin a) :
    maximumf m (shapeCast ⟨2, ![a, 1]⟩ (multiReduction .maximumf [1] ⟨1, ![a]⟩ z 0xFF800000#32 hred hφ hmax) hc1) (ix2 p (0 : Fin 1))
      = stepM (m (ix2 p (0 : Fin 1))) (fun c : Fin b => z (ix2 p c)) := by
  show max (m (ix2 p (0 : Fin 1)))
      (shapeCast ⟨2, ![a, 1]⟩ (multiReduction .maximumf [1] ⟨1, ![a]⟩ z 0xFF800000#32 hred hφ hmax) hc1 (ix2 p (0 : Fin 1))) = _
  rw [Cert.LibLayout.shapeCast_a_a1_apply, Cert.LibLaneMax.laneMax_apply]
  rfl

/-- A column l times a column e, plus the row sums of exp (z - M) with the column M laid over the lanes, read at row p. -/
theorem colSum_apply {a b : ℕ} (z : FVec Ideal ⟨2, ![a, b]⟩ .f32) (M l e : FVec Ideal ⟨2, ![a, 1]⟩ .f32)
    (hred : Shape.Reduces ⟨2, ![a, b]⟩ [1] ⟨1, ![a]⟩) (hc1 : (⟨1, ![a]⟩ : Shape).ShapeCasts ⟨2, ![a, 1]⟩)
    (hb1 : (⟨2, ![a, 1]⟩ : Shape).Broadcasts ⟨2, ![a, b]⟩)
    (hφ : FKind.Formats .f32) (hadd : (0x00000000#32 : BitVec 32) = FKind.add.neutral .f32 hφ) (p : Fin a) :
    addf (mulf l e) (shapeCast ⟨2, ![a, 1]⟩ (multiReduction .add [1] ⟨1, ![a]⟩
        (exp (subf z (broadcastTo ⟨2, ![a, b]⟩ M hb1))) 0x00000000#32 hred hφ hadd) hc1) (ix2 p (0 : Fin 1))
      = l (ix2 p (0 : Fin 1)) * e (ix2 p (0 : Fin 1)) + ∑ c : Fin b, Ideal.exp (z (ix2 p c) - M (ix2 p (0 : Fin 1))) := by
  show l (ix2 p (0 : Fin 1)) * e (ix2 p (0 : Fin 1))
      + shapeCast ⟨2, ![a, 1]⟩ (multiReduction .add [1] ⟨1, ![a]⟩
        (exp (subf z (broadcastTo ⟨2, ![a, b]⟩ M hb1))) 0x00000000#32 hred hφ hadd) hc1 (ix2 p (0 : Fin 1)) = _
  rw [Cert.LibLayout.shapeCast_a_a1_apply, Cert.LibLayout.laneSum_apply]
  refine congrArg (fun s => l (ix2 p (0 : Fin 1)) * e (ix2 p (0 : Fin 1)) + s) ?_
  refine Finset.sum_congr rfl fun c _ => ?_
  show Ideal.exp (z (ix2 p c) - broadcastTo ⟨2, ![a, b]⟩ M hb1 (ix2 p c)) = _
  rw [Cert.LibLayout.broadcastTo_a1_ab_apply]
/-! ## The hidden block -/

/-- The hidden block is the two rectified affine layers of the specification. -/
theorem pay2_eq (x : Vec Ideal S2048x128 .f32) (W1 : Vec Ideal S128x512 .f32) (b1 : Vec Ideal S512 .f32)
    (W2 : Vec Ideal S512x512 .f32) (b2 : Vec Ideal S512 .f32) :
    k0_pay2 x W1 b1 W2 b2 = Cert.Spec.hidden x W1 b1 W2 b2 := by
  unfold k0_pay2
  simp only [shapeCast_self]
  rw [affine_of_matmul (R := 2048) (K := 128) (N := 512) dot_S2048x128_S128x512_S2048x512_1_0_0_1_n_n rfl rfl d1_l0 d1_l1 d1_r0 d1_r1,
    affine_of_matmul (R := 2048) (K := 512) (N := 512) dot_S2048x512_S512x512_S2048x512_1_0_0_1_n_n rfl rfl d2_l0 d2_l1 d2_r0 d2_r1]
  rfl

/-- The second kernel recomputes the same hidden block. -/
theorem pay1'_eq (x : Vec Ideal S2048x128 .f32) (W1 : Vec Ideal S128x512 .f32) (b1 : Vec Ideal S512 .f32)
    (W2 : Vec Ideal S512x512 .f32) (b2 : Vec Ideal S512 .f32) :
    k1_pay1 x W1 b1 W2 b2 = k0_pay2 x W1 b1 W2 b2 := rfl

/-! ## One tile of scores -/

/-- A tile of scores at (p, c): row p of the hidden block against column c of the weight tile, plus the bias row at c. -/
theorem pay5_apply (h : Vec Ideal S2048x512 .f32) (Wo : Vec Ideal S512x640 .f32) (bo : Vec Ideal S1x640 .f32)
    (p : Fin 2048) (c : Fin 640) :
    k0_pay5 h Wo bo (ix2 p c) = affineAt h Wo (Cert.LibRowBias.rowOf bo) p c := by
  unfold k0_pay5
  exact Cert.LibRowBias.affineAt_of_matmul_row (R := 2048) (K := 512) (N := 640) dot_S2048x512_S512x640_S2048x640_1_0_0_1_n_n rfl rfl d3_l0 d3_l1 d3_r0 d3_r1
    Facts₀.shapeCasts_S1x640_S1x640 Facts₀.broadcasts_S1x640_S2048x640
    (truncf .bf16 h Facts₀.bitsLt_bf16_f32) (truncf .bf16 Wo Facts₀.bitsLt_bf16_f32) bo p c

/-! ## The running maximum and the running sum -/

/-- The new running maximum at row p. -/
theorem pay6_apply (h : Vec Ideal S2048x512 .f32) (Wo : Vec Ideal S512x640 .f32) (bo : Vec Ideal S1x640 .f32)
    (m : Vec Ideal S2048x1 .f32) (p : Fin 2048) :
    k0_pay6 h Wo bo m (ix2 p (0 : Fin 1)) = stepM (m (ix2 p (0 : Fin 1))) (fun c : Fin 640 => k0_pay5 h Wo bo (ix2 p c)) := by
  unfold k0_pay6
  exact colMax_apply (a := 2048) (b := 640) (k0_pay5 h Wo bo) m _ _ _ _ p

/-- The value stored as the new running maximum is that maximum. -/
theorem pay8_eq (h : Vec Ideal S2048x512 .f32) (Wo : Vec Ideal S512x640 .f32) (bo : Vec Ideal S1x640 .f32)
    (m : Vec Ideal S2048x1 .f32) : k0_pay8 h Wo bo m = k0_pay6 h Wo bo m := by
  unfold k0_pay8
  exact shapeCast_self _ _

/-- The stored running maximum at row p. -/
theorem pay8_apply (h : Vec Ideal S2048x512 .f32) (Wo : Vec Ideal S512x640 .f32) (bo : Vec Ideal S1x640 .f32)
    (m : Vec Ideal S2048x1 .f32) (p : Fin 2048) :
    k0_pay8 h Wo bo m (ix2 p (0 : Fin 1)) = stepM (m (ix2 p (0 : Fin 1))) (fun c : Fin 640 => k0_pay5 h Wo bo (ix2 p c)) := by
  rw [pay8_eq, pay6_apply]

/-- The new running sum at row p. -/
theorem pay7_apply (h : Vec Ideal S2048x512 .f32) (Wo : Vec Ideal S512x640 .f32) (bo : Vec Ideal S1x640 .f32)
    (m m' l : Vec Ideal S2048x1 .f32) (p : Fin 2048) :
    k0_pay7 h Wo bo m m' l (ix2 p (0 : Fin 1))
      = stepL (m (ix2 p (0 : Fin 1))) (m' (ix2 p (0 : Fin 1))) (l (ix2 p (0 : Fin 1))) (fun c : Fin 640 => k0_pay5 h Wo bo (ix2 p c)) := by
  unfold k0_pay7
  refine (congrFun (shapeCast_self _ _) _).trans ?_
  refine (colSum_apply (a := 2048) (b := 640) (k0_pay5 h Wo bo) (k0_pay6 h Wo bo m) l (exp (subf m' (k0_pay6 h Wo bo m))) _ _ _ _ _ p).trans ?_
  show l (ix2 p (0 : Fin 1)) * Ideal.exp (m' (ix2 p (0 : Fin 1)) - k0_pay6 h Wo bo m (ix2 p (0 : Fin 1)))
      + ∑ c : Fin 640, Ideal.exp (k0_pay5 h Wo bo (ix2 p c) - k0_pay6 h Wo bo m (ix2 p (0 : Fin 1))) = _
  rw [pay6_apply]
  rfl

/-- The value written after the last tile: the running maximum plus the logarithm of the running sum. -/
theorem pay1_apply (m l : Vec Ideal S2048x1 .f32) (p : Fin 2048) :
    k0_pay1 m l (ix2 p (0 : Fin 1)) = m (ix2 p (0 : Fin 1)) + Ideal.log (l (ix2 p (0 : Fin 1))) := rfl

/-! ## The output tile -/

/-- The output at (p, c): the tile's score minus the row's stored value. -/
theorem pay2'_apply (h : Vec Ideal S2048x512 .f32) (Wo : Vec Ideal S512x640 .f32) (bo : Vec Ideal S1x640 .f32)
    (s : Vec Ideal S2048x1 .f32) (p : Fin 2048) (c : Fin 640) :
    k1_pay2 h Wo bo s (ix2 p c) = k0_pay5 h Wo bo (ix2 p c) - s (ix2 p (0 : Fin 1)) := by
  unfold k1_pay2
  show k0_pay5 h Wo bo (ix2 p c) - broadcastTo S2048x640 (shapeCast S2048x1 s Facts₀.shapeCasts_S2048x1_S2048x1)
      Facts₀.broadcasts_S2048x1_S2048x640 (ix2 p c) = _
  rw [Cert.LibLayout.broadcastTo_a1_ab_apply, shapeCast_self]

end Cert.KMath

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.LibSoftmaxLaws.lean ====
/-
  GENERAL LEMMAS, no program mentioned: the arithmetic of a softmax-weighted average, on the reals and then on the extended reals with the exact operations.

  For scores g v and values c v the weighted average is  (∑ v, exp (g v) * c v) / (∑ v, exp (g v)).  Two ways of
  computing it are compared with this one form:

  * subtracting ANY real number μ from every score first changes neither numerator-over-denominator (the common factor
    exp (-μ) cancels), so the number subtracted — in practice a maximum of the scores — never has to be identified;
  * normalising each weight by the denominator first and summing afterwards is the quotient of the sums;
  * the scores may be visited block by block: when the subtracted number changes from μ' to μ, the sums gathered so far
    are multiplied by exp (μ' - μ), because exp (μ' - μ) * exp (g v - μ') = exp (g v - μ).

  The extended-real forms only say that these real computations, carried out with the exact operations on coerced
  reals, stay coerced reals; the one corner used is exp ⊥ = 0 for the very first block, whose predecessor is "-∞".
-/
import Idealize.ShloMosaic.PureOps.Ideal
import Mathlib.Analysis.SpecialFunctions.Exp
import proofs.«128076_j14156212207627_1_alg».proof.Proof.LibSmallWords

noncomputable section

namespace Cert.SoftmaxLaws

open Idealize.ShloMosaic
open scoped BigOperators

/-! ## Real laws -/

/-- Changing the subtracted number from μ' to μ multiplies every gathered term by exp (μ' - μ). -/
theorem rescale {ι : Type*} (S : Finset ι) (g c : ι → ℝ) (μ' μ : ℝ) :
    Real.exp (μ' - μ) * ∑ v ∈ S, Real.exp (g v - μ') * c v = ∑ v ∈ S, Real.exp (g v - μ) * c v := by
  rw [Finset.mul_sum]
  refine Finset.sum_congr rfl fun v _ => ?_
  rw [← mul_assoc, ← Real.exp_add]
  congr 2
  ring

/-- One more block of w scores after the first n: the rescaled sum so far plus the block's terms is the sum over the
    first n + w. -/
theorem block_step (g c : ℕ → ℝ) (μ' μ : ℝ) (n w : ℕ) :
    Real.exp (μ' - μ) * (∑ v ∈ Finset.range n, Real.exp (g v - μ') * c v) + ∑ j : Fin w, Real.exp (g (n + j.val) - μ) * c (n + j.val)
      = ∑ v ∈ Finset.range (n + w), Real.exp (g v - μ) * c v := by
  rw [rescale, Finset.sum_range_add]
  congr 1
  rw [Finset.sum_range]

/-- The first block: nothing gathered before it. -/
theorem block_first (g c : ℕ → ℝ) (μ : ℝ) (w : ℕ) :
    ∑ j : Fin w, Real.exp (g (0 + j.val) - μ) * c (0 + j.val) = ∑ v ∈ Finset.range (0 + w), Real.exp (g v - μ) * c v := by
  rw [Finset.sum_range_add, Finset.sum_range_zero, zero_add, Finset.sum_range]

/-- The same two laws for the denominators (every value 1). -/
theorem block_step_den (g : ℕ → ℝ) (μ' μ : ℝ) (n w : ℕ) :
    Real.exp (μ' - μ) * (∑ v ∈ Finset.range n, Real.exp (g v - μ')) + ∑ j : Fin w, Real.exp (g (n + j.val) - μ)
      = ∑ v ∈ Finset.range (n + w), Real.exp (g v - μ) := by
  have h := block_step g (fun _ => 1) μ' μ n w
  simpa only [mul_one] using h

theorem block_first_den (g : ℕ → ℝ) (μ : ℝ) (w : ℕ) :
    ∑ j : Fin w, Real.exp (g (0 + j.val) - μ) = ∑ v ∈ Finset.range (0 + w), Real.exp (g v - μ) := by
  have h := block_first g (fun _ => 1) μ w
  simpa only [mul_one] using h

/-- Subtracting a real number from every score does not change the weighted average. -/
theorem ratio_shift {ι : Type*} (S : Finset ι) (g c : ι → ℝ) (μ : ℝ) :
    (∑ v ∈ S, Real.exp (g v - μ) * c v) / (∑ v ∈ S, Real.exp (g v - μ))
      = (∑ v ∈ S, Real.exp (g v) * c v) / (∑ v ∈ S, Real.exp (g v)) := by
  have h1 : ∀ d : ι → ℝ, ∑ v ∈ S, Real.exp (g v - μ) * d v = Real.exp (-μ) * ∑ v ∈ S, Real.exp (g v) * d v := by
    intro d
    rw [Finset.mul_sum]
    refine Finset.sum_congr rfl fun v _ => ?_
    rw [sub_eq_add_neg, Real.exp_add]
    ring
  have h2 : ∑ v ∈ S, Real.exp (g v - μ) = Real.exp (-μ) * ∑ v ∈ S, Real.exp (g v) := by
    have := h1 (fun _ => 1)
    simpa using this
  rw [h1 c, h2, mul_div_mul_left _ _ (Real.exp_ne_zero _)]

/-- Normalising each weight first and summing afterwards is the quotient of the sums. -/
theorem normalized_sum {ι : Type*} (S : Finset ι) (e c : ι → ℝ) (L : ℝ) :
    ∑ v ∈ S, (e v / L) * c v = (∑ v ∈ S, e v * c v) / L := by
  rw [Finset.sum_div]
  exact Finset.sum_congr rfl fun v _ => by ring

/-- A sum of exponentials over a non-empty index set is positive. -/
theorem sum_exp_pos {ι : Type*} (S : Finset ι) (hS : S.Nonempty) (g : ι → ℝ) : 0 < ∑ v ∈ S, Real.exp (g v) :=
  Finset.sum_pos (fun v _ => Real.exp_pos _) hS

/-! ## A function on the first n naturals continued by zero -/

/-- A function on `Fin n` as a function on all naturals (zero from n on). -/
def ext {n : ℕ} (G : Fin n → ℝ) (v : ℕ) : ℝ := if h : v < n then G ⟨v, h⟩ else 0

theorem ext_lt {n : ℕ} (G : Fin n → ℝ) (v : ℕ) (h : v < n) : ext G v = G ⟨v, h⟩ := dif_pos h

theorem sum_range_ext {n : ℕ} (G : Fin n → ℝ) (f : ℝ → ℝ) :
    ∑ v ∈ Finset.range n, f (ext G v) = ∑ v : Fin n, f (G v) := by
  rw [Finset.sum_range]
  exact Finset.sum_congr rfl fun v _ => by rw [ext_lt G v.val v.isLt]

theorem sum_range_ext₂ {n : ℕ} (G C : Fin n → ℝ) (f : ℝ → ℝ → ℝ) :
    ∑ v ∈ Finset.range n, f (ext G v) (ext C v) = ∑ v : Fin n, f (G v) (C v) := by
  rw [Finset.sum_range]
  exact Finset.sum_congr rfl fun v _ => by rw [ext_lt G v.val v.isLt, ext_lt C v.val v.isLt]

/-! ## The same computations with the exact operations on coerced reals -/

/-- A finite sum of coerced reals is the coerced sum. -/
theorem coe_sum {ι : Type*} (s : Finset ι) (g : ι → ℝ) : (∑ k ∈ s, ((g k : ℝ) : EReal)) = ((∑ k ∈ s, g k : ℝ) : EReal) :=
  Cert.LibSmallWords.coe_sum s g

/-- The exact exponential of a difference of two reals. -/
theorem exp_sub_coe (x y : ℝ) : Ideal.exp ((x : EReal) - (y : EReal)) = ((Real.exp (x - y) : ℝ) : EReal) := by
  rw [← EReal.coe_sub, Ideal.exp_coe]

/-- "-∞" minus a real is "-∞", whose exponential is 0. -/
theorem exp_bot_sub_coe (y : ℝ) : Ideal.exp ((⊥ : EReal) - (y : EReal)) = 0 := by
  rw [EReal.bot_sub, Ideal.exp_bot]

/-- A maximum of finitely many coerced reals, started from "-∞", over a non-empty index set is a coerced real. -/
theorem fold_max_real {ι : Type*} [DecidableEq ι] (S : Finset ι) (g : ι → ℝ) :
    (S = ∅ ∧ S.fold max (⊥ : EReal) (fun k => ((g k : ℝ) : EReal)) = ⊥)
      ∨ ∃ μ : ℝ, S.fold max (⊥ : EReal) (fun k => ((g k : ℝ) : EReal)) = (μ : EReal) := by
  induction S using Finset.induction_on with
  | empty => exact Or.inl ⟨rfl, rfl⟩
  | insert a s ha ih =>
    right
    rw [Finset.fold_insert ha]
    rcases ih with ⟨_, h⟩ | ⟨μ, h⟩
    · exact ⟨g a, by rw [h, max_eq_left bot_le]⟩
    · exact ⟨max (g a) μ, by rw [h]; exact (EReal.coe_strictMono.monotone.map_max).symm⟩

theorem fold_max_univ_real {n : ℕ} (g : Fin (n + 1) → ℝ) :
    ∃ μ : ℝ, (Finset.univ : Finset (Fin (n + 1))).fold max (⊥ : EReal) (fun k => ((g k : ℝ) : EReal)) = (μ : EReal) := by
  rcases fold_max_real Finset.univ g with ⟨h, _⟩ | h
  · exact absurd h (Finset.univ_nonempty.ne_empty)
  · exact h

/-- The running denominator: rescaled old value plus the block's lane sum. -/
theorem denom_step {w : ℕ} (μ' μ lam : ℝ) (σ : Fin w → ℝ) :
    Ideal.exp ((μ' : EReal) - (μ : EReal)) * (lam : EReal) + ∑ j : Fin w, Ideal.exp ((σ j : EReal) - (μ : EReal))
      = ((Real.exp (μ' - μ) * lam + ∑ j : Fin w, Real.exp (σ j - μ) : ℝ) : EReal) := by
  simp only [exp_sub_coe, coe_sum, ← EReal.coe_mul, ← EReal.coe_add]

/-- The running numerator: rescaled old value plus the block's contraction with the values. -/
theorem numer_step {w : ℕ} (μ' μ al : ℝ) (σ π : Fin w → ℝ) :
    Ideal.exp ((μ' : EReal) - (μ : EReal)) * (al : EReal) + ∑ j : Fin w, Ideal.exp ((σ j : EReal) - (μ : EReal)) * (π j : EReal)
      = ((Real.exp (μ' - μ) * al + ∑ j : Fin w, Real.exp (σ j - μ) * π j : ℝ) : EReal) := by
  simp only [exp_sub_coe, coe_sum, ← EReal.coe_mul, ← EReal.coe_add]

/-- The first block's denominator: the old maximum is "-∞" and the old sum 0. -/
theorem denom_first {w : ℕ} (μ : ℝ) (σ : Fin w → ℝ) :
    Ideal.exp ((⊥ : EReal) - (μ : EReal)) * (0 : EReal) + ∑ j : Fin w, Ideal.exp ((σ j : EReal) - (μ : EReal))
      = ((∑ j : Fin w, Real.exp (σ j - μ) : ℝ) : EReal) := by
  simp only [exp_bot_sub_coe, exp_sub_coe, coe_sum, zero_add, mul_zero]

/-- The first block's numerator. -/
theorem numer_first {w : ℕ} (μ : ℝ) (σ π : Fin w → ℝ) :
    Ideal.exp ((⊥ : EReal) - (μ : EReal)) * (0 : EReal) + ∑ j : Fin w, Ideal.exp ((σ j : EReal) - (μ : EReal)) * (π j : EReal)
      = ((∑ j : Fin w, Real.exp (σ j - μ) * π j : ℝ) : EReal) := by
  simp only [exp_bot_sub_coe, exp_sub_coe, coe_sum, zero_add, mul_zero, ← EReal.coe_mul]

/-- The exact quotient of two coerced reals with a non-zero divisor. -/
theorem div_coe_coe (a b : ℝ) (hb : b ≠ 0) : Ideal.div (a : EReal) (b : EReal) = ((a / b : ℝ) : EReal) := by
  rw [Ideal.div_coe hb, ← EReal.coe_mul]
  congr 1
  ring

end Cert.SoftmaxLaws

end
-- ==== Proof.LibOneBit.lean ====
/-
  GENERAL LEMMAS: a one-bit comparison result read as a number, and two f32 words on the extended reals. Nothing here
  mentions a program.

  * widened_signed: a one-bit word widened with zeros to 32 bits and read as a signed integer is the bit read as a natural
    number (0 or 1) — a kernel's mask (extend, then convert signed) against a host's (convert the bit unsigned).
  * cmp_one_eq_une: on the extended reals nothing is unordered, so "ordered and not equal" and "unordered or not equal"
    are the same comparison.
  * max_negInf_word: the f32 word of minus infinity is the least extended real, so a maximum met with it is unchanged.
  * zero_word: the f32 word of zero is the extended real zero.
-/
import Idealize.ShloMosaic.PureOps.Ideal
import Idealize.ShloMosaic.PureOps.Ideal.Laws

noncomputable section

namespace Cert.LibOneBit

open Idealize.ShloMosaic

/-- A one-bit word widened to 32 bits and read as a signed integer is the bit. -/
theorem widened_signed (b : BitVec 1) : (((b.setWidth 32).toInt : ℝ) : EReal) = ((b.toNat : ℝ) : EReal) := by
  have h : ∀ b : BitVec 1, (b.setWidth 32).toInt = (b.toNat : ℤ) := by decide
  rw [h b, Int.cast_natCast]

/-- Ordered-not-equal and unordered-or-not-equal are one comparison of extended reals. -/
theorem cmp_one_eq_une (x y : EReal) : Ideal.cmp .one x y = Ideal.cmp .une x y := rfl

/-- Minus infinity is the least extended real, so meeting it by max changes nothing. -/
theorem max_negInf_word (y : EReal) : max (Ideal.ofBits .f32 0xFF800000#32) y = y := by
  simp [Ideal.ofBits, Ideal.ieee]

/-- The f32 word of zero is the extended real zero. -/
theorem zero_word : Ideal.ofBits .f32 0x00000000#32 = (0 : EReal) := Ideal.ofBits_zero_f32

end Cert.LibOneBit

end
-- ==== Proof.LibOnlineLse.lean ====
/-
  The online recurrence of a row's maximum and sum of exponentials, on extended reals whose scores are real numbers.

  A row of scores g 0, g 1, ... is visited in tiles of w consecutive scores. Starting from (minus infinity, 0), after
  each tile the pair (m, l) is replaced by
      m' = max (m, the tile's maximum),   l' = l * exp (m - m') + the sum over the tile of exp (score - m').
  Claim: after tile j the first component is SOME real number μ and the second is the sum over the first w (j + 1)
  scores of exp (g v - μ). Which real μ is (it is the maximum so far) never matters: for every real a,
      a + log (sum of exp (g v - a)) = log (sum of exp (g v)),
  so "score - (μ + log l)" is the log-softmax whatever real was subtracted, and so is the specification's form with
  the row maximum subtracted. The only corner is the first tile: exp (-inf - μ) = 0 and the old sum is 0.
  Nothing here mentions a program; the tile width and the number of tiles are arbitrary.
-/
import Idealize.ShloMosaic.PureOps.Ideal
import Mathlib.Analysis.SpecialFunctions.Exp
import Mathlib.Analysis.SpecialFunctions.Log.Basic
import Mathlib.Tactic.Linarith
import Mathlib.Tactic.Ring
import proofs.«128076_j14156212207627_1_alg».proof.Proof.LibOnlineStep
import proofs.«128076_j14156212207627_1_alg».proof.Proof.LibSoftmaxLaws
import proofs.«128076_j14156212207627_1_alg».proof.Proof.LibSageLayers
import proofs.«128076_j14156212207627_1_alg».proof.Proof.LibOneBit

noncomputable section

namespace Cert.KMath

open Idealize.ShloMosaic Cert.Sage Cert.SoftmaxLaws
open scoped BigOperators

/-! ## Minus infinity, and a tile's maximum -/

/-- The f32 word of minus infinity is the least extended real. -/
theorem negInf_word : Ideal.ofBits .f32 0xFF800000#32 = (⊥ : EReal) :=
  (max_eq_left bot_le).symm.trans (Cert.LibOneBit.max_negInf_word ⊥)

/-- The maximum of a non-empty tile of reals, folded from minus infinity, is a real. -/
theorem tileMax_real {w : ℕ} (hw : 0 < w) (σ : Fin w → ℝ) :
    ∃ τ : ℝ, (Finset.univ : Finset (Fin w)).fold max (Ideal.ofBits .f32 0xFF800000#32) (fun c => ((σ c : ℝ) : EReal))
      = (τ : EReal) := by
  haveI : Nonempty (Fin w) := ⟨⟨0, hw⟩⟩
  rw [negInf_word]
  rcases fold_max_real (Finset.univ : Finset (Fin w)) σ with ⟨h, _⟩ | h
  · exact absurd h Finset.univ_nonempty.ne_empty
  · exact h

/-! ## One step on real scores -/

/-- From minus infinity the new maximum is the tile's maximum: a real. -/
theorem stepM_first {w : ℕ} (hw : 0 < w) (σ : Fin w → ℝ) :
    ∃ μ : ℝ, stepM (Ideal.ofBits .f32 0xFF800000#32) (fun c => ((σ c : ℝ) : EReal)) = (μ : EReal) := by
  obtain ⟨τ, hτ⟩ := tileMax_real hw σ
  exact ⟨τ, by unfold stepM; rw [hτ, Cert.LibOneBit.max_negInf_word]⟩

/-- From a real the new maximum is a real. -/
theorem stepM_next {w : ℕ} (hw : 0 < w) (μ' : ℝ) (σ : Fin w → ℝ) :
    ∃ μ : ℝ, stepM (μ' : EReal) (fun c => ((σ c : ℝ) : EReal)) = (μ : EReal) := by
  obtain ⟨τ, hτ⟩ := tileMax_real hw σ
  exact ⟨max μ' τ, by unfold stepM; rw [hτ]; exact (EReal.coe_strictMono.monotone.map_max).symm⟩

/-- The first tile's sum: the old maximum is minus infinity and the old sum is zero. -/
theorem stepL_first {w : ℕ} (σ : Fin w → ℝ) (μ : ℝ)
    (hμ : stepM (Ideal.ofBits .f32 0xFF800000#32) (fun c => ((σ c : ℝ) : EReal)) = (μ : EReal)) :
    stepL (Ideal.ofBits .f32 0xFF800000#32) (Ideal.ofBits .f32 0xFF800000#32) (Ideal.ofBits .f32 0x00000000#32)
        (fun c => ((σ c : ℝ) : EReal))
      = ((∑ c : Fin w, Real.exp (σ c - μ) : ℝ) : EReal) := by
  unfold stepL
  rw [hμ, negInf_word, Cert.LibOneBit.zero_word, mul_comm]
  exact denom_first μ σ

/-- A later tile's sum: the old sum rescaled from the old real maximum to the new one, plus the tile's terms. -/
theorem stepL_next {w : ℕ} (σ : Fin w → ℝ) (μ' lam μ : ℝ)
    (hμ : stepM (μ' : EReal) (fun c => ((σ c : ℝ) : EReal)) = (μ : EReal)) :
    stepL (μ' : EReal) (μ' : EReal) (lam : EReal) (fun c => ((σ c : ℝ) : EReal))
      = ((Real.exp (μ' - μ) * lam + ∑ c : Fin w, Real.exp (σ c - μ) : ℝ) : EReal) := by
  unfold stepL
  rw [hμ, mul_comm]
  exact denom_step μ' μ lam σ

/-! ## The recurrence over the tiles -/

/-- The running pair (maximum, sum) after tile j, started from (minus infinity, zero). -/
def racc {w : ℕ} (t : ℕ → Fin w → EReal) : ℕ → EReal × EReal
  | 0 => (stepM (Ideal.ofBits .f32 0xFF800000#32) (t 0),
      stepL (Ideal.ofBits .f32 0xFF800000#32) (Ideal.ofBits .f32 0xFF800000#32) (Ideal.ofBits .f32 0x00000000#32) (t 0))
  | j + 1 => (stepM (racc t j).1 (t (j + 1)), stepL (racc t j).1 (racc t j).1 (racc t j).2 (t (j + 1)))

/-- After tile j the pair is (μ, the sum over the first w (j + 1) scores of exp (g v - μ)) for some real μ. -/
theorem racc_real {w : ℕ} (hw : 0 < w) (g : ℕ → ℝ) (t : ℕ → Fin w → EReal) (J : ℕ)
    (ht : ∀ j, j < J → ∀ c : Fin w, t j c = ((g (w * j + c.val) : ℝ) : EReal)) :
    ∀ j, j < J → ∃ μ : ℝ, (racc t j).1 = (μ : EReal)
      ∧ (racc t j).2 = ((∑ v ∈ Finset.range (w * (j + 1)), Real.exp (g v - μ) : ℝ) : EReal) := by
  intro j
  induction j with
  | zero =>
    intro hj
    have e : t 0 = fun c : Fin w => ((g (0 + c.val) : ℝ) : EReal) := funext fun c => by rw [ht 0 hj c, Nat.mul_zero]
    obtain ⟨μ, hμ⟩ := stepM_first hw (fun c : Fin w => g (0 + c.val))
    have hn : w * (0 + 1) = 0 + w := by omega
    refine ⟨μ, ?_, ?_⟩
    · show stepM _ (t 0) = _
      rw [e]; exact hμ
    · show stepL _ _ _ (t 0) = _
      rw [e, stepL_first (fun c : Fin w => g (0 + c.val)) μ hμ, block_first_den g μ w, hn]
  | succ j ih =>
    intro hj
    obtain ⟨μ', hm', hl'⟩ := ih (Nat.lt_of_succ_lt hj)
    have e : t (j + 1) = fun c : Fin w => ((g (w * (j + 1) + c.val) : ℝ) : EReal) := funext fun c => ht (j + 1) hj c
    obtain ⟨μ, hμ⟩ := stepM_next hw μ' (fun c : Fin w => g (w * (j + 1) + c.val))
    have hn : w * (j + 1 + 1) = w * (j + 1) + w := Nat.mul_succ w (j + 1)
    refine ⟨μ, ?_, ?_⟩
    · show stepM (racc t j).1 (t (j + 1)) = _
      rw [hm', e]; exact hμ
    · show stepL (racc t j).1 (racc t j).1 (racc t j).2 (t (j + 1)) = _
      rw [hm', hl', e, stepL_next (fun c : Fin w => g (w * (j + 1) + c.val)) μ' _ μ hμ,
        block_step_den g μ' μ (w * (j + 1)) w, hn]

/-! ## The end: the stored value and the output -/

/-- Subtracting a real from every score moves the logarithm of the sum of exponentials by that real. -/
theorem log_sum_exp_shift {ι : Type*} (S : Finset ι) (hS : S.Nonempty) (G : ι → ℝ) (a : ℝ) :
    a + Real.log (∑ v ∈ S, Real.exp (G v - a)) = Real.log (∑ v ∈ S, Real.exp (G v)) := by
  have h : ∑ v ∈ S, Real.exp (G v - a) = Real.exp (-a) * ∑ v ∈ S, Real.exp (G v) := by
    rw [Finset.mul_sum]
    refine Finset.sum_congr rfl fun v _ => ?_
    rw [sub_eq_add_neg, Real.exp_add, mul_comm]
  rw [h, Real.log_mul (Real.exp_ne_zero _) (sum_exp_pos S hS G).ne', Real.log_exp]
  ring

/-- A real score minus (m + log l), with m a real μ and l the row's sum of exp (score - μ), is the row's log-softmax
    in the specification's form (the row maximum subtracted). -/
theorem lse_out {N : ℕ} (hN : 0 < N) (G : Fin N → ℝ) (μ : ℝ) (m l : EReal) (hm : m = (μ : EReal))
    (hl : l = ((∑ q' : Fin N, Real.exp (G q' - μ) : ℝ) : EReal)) (q : Fin N) :
    ((G q : ℝ) : EReal) - (m + Ideal.log l) = lsmAt (fun q' : Fin N => ((G q' : ℝ) : EReal)) q := by
  haveI : Nonempty (Fin N) := ⟨⟨0, hN⟩⟩
  have hpos : ∀ a : ℝ, 0 < ∑ q' : Fin N, Real.exp (G q' - a) := fun a =>
    sum_exp_pos Finset.univ Finset.univ_nonempty _
  obtain ⟨M, hM⟩ : ∃ M : ℝ, rowMax (fun q' : Fin N => ((G q' : ℝ) : EReal)) = (M : EReal) := by
    unfold rowMax
    exact tileMax_real hN G
  unfold lsmAt
  rw [hM, hm, hl]
  have hs : (∑ q' : Fin N, Ideal.exp (((G q' : ℝ) : EReal) - (M : EReal)))
      = ((∑ q' : Fin N, Real.exp (G q' - M) : ℝ) : EReal) := by
    rw [← coe_sum]
    exact Finset.sum_congr rfl fun q' _ => exp_sub_coe _ _
  rw [hs, Ideal.log_coe, Ideal.log_coe, if_neg (not_le.mpr (hpos μ)), if_neg (not_le.mpr (hpos M)),
    ← EReal.coe_add, ← EReal.coe_sub, ← EReal.coe_sub, ← EReal.coe_sub]
  congr 1
  have h1 := log_sum_exp_shift Finset.univ Finset.univ_nonempty G μ
  have h2 := log_sum_exp_shift Finset.univ Finset.univ_nonempty G M
  linarith

end Cert.KMath

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibRealArrays.lean ====
/-
  GENERAL lemmas: "real entries in, real entries out" for host operations on arrays of extended reals (the exact
  operations), at any shapes and dimension records.

  * A gather only selects: every element of the result is an element of the operand.
  * An accumulating scatter: each element of the result is the operand's element plus a finite sum of update
    elements.
  * A host sum: each element of the result is the initial value plus a finite sum of operand elements.
  * A contraction (host product, or matrix product onto an accumulator): a finite sum of products (plus the
    accumulator's element).
  Finite sums and products of reals are reals.
-/
import proofs.«128076_j14156212207627_1_alg».proof.Proof.LibMoments
import Idealize.ShloMosaic.PureOps.Ideal
import Idealize.ShloMosaic.PureOps.Ideal.Laws

noncomputable section

namespace Cert.LibMoments

open Idealize.ShloMosaic
open scoped BigOperators

/-- Every element of a gather is an element of the operand. -/
theorem isR_gather {s si t : Shape} (d : GatherDims s si t) (x : s.Idx → EReal) (hx : ∀ i, IsR (x i)) {w : Nat}
    (idx : IVec si w) (j : t.Idx) : IsR (Host.gather d x idx j) :=
  hx _

/-- An accumulating scatter of reals into reals gives reals: the operand's element plus a finite sum of updates. -/
theorem isR_scatterAdd {s si su : Shape} {φ : FTy} (d : ScatterDims s si su) (x : FVec Ideal s φ) (hx : ∀ i, IsR (x i))
    {w : Nat} (idx : IVec si w) (u : FVec Ideal su φ) (hu : ∀ j, IsR (u j)) (i : s.Idx) :
    IsR (Host.scatterAdd (F := Ideal) d x idx u i) := by
  show IsR (Ideal.hostScatterAdd d x idx u i)
  unfold Ideal.hostScatterAdd
  exact (hx i).add (IsR.finset_sum _ _ fun j _ => hu j)

/-- The same at any schedule key. -/
theorem isR_scatterAddAt (sched : HostSchedule) {s si su : Shape} {φ : FTy} (d : ScatterDims s si su) (x : FVec Ideal s φ)
    (hx : ∀ i, IsR (x i)) {w : Nat} (idx : IVec si w) (u : FVec Ideal su φ) (hu : ∀ j, IsR (u j)) (i : s.Idx) :
    IsR (Host.scatterAddAt (F := Ideal) sched d x idx u i) := by
  show IsR (Ideal.hostScatterAdd d x idx u i)
  unfold Ideal.hostScatterAdd
  exact (hx i).add (IsR.finset_sum _ _ fun j _ => hu j)

/-- A host sum of reals from a real initial value gives reals. -/
theorem isR_reduceAdd {s t u : Shape} {φ : FTy} {axes : List (Fin s.rank)} (x : FVec Ideal s φ) (hx : ∀ i, IsR (x i))
    (init : u.Idx → Ideal φ) (hinit : ∀ k, IsR (init k)) (h : s.ReducesTo axes t) (hu : 0 < u.numel) (j : t.Idx) :
    IsR (Host.reduceAdd (F := Ideal) x init h hu j) := by
  show IsR (Ideal.hostReduceAdd h x (init (Shape.Idx.first hu)) j)
  unfold Ideal.hostReduceAdd
  exact (hinit _).add (IsR.finset_sum _ _ fun i _ => hx i)

/-- A host product of arrays of reals is an array of reals. -/
theorem isR_dotGeneral {sl sr so : Shape} {φ₁ φ₂ : FTy} (d : DotDims sl sr so) (prec : Option ContractPrecision)
    (sched : HostSchedule) (lhs : FVec Ideal sl φ₁) (hl : ∀ i, IsR (lhs i)) (rhs : FVec Ideal sr φ₂) (hr : ∀ i, IsR (rhs i))
    (j : so.Idx) : IsR (FloatOps.dotGeneral d prec sched lhs rhs j) := by
  rw [Ideal.dotGeneral_apply]
  exact IsR.sum _ fun k => (hl _).mul (hr _)

/-- A matrix product of arrays of reals onto an accumulator of reals is an array of reals. -/
theorem isR_matmul {sl sr so : Shape} {φ₁ φ₂ : FTy} (d : DotDims sl sr so) (prec : Option ContractPrecision)
    (lhs : FVec Ideal sl φ₁) (hl : ∀ i, IsR (lhs i)) (rhs : FVec Ideal sr φ₂) (hr : ∀ i, IsR (rhs i))
    (acc : FVec Ideal so .f32) (hacc : ∀ j, IsR (acc j)) (j : so.Idx) : IsR (FloatOps.matmul d prec lhs rhs acc j) := by
  rw [Ideal.matmul_apply]
  exact (hacc j).add (IsR.sum _ fun k => (hl _).mul (hr _))

end Cert.LibMoments

end
-- ==== Proof.KMathBlock.lean ====
/-
  One block of 2048 rows through both kernels, on extended reals with real inputs: the output tile is the
  specification's log-softmax.

  The first kernel visits the 50 tiles of 640 score columns in order, keeping per row a running maximum and a running
  sum of exponentials; acc j is that pair of columns after tile j and lse the column written after the last tile,
  maximum + log sum. The second kernel writes score - lse. Read at a row p, acc is the scalar recurrence on the row's
  scores; the tile's scores are the specification's scores at columns 640 j + c, because the weight and bias tiles are
  those columns of the output layer; the scores are real numbers because every input is; and the recurrence on real
  scores ends in the log-softmax.
-/
import proofs.«128076_j14156212207627_1_alg».proof.Proof.KMathPayloads
import proofs.«128076_j14156212207627_1_alg».proof.Proof.LibOnlineLse
import proofs.«128076_j14156212207627_1_alg».proof.Proof.LibRealArrays
import proofs.«128076_j14156212207627_1_alg».proof.Proof.LibOneBit
import proofs.«128076_j14156212207627_1_alg».proof.Proof.Spec

noncomputable section

namespace Cert.KMath

open Idealize.ShloMosaic Idealize.ShloMosaic.ValueIdx Cert.KernelIdeal Cert.KernelIdeal.Gen Cert.LibDenseLayers Cert.Sage
  Cert.LibMoments Cert.SoftmaxLaws
open scoped BigOperators

/-! ## The running columns over the tiles -/

/-- The columns (running maximum, running sum) after tile j of the score columns. -/
def acc (H : Vec Ideal S2048x512 .f32) (Wo : ℕ → Vec Ideal S512x640 .f32) (bo : ℕ → Vec Ideal S1x640 .f32) :
    ℕ → FVec Ideal S2048x1 .f32 × FVec Ideal S2048x1 .f32
  | 0 => (k0_pay8 H (Wo 0) (bo 0) (k0_pay3 (F := Ideal)),
      k0_pay7 H (Wo 0) (bo 0) (k0_pay3 (F := Ideal)) (k0_pay3 (F := Ideal)) (k0_pay4 (F := Ideal)))
  | j + 1 => (k0_pay8 H (Wo (j + 1)) (bo (j + 1)) (acc H Wo bo j).1,
      k0_pay7 H (Wo (j + 1)) (bo (j + 1)) (acc H Wo bo j).1 (acc H Wo bo j).1 (acc H Wo bo j).2)

/-- The column written after the last tile: running maximum plus the logarithm of the running sum. -/
def lse (H : Vec Ideal S2048x512 .f32) (Wo : ℕ → Vec Ideal S512x640 .f32) (bo : ℕ → Vec Ideal S1x640 .f32) : FVec Ideal S2048x1 .f32 :=
  k0_pay1 (F := Ideal) (acc H Wo bo 49).1 (acc H Wo bo 49).2

/-- The pair after the first tile. -/
theorem acc_zero (H : Vec Ideal S2048x512 .f32) (Wo : ℕ → Vec Ideal S512x640 .f32) (bo : ℕ → Vec Ideal S1x640 .f32) :
    acc H Wo bo 0 = (k0_pay8 H (Wo 0) (bo 0) (k0_pay3 (F := Ideal)),
      k0_pay7 H (Wo 0) (bo 0) (k0_pay3 (F := Ideal)) (k0_pay3 (F := Ideal)) (k0_pay4 (F := Ideal))) := rfl

/-- The pair after tile j + 1, from the pair after tile j. -/
theorem acc_succ (H : Vec Ideal S2048x512 .f32) (Wo : ℕ → Vec Ideal S512x640 .f32) (bo : ℕ → Vec Ideal S1x640 .f32) (j : ℕ) :
    acc H Wo bo (j + 1) = (k0_pay8 H (Wo (j + 1)) (bo (j + 1)) (acc H Wo bo j).1,
      k0_pay7 H (Wo (j + 1)) (bo (j + 1)) (acc H Wo bo j).1 (acc H Wo bo j).1 (acc H Wo bo j).2) := rfl

/-- Row p's scores, tile by tile. -/
abbrev tiles (H : Vec Ideal S2048x512 .f32) (Wo : ℕ → Vec Ideal S512x640 .f32) (bo : ℕ → Vec Ideal S1x640 .f32) (p : Fin 2048) : ℕ → Fin 640 → EReal :=
  fun j c => k0_pay5 H (Wo j) (bo j) (ix2 p c)

/-- The starting column of the running maximum is minus infinity. -/
theorem pay3_apply (p : Fin 2048) : k0_pay3 (F := Ideal) (ix2 p (0 : Fin 1)) = Ideal.ofBits .f32 0xFF800000#32 := by
  unfold k0_pay3
  exact congrFun (shapeCast_self _ _) _

/-- The starting column of the running sum is zero. -/
theorem pay4_apply (p : Fin 2048) : k0_pay4 (F := Ideal) (ix2 p (0 : Fin 1)) = Ideal.ofBits .f32 0x00000000#32 := by
  unfold k0_pay4
  exact congrFun (shapeCast_self _ _) _

/-- Read at row p, the running columns are the scalar recurrence on the row's tiles. -/
theorem acc_row (H : Vec Ideal S2048x512 .f32) (Wo : ℕ → Vec Ideal S512x640 .f32) (bo : ℕ → Vec Ideal S1x640 .f32) (p : Fin 2048) : ∀ j : ℕ,
    (acc H Wo bo j).1 (ix2 p (0 : Fin 1)) = (racc (tiles H Wo bo p) j).1
      ∧ (acc H Wo bo j).2 (ix2 p (0 : Fin 1)) = (racc (tiles H Wo bo p) j).2 := by
  intro j
  induction j with
  | zero =>
    refine ⟨?_, ?_⟩
    · show k0_pay8 H (Wo 0) (bo 0) (k0_pay3 (F := Ideal)) (ix2 p (0 : Fin 1)) = stepM _ (tiles H Wo bo p 0)
      rw [pay8_apply, pay3_apply]
    · show k0_pay7 H (Wo 0) (bo 0) (k0_pay3 (F := Ideal)) (k0_pay3 (F := Ideal)) (k0_pay4 (F := Ideal)) (ix2 p (0 : Fin 1))
        = stepL _ _ _ (tiles H Wo bo p 0)
      rw [pay7_apply, pay3_apply, pay4_apply]
  | succ j ih =>
    obtain ⟨ih1, ih2⟩ := ih
    refine ⟨?_, ?_⟩
    · show k0_pay8 H (Wo (j + 1)) (bo (j + 1)) (acc H Wo bo j).1 (ix2 p (0 : Fin 1))
        = stepM (racc (tiles H Wo bo p) j).1 (tiles H Wo bo p (j + 1))
      rw [pay8_apply, ih1]
    · show k0_pay7 H (Wo (j + 1)) (bo (j + 1)) (acc H Wo bo j).1 (acc H Wo bo j).1 (acc H Wo bo j).2 (ix2 p (0 : Fin 1))
        = stepL (racc (tiles H Wo bo p) j).1 (racc (tiles H Wo bo p) j).1 (racc (tiles H Wo bo p) j).2 (tiles H Wo bo p (j + 1))
      rw [pay7_apply, ih1, ih2]

/-! ## A tile's scores are the specification's -/

/-- Tile j of the scores of the hidden block, at (p, c), is the specification's score at column 640 j + c. -/
theorem tile_scores (x : Vec Ideal S2048x128 .f32) (W1 : Vec Ideal S128x512 .f32) (b1 : Vec Ideal S512 .f32)
    (W2 : Vec Ideal S512x512 .f32) (b2 : Vec Ideal S512 .f32)
    (Wo : ℕ → Vec Ideal S512x640 .f32) (bo : ℕ → Vec Ideal S1x640 .f32) (Wout : Cert.Sage.Mat 512 32000) (bout : Cert.Sage.Vc 32000)
    (hWo : ∀ j (hj : j < 50) (k : Fin 512) (c : Fin 640), Wo j (ix2 k c) = Wout (ix2 k ⟨640 * j + c.val, by omega⟩))
    (hbo : ∀ j (hj : j < 50) (c : Fin 640), bo j (ix2 0 c) = bout (ix1 ⟨640 * j + c.val, by omega⟩))
    (j : ℕ) (hj : j < 50) (p : Fin 2048) (c : Fin 640) :
    k0_pay5 (k0_pay2 x W1 b1 W2 b2) (Wo j) (bo j) (ix2 p c)
      = Cert.Spec.scores x W1 b1 W2 b2 Wout bout (ix2 p ⟨640 * j + c.val, by omega⟩) := by
  rw [pay5_apply, pay2_eq]
  show affineAt (Cert.Spec.hidden x W1 b1 W2 b2) (Wo j) (Cert.LibRowBias.rowOf (bo j)) p c
    = affineAt (Cert.Spec.hidden x W1 b1 W2 b2) Wout bout p ⟨640 * j + c.val, by omega⟩
  unfold affineAt
  rw [Cert.LibRowBias.rowOf_ix1, hbo j hj c]
  exact congrArg (· + bout (ix1 ⟨640 * j + c.val, by omega⟩)) (Finset.sum_congr rfl fun k _ => by rw [hWo j hj k c])

/-! ## Real inputs give real scores -/

theorem isR_affineAt {R K N : ℕ} (h : Mat R K) (W : Mat K N) (b : Vc N) (hh : ∀ i, IsR (h i)) (hW : ∀ i, IsR (W i))
    (hb : ∀ i, IsR (b i)) (p : Fin R) (q : Fin N) : IsR (affineAt h W b p q) :=
  (IsR.sum _ fun k => (hh _).mul (hW _)).add (hb _)

theorem isR_stage1 {R K N : ℕ} (h : Mat R K) (W : Mat K N) (b : Vc N) (hh : ∀ i, IsR (h i)) (hW : ∀ i, IsR (W i))
    (hb : ∀ i, IsR (b i)) (i : (⟨2, ![R, N]⟩ : Shape).Idx) : IsR (stage1 h W b i) := by
  show IsR (max (affineAt h W b (i 0) (i 1)) (Ideal.ofBits .f32 0x00000000#32))
  exact (isR_affineAt h W b hh hW hb (i 0) (i 1)).max (by rw [Cert.LibOneBit.zero_word]; exact IsR_zero)

theorem isR_scores (x : Vec Ideal S2048x128 .f32) (W1 : Vec Ideal S128x512 .f32) (b1 : Vec Ideal S512 .f32)
    (W2 : Vec Ideal S512x512 .f32) (b2 : Vec Ideal S512 .f32)
    (Wout : Cert.Sage.Mat 512 32000) (bout : Cert.Sage.Vc 32000)
    (hx : ∀ i, IsR (x i)) (hW1 : ∀ i, IsR (W1 i)) (hb1 : ∀ i, IsR (b1 i)) (hW2 : ∀ i, IsR (W2 i)) (hb2 : ∀ i, IsR (b2 i))
    (hWout : ∀ i, IsR (Wout i)) (hbout : ∀ i, IsR (bout i)) (p : Fin 2048) (q : Fin 32000) :
    IsR (Cert.Spec.scores x W1 b1 W2 b2 Wout bout (ix2 p q)) :=
  isR_affineAt (Cert.Spec.hidden x W1 b1 W2 b2) Wout bout
    (fun i => isR_stage1 _ W2 b2 (fun i' => isR_stage1 x W1 b1 hx hW1 hb1 i') hW2 hb2 i) hWout hbout p q

/-! ## The output tile -/

/-- The second kernel's output tile j at (p, c) is the specification's result at (p, 640 j + c). -/
theorem out_block (x : Vec Ideal S2048x128 .f32) (W1 : Vec Ideal S128x512 .f32) (b1 : Vec Ideal S512 .f32)
    (W2 : Vec Ideal S512x512 .f32) (b2 : Vec Ideal S512 .f32)
    (Wo : ℕ → Vec Ideal S512x640 .f32) (bo : ℕ → Vec Ideal S1x640 .f32) (Wout : Cert.Sage.Mat 512 32000) (bout : Cert.Sage.Vc 32000)
    (hx : ∀ i, IsR (x i)) (hW1 : ∀ i, IsR (W1 i)) (hb1 : ∀ i, IsR (b1 i)) (hW2 : ∀ i, IsR (W2 i)) (hb2 : ∀ i, IsR (b2 i))
    (hWout : ∀ i, IsR (Wout i)) (hbout : ∀ i, IsR (bout i))
    (hWo : ∀ j (hj : j < 50) (k : Fin 512) (c : Fin 640), Wo j (ix2 k c) = Wout (ix2 k ⟨640 * j + c.val, by omega⟩))
    (hbo : ∀ j (hj : j < 50) (c : Fin 640), bo j (ix2 0 c) = bout (ix1 ⟨640 * j + c.val, by omega⟩))
    (j : ℕ) (hj : j < 50) (p : Fin 2048) (c : Fin 640) :
    k1_pay2 (k1_pay1 x W1 b1 W2 b2) (Wo j) (bo j) (lse (k0_pay2 x W1 b1 W2 b2) Wo bo) (ix2 p c)
      = Cert.Spec.result x W1 b1 W2 b2 Wout bout (ix2 p ⟨640 * j + c.val, by omega⟩) := by
  have hR : ∀ q : Fin 32000, IsR (Cert.Spec.scores x W1 b1 W2 b2 Wout bout (ix2 p q)) := fun q =>
    isR_scores x W1 b1 W2 b2 Wout bout hx hW1 hb1 hW2 hb2 hWout hbout p q
  choose G hG using hR
  have ht : ∀ j', j' < 50 → ∀ c' : Fin 640,
      tiles (k0_pay2 x W1 b1 W2 b2) Wo bo p j' c' = ((ext G (640 * j' + c'.val) : ℝ) : EReal) := fun j' hj' c' => by
    show k0_pay5 (k0_pay2 x W1 b1 W2 b2) (Wo j') (bo j') (ix2 p c') = _
    rw [tile_scores x W1 b1 W2 b2 Wo bo Wout bout hWo hbo j' hj' p c', hG, ext_lt G (640 * j' + c'.val) (by omega)]
  obtain ⟨μ, hm, hl⟩ := racc_real (w := 640) (by norm_num) (ext G) (tiles (k0_pay2 x W1 b1 W2 b2) Wo bo p) 50 ht 49 (by norm_num)
  obtain ⟨a1, a2⟩ := acc_row (k0_pay2 x W1 b1 W2 b2) Wo bo p 49
  have hl2 : (racc (tiles (k0_pay2 x W1 b1 W2 b2) Wo bo p) 49).2 = ((∑ q' : Fin 32000, Real.exp (G q' - μ) : ℝ) : EReal) := by
    rw [hl]
    exact congrArg _ (sum_range_ext G (fun y => Real.exp (y - μ)))
  rw [pay2'_apply, pay1'_eq, tile_scores x W1 b1 W2 b2 Wo bo Wout bout hWo hbo j hj p c, hG]
  show _ - k0_pay1 (F := Ideal) (acc (k0_pay2 x W1 b1 W2 b2) Wo bo 49).1 (acc (k0_pay2 x W1 b1 W2 b2) Wo bo 49).2 (ix2 p (0 : Fin 1)) = _
  rw [pay1_apply, a1, a2, lse_out (N := 32000) (by norm_num) G μ _ _ hm hl2 ⟨640 * j + c.val, by omega⟩]
  show lsmAt (fun q' : Fin 32000 => ((G q' : ℝ) : EReal)) _
    = lsmAt (fun q : Fin 32000 => Cert.Spec.scores x W1 b1 W2 b2 Wout bout (ix2 p q)) _
  rw [show (fun q : Fin 32000 => Cert.Spec.scores x W1 b1 W2 b2 Wout bout (ix2 p q))
      = fun q' : Fin 32000 => ((G q' : ℝ) : EReal) from funext hG]

end Cert.KMath

end
-- ==== Proof.KernelIdealValue0.lean ====
/-
  Kernel 1 on extended reals, point by point: after column tile j of row tile i the hidden tile's scratch holds the
  hidden tile of row tile i, and the running maximum and sum hold the online recurrence's values after j + 1 tiles;
  after the last column tile the output block holds the row tile's log-sum-exp values.
-/
import proofs.«128076_j14156212207627_1_alg».proof.Proof.KernelIdealSteps
import proofs.«128076_j14156212207627_1_alg».proof.Proof.KMathBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KMath

section Value0
variable (V : (c : Dev nD) → (b : Ref sig .tc) → Buf (Elt Ideal) ((c : Thread nD τ).loc b)) (c : Dev nD)

/-- THE INVARIANT over the grid points, given the blocks as functions of the row tile (the window matrix's tile), of
    nothing (the four weight arrays) and of the column tile (the output layer's tiles): the scratch buffers hold the
    hidden tile and the online recurrence after the point's column tile. -/
theorem scratch_at (X : ℕ → Vec Ideal S2048x128 .f32) (W1 : Vec Ideal S128x512 .f32) (b1 : Vec Ideal S512 .f32)
    (W2 : Vec Ideal S512x512 .f32) (b2 : Vec Ideal S512 .f32) (Wo : ℕ → Vec Ideal S512x640 .f32) (bo : ℕ → Vec Ideal S1x640 .f32)
    (hb0 : ∀ t : Fin cfg0.N, blkA0 V c t = X (t.val / 50))
    (hb1 : ∀ t : Fin cfg0.N, blkA1 V c t = W1)
    (hb2 : ∀ t : Fin cfg0.N, blkA2 V c t = b1)
    (hb3 : ∀ t : Fin cfg0.N, blkA3 V c t = W2)
    (hb4 : ∀ t : Fin cfg0.N, blkA4 V c t = b2)
    (hb5 : ∀ t : Fin cfg0.N, blkA5 V c t = Wo (t.val % 50))
    (hb6 : ∀ t : Fin cfg0.N, blkA6 V c t = bo (t.val % 50)) :
    ∀ (n : ℕ) (hn : n < cfg0.N),
      (outsAt0 V c n hn).2.1 = k0_pay2 (X (n / 50)) W1 b1 W2 b2
      ∧ (outsAt0 V c n hn).2.2 = acc (k0_pay2 (X (n / 50)) W1 b1 W2 b2) Wo bo (n % 50) := by
  intro n
  induction n with
  | zero =>
    intro hn
    have e1 := stepA_eq V c ⟨0, hn⟩ (Nat.zero_mod _)
    rw [hb0, hb1, hb2, hb3, hb4, hb5, hb6] at e1
    have e' : outsAt0 V c 0 hn = _ := e1
    rw [e']
    exact ⟨rfl, rfl⟩
  | succ n ih =>
    intro hn
    have hN : n + 1 < 200 := lt_of_lt_of_eq hn (show cfg0.N = 200 from N_0)
    have hv : (⟨n + 1, hn⟩ : Fin cfg0.N).val = n + 1 := rfl
    obtain ⟨ihH, ihA⟩ := ih (Nat.lt_of_succ_lt hn)
    by_cases h0 : (n + 1) % 50 = 0
    · have e1 := stepA_eq V c ⟨n + 1, hn⟩ h0
      rw [hb0, hb1, hb2, hb3, hb4, hb5, hb6, hv] at e1
      have e2 : outsAt0 V c (n + 1) hn = stepA V c ⟨n + 1, hn⟩ h0 := outsAt0_A V c ⟨n + 1, hn⟩ h0
      rw [e2, e1, h0]
      exact ⟨rfl, rfl⟩
    · have hdiv : (n + 1) / 50 = n / 50 := by omega
      have hmod : (n + 1) % 50 = n % 50 + 1 := by omega
      have ih1 : (outsAt0 V c n (Nat.lt_of_succ_lt hn)).2.2.1 = (acc (k0_pay2 (X (n / 50)) W1 b1 W2 b2) Wo bo (n % 50)).1 := congrArg Prod.fst ihA
      have ih2 : (outsAt0 V c n (Nat.lt_of_succ_lt hn)).2.2.2 = (acc (k0_pay2 (X (n / 50)) W1 b1 W2 b2) Wo bo (n % 50)).2 := congrArg Prod.snd ihA
      by_cases h1 : (n + 1) % 50 = 49
      · have e2 : outsAt0 V c (n + 1) hn = stepC V c ⟨n + 1, hn⟩ h0 h1 (outsAt0 V c n (Nat.lt_of_succ_lt hn)) := outsAt0_C V c ⟨n + 1, hn⟩ h0 h1
        have e1 := stepC_eq V c ⟨n + 1, hn⟩ h0 h1 (outsAt0 V c n (Nat.lt_of_succ_lt hn))
        rw [hb5, hb6, ihH, ih1, ih2, hv] at e1
        rw [e2, e1, hdiv, hmod]
        exact ⟨rfl, rfl⟩
      · have e2 : outsAt0 V c (n + 1) hn = stepB V c ⟨n + 1, hn⟩ h0 h1 (outsAt0 V c n (Nat.lt_of_succ_lt hn)) := outsAt0_B V c ⟨n + 1, hn⟩ h0 h1
        have e1 := stepB_eq V c ⟨n + 1, hn⟩ h0 h1 (outsAt0 V c n (Nat.lt_of_succ_lt hn))
        rw [hb5, hb6, ihH, ih1, ih2, hv] at e1
        rw [e2, e1, hdiv, hmod]
        exact ⟨rfl, rfl⟩

/-- After the last column tile of row tile i the output block holds the tile of log-sum-exp values. -/
theorem lse_at (X : ℕ → Vec Ideal S2048x128 .f32) (W1 : Vec Ideal S128x512 .f32) (b1 : Vec Ideal S512 .f32)
    (W2 : Vec Ideal S512x512 .f32) (b2 : Vec Ideal S512 .f32) (Wo : ℕ → Vec Ideal S512x640 .f32) (bo : ℕ → Vec Ideal S1x640 .f32)
    (hb0 : ∀ t : Fin cfg0.N, blkA0 V c t = X (t.val / 50))
    (hb1 : ∀ t : Fin cfg0.N, blkA1 V c t = W1)
    (hb2 : ∀ t : Fin cfg0.N, blkA2 V c t = b1)
    (hb3 : ∀ t : Fin cfg0.N, blkA3 V c t = W2)
    (hb4 : ∀ t : Fin cfg0.N, blkA4 V c t = b2)
    (hb5 : ∀ t : Fin cfg0.N, blkA5 V c t = Wo (t.val % 50))
    (hb6 : ∀ t : Fin cfg0.N, blkA6 V c t = bo (t.val % 50))
    (i : ℕ) (hi : i < 4) (hn : 50 * i + 49 < cfg0.N) :
    (outsAt0 V c (50 * i + 49) hn).1 = lse (k0_pay2 (X i) W1 b1 W2 b2) Wo bo := by
  have hN : 50 * i + 49 < 200 := by omega
  have h0 : ¬(50 * i + 48 + 1) % 50 = 0 := by omega
  have h1 : (50 * i + 48 + 1) % 50 = 49 := by omega
  have hn' : 50 * i + 48 + 1 < cfg0.N := hn
  have hv : (⟨50 * i + 48 + 1, hn'⟩ : Fin cfg0.N).val = 50 * i + 48 + 1 := rfl
  obtain ⟨ihH, ihA⟩ := scratch_at V c X W1 b1 W2 b2 Wo bo hb0 hb1 hb2 hb3 hb4 hb5 hb6 (50 * i + 48) (Nat.lt_of_succ_lt hn')
  have ih1 : (outsAt0 V c (50 * i + 48) (Nat.lt_of_succ_lt hn')).2.2.1 = _ := congrArg Prod.fst ihA
  have ih2 : (outsAt0 V c (50 * i + 48) (Nat.lt_of_succ_lt hn')).2.2.2 = _ := congrArg Prod.snd ihA
  have e2 : outsAt0 V c (50 * i + 48 + 1) hn' = stepC V c ⟨50 * i + 48 + 1, hn'⟩ h0 h1 (outsAt0 V c (50 * i + 48) (Nat.lt_of_succ_lt hn')) := outsAt0_C V c ⟨50 * i + 48 + 1, hn'⟩ h0 h1
  have e1 := stepC_eq V c ⟨50 * i + 48 + 1, hn'⟩ h0 h1 (outsAt0 V c (50 * i + 48) (Nat.lt_of_succ_lt hn'))
  rw [hb5, hb6, ihH, ih1, ih2, hv] at e1
  have hd : (50 * i + 48) / 50 = i := by omega
  have hm : (50 * i + 48) % 50 = 48 := by omega
  show (outsAt0 V c (50 * i + 48 + 1) hn').1 = _
  rw [e2, e1, hd, hm, show (50 * i + 48 + 1) % 50 = 48 + 1 by omega]
  rfl

end Value0

end Cert.KernelIdeal.Hand

end
-- ==== Proof.KernelIdealValue1.lean ====
/-
  Kernel 2 on extended reals, point by point: after the point of row tile i and column tile j the scratch buffer holds
  the hidden tile of row tile i and the output block holds the tile of scores minus the row tile's log-sum-exp values.
-/
import proofs.«128076_j14156212207627_1_alg».proof.Proof.KernelIdealSteps
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Value1
variable (V : (c : Dev nD) → (b : Ref sig .tc) → Buf (Elt Ideal) ((c : Thread nD τ).loc b)) (c : Dev nD)

/-- THE INVARIANT over the grid points, given the blocks as functions of the row tile and of the column tile. -/
theorem out_at (X : ℕ → Vec Ideal S2048x128 .f32) (W1 : Vec Ideal S128x512 .f32) (b1 : Vec Ideal S512 .f32)
    (W2 : Vec Ideal S512x512 .f32) (b2 : Vec Ideal S512 .f32) (Wo : ℕ → Vec Ideal S512x640 .f32) (bo : ℕ → Vec Ideal S1x640 .f32) (L : ℕ → Vec Ideal S2048x1 .f32)
    (hb0 : ∀ t : Fin cfg1.N, blkB0 V c t = X (t.val / 50))
    (hb1 : ∀ t : Fin cfg1.N, blkB1 V c t = W1)
    (hb2 : ∀ t : Fin cfg1.N, blkB2 V c t = b1)
    (hb3 : ∀ t : Fin cfg1.N, blkB3 V c t = W2)
    (hb4 : ∀ t : Fin cfg1.N, blkB4 V c t = b2)
    (hb5 : ∀ t : Fin cfg1.N, blkB5 V c t = Wo (t.val % 50))
    (hb6 : ∀ t : Fin cfg1.N, blkB6 V c t = bo (t.val % 50))
    (hb7 : ∀ t : Fin cfg1.N, blkB7 V c t = L (t.val / 50)) :
    ∀ (n : ℕ) (hn : n < cfg1.N),
      (outsAt1 V c n hn).2 = k1_pay1 (X (n / 50)) W1 b1 W2 b2
      ∧ (outsAt1 V c n hn).1 = k1_pay2 (k1_pay1 (X (n / 50)) W1 b1 W2 b2) (Wo (n % 50)) (bo (n % 50)) (L (n / 50)) := by
  intro n
  induction n with
  | zero =>
    intro hn
    have e1 := stepA1_eq V c ⟨0, hn⟩ (Nat.zero_mod _)
    rw [hb0, hb1, hb2, hb3, hb4, hb5, hb6, hb7] at e1
    have e' : outsAt1 V c 0 hn = _ := e1
    rw [e']
    exact ⟨rfl, rfl⟩
  | succ n ih =>
    intro hn
    have hN : n + 1 < 200 := lt_of_lt_of_eq hn (show cfg1.N = 200 from N_1)
    have hv : (⟨n + 1, hn⟩ : Fin cfg1.N).val = n + 1 := rfl
    obtain ⟨ihH, -⟩ := ih (Nat.lt_of_succ_lt hn)
    by_cases h0 : (n + 1) % 50 = 0
    · have e1 := stepA1_eq V c ⟨n + 1, hn⟩ h0
      rw [hb0, hb1, hb2, hb3, hb4, hb5, hb6, hb7, hv] at e1
      have e2 : outsAt1 V c (n + 1) hn = stepA1 V c ⟨n + 1, hn⟩ h0 := outsAt1_A V c ⟨n + 1, hn⟩ h0
      rw [e2, e1]
      exact ⟨rfl, rfl⟩
    · have hdiv : (n + 1) / 50 = n / 50 := by omega
      have e2 : outsAt1 V c (n + 1) hn = stepB1 V c ⟨n + 1, hn⟩ h0 (outsAt1 V c n (Nat.lt_of_succ_lt hn)) := outsAt1_B V c ⟨n + 1, hn⟩ h0
      have e1 := stepB1_eq V c ⟨n + 1, hn⟩ h0 (outsAt1 V c n (Nat.lt_of_succ_lt hn))
      rw [hb5, hb6, hb7, ihH, hv] at e1
      rw [e2, e1, hdiv]
      exact ⟨rfl, rfl⟩

end Value1

end Cert.KernelIdeal.Hand

end
-- ==== Proof.KernelIdealBlocks0.lean ====
/-
  The first kernel call's output array, from its blocks. The grid is 4 row tiles by 50 column tiles, point 50 i + j; the
  output window is block (i, 0) of 2048 rows of the 8192 x 1 array and is written back only at the last column tile
  (j = 49) of each row tile. So after the call row r of the array is row r mod 2048 of what point 50 (r / 2048) + 49
  leaves in the output block: each written-back block is the block of one function of the row, and the four
  written-back blocks cover the array.
-/
import proofs.«128076_j14156212207627_1_alg».proof.Proof.KernelIdealR0Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Blocks0
variable (V : (c : Dev nD) → (b : Ref sig .tc) → Buf (Elt F) ((c : Thread nD τ).loc b))

/-- The output window of the first kernel call moves with the row tile and stays in column block 0. -/
theorem idx0_7 : ∀ t : Fin cfg0.N, win0_7.index t (0 : Fin 2) = t.val / 50 ∧ win0_7.index t (1 : Fin 2) = 0 :=
  (by decide +kernel : ∀ t : Fin grid0.N, _)

/-- The recursion's value depends on the position only. -/
theorem outsAt0_congr (c : Dev nD) (n n' : ℕ) (hn : n < cfg0.N) (hn' : n' < cfg0.N) (e : n = n') :
    outsAt0 V c n hn = outsAt0 V c n' hn' := by subst e; rfl

/-- The first kernel call's output array, row by row: row r is row r mod 2048 of what the last column tile of row tile
    r / 2048 leaves in the output block. -/
def G0 (c : Dev nD) : S8192x1.Idx → Elt F .f32 := fun i =>
  (outsAt0 V c (50 * ((i 0).val / 2048) + 49)
      (by have := N_0; have hi : (i 0).val < 8192 := (i 0).isLt; show _ < grid0.N; omega)).1
    (ix2 ⟨(i 0).val % 2048, Nat.mod_lt _ (by decide)⟩ 0)

/-- At the last column tile of a row tile, row (row tile) * 2048 + p of that array is row p of what the point leaves. -/
theorem G0_at (c : Dev nD) (t : Fin cfg0.N) (h49 : t.val % 50 = 49) (i : S8192x1.Idx) (j : S2048x1.Idx)
    (h0 : (i 0).val = t.val / 50 * 2048 + (j 0).val) : G0 V c i = (outsAt0 V c t.val t.isLt).1 j := by
  have hj0 : (j 0).val < 2048 := (j 0).isLt
  have hj1 : (j 1).val < 1 := (j 1).isLt
  have e : 50 * ((i 0).val / 2048) + 49 = t.val := by omega
  unfold G0
  rw [outsAt0_congr V c _ t.val _ t.isLt e]
  refine congrArg (outsAt0 V c t.val t.isLt).1 (funext fun a => Fin.ext ?_)
  match a with
  | ⟨0, _⟩ => show (i 0).val % 2048 = (j 0).val; omega
  | ⟨1, _⟩ => show 0 = (j 1).val; omega

/-- What a point that writes back writes is its block of that array. -/
theorem flushed0_eq (c : Dev nD) (t : Fin cfg0.N) (hf : (cfg0.win 7).flush t = true) :
    (dat0 V c).flushed 7 t = ((cfg0.win 7).blk t).view.read (Elt F) (G0 V c) := by
  have h49 : t.val % 50 = 49 := (flush0_7 t).mp hf
  obtain ⟨e0, e1⟩ := idx0_7 t
  show (cfg0.win 7).cut (grid0.coords t) ((dat0 V c).after 7 t) = _
  rw [after0_7]
  funext j
  show (outsAt0 V c t.val t.isLt).1 j = G0 V c (((cfg0.win 7).blk t).view.emb j)
  exact (G0_at V c t h49 _ j (by show win0_7.index t (0 : Fin 2) * 2048 + 1 * (j 0).val = _; rw [e0]; omega)).symm

/-- An index of the array is in point t's block iff each coordinate is in the block's range on its axis. -/
theorem mem_blk0_7 (t : Fin cfg0.N) (i : S8192x1.Idx) :
    i ∈ ((cfg0.win 7).blk t).view.set ↔ ∀ a : Fin 2, win0_7.index t a * S2048x1.size a ≤ (i a).val ∧ (i a).val < win0_7.index t a * S2048x1.size a + S2048x1.size a := by
  show i ∈ ((View.whole main_v29).slice (win0_7.rect t)).set ↔ _
  rw [View.set_slice_whole, Rect.mem_set_unit]
  exact Iff.rfl

/-- Every row of the array is in the block of the last column tile of its row tile. -/
theorem cover0_7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  have hN : cfg0.N = 200 := N_0
  refine ⟨⟨50 * ((i 0).val / 2048) + 49, by rw [hN]; omega⟩, (flush0_7 _).mpr (by show (50 * ((i 0).val / 2048) + 49) % 50 = 49; omega), ?_⟩
  rw [mem_blk0_7]
  obtain ⟨e0, e1⟩ := idx0_7 ⟨50 * ((i 0).val / 2048) + 49, by rw [hN]; omega⟩
  intro a
  match a with
  | ⟨0, _⟩ =>
    show win0_7.index _ (0 : Fin 2) * 2048 ≤ (i 0).val ∧ (i 0).val < win0_7.index _ (0 : Fin 2) * 2048 + 2048
    rw [e0]; show (50 * ((i 0).val / 2048) + 49) / 50 * 2048 ≤ (i 0).val ∧ (i 0).val < (50 * ((i 0).val / 2048) + 49) / 50 * 2048 + 2048; omega
  | ⟨1, _⟩ =>
    show win0_7.index _ (1 : Fin 2) * 1 ≤ (i 1).val ∧ (i 1).val < win0_7.index _ (1 : Fin 2) * 1 + 1
    rw [e1]; omega

/-- THE FIRST KERNEL CALL'S OUTPUT ARRAY after the call, as a function of the row. -/
theorem arr0_eq (c : Dev nD) : (dat0 V c).arrAt 7 cfg0.N = G0 V c :=
  (dat0 V c).arrAt_eq_of_cover 7 (G0 V c) (flushed0_eq V c) cover0_7

/-- Row r of the first kernel call's output array is row r mod 2048 of what the last column tile of row tile r / 2048
    leaves in the output block. -/
theorem arr0 (c : Dev nD) (r : Fin 8192) :
    ((dat0 V c).arrAt 7 cfg0.N : S8192x1.Idx → Elt F .f32) (ix2 r 0)
      = (outsAt0 V c (50 * (r.val / 2048) + 49) (by have := N_0; have := r.isLt; show _ < grid0.N; omega)).1
          (ix2 ⟨r.val % 2048, Nat.mod_lt _ (by decide)⟩ 0) := by
  rw [arr0_eq]; rfl

end Blocks0

end Cert.KernelIdeal.Hand

end
-- ==== Proof.KernelIdealBlocks1.lean ====
/-
  The second kernel call's output array, from its blocks. The grid is 4 row tiles by 50 column tiles, point 50 i + j; the
  output window is block (i, j) of 2048 x 640 of the 8192 x 32000 array and is written back at every point. So after
  the call entry (r, q) of the array is entry (r mod 2048, q mod 640) of what point 50 (r / 2048) + q / 640 leaves in
  the output block: each written-back block is the block of one function of the entry, and the 200 blocks cover the
  array.
-/
import proofs.«128076_j14156212207627_1_alg».proof.Proof.KernelIdealR1Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Blocks1
variable (V : (c : Dev nD) → (b : Ref sig .tc) → Buf (Elt F) ((c : Thread nD τ).loc b))

/-- The output window of the second kernel call moves with the row tile and the column tile. -/
theorem idx1_8 : ∀ t : Fin cfg1.N, win1_8.index t (0 : Fin 2) = t.val / 50 ∧ win1_8.index t (1 : Fin 2) = t.val % 50 :=
  (by decide +kernel : ∀ t : Fin grid1.N, _)

/-- The recursion's value depends on the position only. -/
theorem outsAt1_congr (c : Dev nD) (n n' : ℕ) (hn : n < cfg1.N) (hn' : n' < cfg1.N) (e : n = n') :
    outsAt1 V c n hn = outsAt1 V c n' hn' := by subst e; rfl

/-- The second kernel call's output array, entry by entry: entry (r, q) is entry (r mod 2048, q mod 640) of what the
    point of row tile r / 2048 and column tile q / 640 leaves in the output block. -/
def G1 (c : Dev nD) : S8192x32000.Idx → Elt F .f32 := fun i =>
  (outsAt1 V c (50 * ((i 0).val / 2048) + (i 1).val / 640)
      (by have := N_1; have h0 : (i 0).val < 8192 := (i 0).isLt; have h1 : (i 1).val < 32000 := (i 1).isLt
          show _ < grid1.N; omega)).1
    (ix2 ⟨(i 0).val % 2048, Nat.mod_lt _ (by decide)⟩ ⟨(i 1).val % 640, Nat.mod_lt _ (by decide)⟩)

/-- At point t, entry ((row tile) * 2048 + p, (column tile) * 640 + q) of that array is entry (p, q) of what the point leaves. -/
theorem G1_at (c : Dev nD) (t : Fin cfg1.N) (i : S8192x32000.Idx) (j : S2048x640.Idx)
    (h0 : (i 0).val = t.val / 50 * 2048 + (j 0).val) (h1 : (i 1).val = t.val % 50 * 640 + (j 1).val) :
    G1 V c i = (outsAt1 V c t.val t.isLt).1 j := by
  have hj0 : (j 0).val < 2048 := (j 0).isLt
  have hj1 : (j 1).val < 640 := (j 1).isLt
  have e : 50 * ((i 0).val / 2048) + (i 1).val / 640 = t.val := by omega
  unfold G1
  rw [outsAt1_congr V c _ t.val _ t.isLt e]
  refine congrArg (outsAt1 V c t.val t.isLt).1 (funext fun a => Fin.ext ?_)
  match a with
  | ⟨0, _⟩ => show (i 0).val % 2048 = (j 0).val; omega
  | ⟨1, _⟩ => show (i 1).val % 640 = (j 1).val; omega

/-- What a point writes back is its block of that array. -/
theorem flushed1_eq (c : Dev nD) (t : Fin cfg1.N) (hf : (cfg1.win 8).flush t = true) :
    (dat1 V c).flushed 8 t = ((cfg1.win 8).blk t).view.read (Elt F) (G1 V c) := by
  obtain ⟨e0, e1⟩ := idx1_8 t
  show (cfg1.win 8).cut (grid1.coords t) ((dat1 V c).after 8 t) = _
  rw [after1_8]
  funext j
  show (outsAt1 V c t.val t.isLt).1 j = G1 V c (((cfg1.win 8).blk t).view.emb j)
  exact (G1_at V c t _ j
    (by show win1_8.index t (0 : Fin 2) * 2048 + 1 * (j 0).val = _; rw [e0]; omega)
    (by show win1_8.index t (1 : Fin 2) * 640 + 1 * (j 1).val = _; rw [e1]; omega)).symm

/-- An index of the array is in point t's block iff each coordinate is in the block's range on its axis. -/
theorem mem_blk1_8 (t : Fin cfg1.N) (i : S8192x32000.Idx) :
    i ∈ ((cfg1.win 8).blk t).view.set ↔ ∀ a : Fin 2, win1_8.index t a * S2048x640.size a ≤ (i a).val ∧ (i a).val < win1_8.index t a * S2048x640.size a + S2048x640.size a := by
  show i ∈ ((View.whole main_v30).slice (win1_8.rect t)).set ↔ _
  rw [View.set_slice_whole, Rect.mem_set_unit]
  exact Iff.rfl

/-- Every entry of the array is in the block of the point of its row tile and column tile. -/
theorem cover1_8 (i : S8192x32000.Idx) : ∃ t : Fin cfg1.N, (cfg1.win 8).flush t = true ∧ i ∈ ((cfg1.win 8).blk t).view.set := by
  have hi0 : (i 0).val < 8192 := (i 0).isLt
  have hi1 : (i 1).val < 32000 := (i 1).isLt
  have hN : cfg1.N = 200 := N_1
  refine ⟨⟨50 * ((i 0).val / 2048) + (i 1).val / 640, by rw [hN]; omega⟩, flush1_8 _, ?_⟩
  rw [mem_blk1_8]
  obtain ⟨e0, e1⟩ := idx1_8 ⟨50 * ((i 0).val / 2048) + (i 1).val / 640, by rw [hN]; omega⟩
  intro a
  match a with
  | ⟨0, _⟩ =>
    show win1_8.index _ (0 : Fin 2) * 2048 ≤ (i 0).val ∧ (i 0).val < win1_8.index _ (0 : Fin 2) * 2048 + 2048
    rw [e0]; show (50 * ((i 0).val / 2048) + (i 1).val / 640) / 50 * 2048 ≤ (i 0).val ∧ (i 0).val < (50 * ((i 0).val / 2048) + (i 1).val / 640) / 50 * 2048 + 2048; omega
  | ⟨1, _⟩ =>
    show win1_8.index _ (1 : Fin 2) * 640 ≤ (i 1).val ∧ (i 1).val < win1_8.index _ (1 : Fin 2) * 640 + 640
    rw [e1]; show (50 * ((i 0).val / 2048) + (i 1).val / 640) % 50 * 640 ≤ (i 1).val ∧ (i 1).val < (50 * ((i 0).val / 2048) + (i 1).val / 640) % 50 * 640 + 640; omega

/-- THE SECOND KERNEL CALL'S OUTPUT ARRAY after the call, as a function of the entry. -/
theorem arr1_eq (c : Dev nD) : (dat1 V c).arrAt 8 cfg1.N = G1 V c :=
  (dat1 V c).arrAt_eq_of_cover 8 (G1 V c) (flushed1_eq V c) cover1_8

/-- Entry (r, q) of the second kernel call's output array is entry (r mod 2048, q mod 640) of what the point of row tile
    r / 2048 and column tile q / 640 leaves in the output block. -/
theorem arr1 (c : Dev nD) (r : Fin 8192) (q : Fin 32000) :
    ((dat1 V c).arrAt 8 cfg1.N : S8192x32000.Idx → Elt F .f32) (ix2 r q)
      = (outsAt1 V c (50 * (r.val / 2048) + q.val / 640)
            (by have := N_1; have := r.isLt; have := q.isLt; show _ < grid1.N; omega)).1
          (ix2 ⟨r.val % 2048, Nat.mod_lt _ (by decide)⟩ ⟨q.val % 640, Nat.mod_lt _ (by decide)⟩) := by
  rw [arr1_eq]; rfl

end Blocks1

end Cert.KernelIdeal.Hand

end
-- ==== Proof.KernelIdealReads0.lean ====
/-
  The first kernel call's input blocks, read off their arrays, and its input arrays after the call. At point
  t = 50 i + j of the 4 x 50 grid: the window matrix's block is rows 2048 i … of the 8192 x 128 matrix; the two hidden
  layers' weights and biases are whole arrays at every point; the output layer's weights' block is columns 640 j … of
  the 512 x 32000 matrix and the one-row output bias' block columns 640 j … of the row. A block's coordinate on an axis is (block index) x (block size) + the
  coordinate inside the block, and the block indices are decided over the grid. No input array is written back.
-/
import proofs.«128076_j14156212207627_1_alg».proof.Proof.KernelIdealR0Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Reads0
variable (V : (c : Dev nD) → (b : Ref sig .tc) → Buf (Elt F) ((c : Thread nD τ).loc b))

/-- The printed index maps of the input windows, decided over the grid: the window matrix moves with the row tile, the
    output layer's weights and bias with the column tile, the other layers' arrays are whole. -/
theorem idx0_in : ∀ t : Fin cfg0.N,
    win0_0.index t (0 : Fin 2) = t.val / 50 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = t.val % 50
    ∧ win0_6.index t (0 : Fin 2) = 0 ∧ win0_6.index t (1 : Fin 2) = t.val % 50 :=
  (by decide +kernel : ∀ t : Fin grid0.N, _)

/-- The window matrix's block at point t is rows 2048 (t / 50) … of the window matrix. -/
theorem iblk0_win (c : Dev nD) (t : Fin cfg0.N) (p : Fin 2048) (k : Fin 128) :
    (iblk0 V c 0 t : S2048x128.Idx → Elt F .f32) (ix2 p k)
      = (V c main_v27 : S8192x128.Idx → Elt F .f32)
          (ix2 ⟨2048 * (t.val / 50) + p.val, by have := N_0; have := t.isLt; have := p.isLt; have hN : cfg0.N = grid0.N := rfl; omega⟩ k) := by
  have e := idx0_in t
  unfold iblk0
  rw [View.read_apply]
  show (V c main_v27 : S8192x128.Idx → Elt F .f32) _ = _
  refine congrArg (V c main_v27 : S8192x128.Idx → Elt F .f32) (funext fun a => Fin.ext ?_)
  match a with
  | ⟨0, _⟩ => show win0_0.index t (0 : Fin 2) * 2048 + 1 * p.val = 2048 * (t.val / 50) + p.val; rw [e.1]; omega
  | ⟨1, _⟩ => show win0_0.index t (1 : Fin 2) * 128 + 1 * k.val = k.val; rw [e.2.1]; omega

/-- The first layer's weights' block at every point is the whole array. -/
theorem iblk0_W1 (c : Dev nD) (t : Fin cfg0.N) : (iblk0 V c 1 t : S128x512.Idx → Elt F .f32) = V c main_arg4 := by
  have e := idx0_in t
  funext y
  unfold iblk0
  rw [View.read_apply]
  show (V c main_arg4 : S128x512.Idx → Elt F .f32) _ = (V c main_arg4 : S128x512.Idx → Elt F .f32) y
  refine congrArg (V c main_arg4 : S128x512.Idx → Elt F .f32) (funext fun a => Fin.ext ?_)
  match a with
  | ⟨0, _⟩ => show win0_1.index t (0 : Fin 2) * 128 + 1 * (y 0).val = (y 0).val; rw [e.2.2.1]; omega
  | ⟨1, _⟩ => show win0_1.index t (1 : Fin 2) * 512 + 1 * (y 1).val = (y 1).val; rw [e.2.2.2.1]; omega

/-- The second layer's weights' block at every point is the whole array. -/
theorem iblk0_W2 (c : Dev nD) (t : Fin cfg0.N) : (iblk0 V c 3 t : S512x512.Idx → Elt F .f32) = V c main_arg6 := by
  have e := idx0_in t
  funext y
  unfold iblk0
  rw [View.read_apply]
  show (V c main_arg6 : S512x512.Idx → Elt F .f32) _ = (V c main_arg6 : S512x512.Idx → Elt F .f32) y
  refine congrArg (V c main_arg6 : S512x512.Idx → Elt F .f32) (funext fun a => Fin.ext ?_)
  match a with
  | ⟨0, _⟩ => show win0_3.index t (0 : Fin 2) * 512 + 1 * (y 0).val = (y 0).val; rw [e.2.2.2.2.2.1]; omega
  | ⟨1, _⟩ => show win0_3.index t (1 : Fin 2) * 512 + 1 * (y 1).val = (y 1).val; rw [e.2.2.2.2.2.2.1]; omega

/-- The first layer's bias' block at every point is the whole array. -/
theorem iblk0_b1 (c : Dev nD) (t : Fin cfg0.N) : (iblk0 V c 2 t : S512.Idx → Elt F .f32) = V c main_arg5 := by
  have e := idx0_in t
  funext y
  unfold iblk0
  rw [View.read_apply]
  show (V c main_arg5 : S512.Idx → Elt F .f32) _ = (V c main_arg5 : S512.Idx → Elt F .f32) y
  refine congrArg (V c main_arg5 : S512.Idx → Elt F .f32) (funext fun a => Fin.ext ?_)
  match a with
  | ⟨0, _⟩ => show win0_2.index t (0 : Fin 1) * 512 + 1 * (y 0).val = (y 0).val; rw [e.2.2.2.2.1]; omega

/-- The second layer's bias' block at every point is the whole array. -/
theorem iblk0_b2 (c : Dev nD) (t : Fin cfg0.N) : (iblk0 V c 4 t : S512.Idx → Elt F .f32) = V c main_arg7 := by
  have e := idx0_in t
  funext y
  unfold iblk0
  rw [View.read_apply]
  show (V c main_arg7 : S512.Idx → Elt F .f32) _ = (V c main_arg7 : S512.Idx → Elt F .f32) y
  refine congrArg (V c main_arg7 : S512.Idx → Elt F .f32) (funext fun a => Fin.ext ?_)
  match a with
  | ⟨0, _⟩ => show win0_4.index t (0 : Fin 1) * 512 + 1 * (y 0).val = (y 0).val; rw [e.2.2.2.2.2.2.2.1]; omega

/-- The output layer's weights' block at point t is columns 640 (t mod 50) … of the array. -/
theorem iblk0_Wo (c : Dev nD) (t : Fin cfg0.N) (k : Fin 512) (q : Fin 640) :
    (iblk0 V c 5 t : S512x640.Idx → Elt F .f32) (ix2 k q)
      = (V c main_arg8 : S512x32000.Idx → Elt F .f32)
          (ix2 k ⟨640 * (t.val % 50) + q.val, by have := q.isLt; omega⟩) := by
  have e := idx0_in t
  unfold iblk0
  rw [View.read_apply]
  show (V c main_arg8 : S512x32000.Idx → Elt F .f32) _ = _
  refine congrArg (V c main_arg8 : S512x32000.Idx → Elt F .f32) (funext fun a => Fin.ext ?_)
  match a with
  | ⟨0, _⟩ => show win0_5.index t (0 : Fin 2) * 512 + 1 * k.val = k.val; rw [e.2.2.2.2.2.2.2.2.1]; omega
  | ⟨1, _⟩ => show win0_5.index t (1 : Fin 2) * 640 + 1 * q.val = 640 * (t.val % 50) + q.val; rw [e.2.2.2.2.2.2.2.2.2.1]; omega

/-- The one-row output bias' block at point t is columns 640 (t mod 50) … of the row. -/
theorem iblk0_bo (c : Dev nD) (t : Fin cfg0.N) (q : Fin 640) :
    (iblk0 V c 6 t : S1x640.Idx → Elt F .f32) (ix2 0 q)
      = (V c main_v28 : S1x32000.Idx → Elt F .f32)
          (ix2 0 ⟨640 * (t.val % 50) + q.val, by have := q.isLt; omega⟩) := by
  have e := idx0_in t
  unfold iblk0
  rw [View.read_apply]
  show (V c main_v28 : S1x32000.Idx → Elt F .f32) _ = _
  refine congrArg (V c main_v28 : S1x32000.Idx → Elt F .f32) (funext fun a => Fin.ext ?_)
  match a with
  | ⟨0, _⟩ => show win0_6.index t (0 : Fin 2) * 1 + 1 * 0 = 0; rw [e.2.2.2.2.2.2.2.2.2.2.1]
  | ⟨1, _⟩ => show win0_6.index t (1 : Fin 2) * 640 + 1 * q.val = 640 * (t.val % 50) + q.val; rw [e.2.2.2.2.2.2.2.2.2.2.2]; omega

end Reads0

section Inputs0
variable (V : (c : Dev nD) → (b : Ref sig .tc) → Buf (Elt F) ((c : Thread nD τ).loc b))

/-! An input window's array is never written back: after the call it holds what the call found. -/
theorem arrIn0_0 (c : Dev nD) : (dat0 V c).arrAt 0 cfg0.N = V c (Pipeline.arrRef spec0 0) :=
  ((dat0 V c).arrAt_in 0 rfl cfg0.N).trans (A_eq0 V c 0)
theorem arrIn0_1 (c : Dev nD) : (dat0 V c).arrAt 1 cfg0.N = V c (Pipeline.arrRef spec0 1) :=
  ((dat0 V c).arrAt_in 1 rfl cfg0.N).trans (A_eq0 V c 1)
theorem arrIn0_2 (c : Dev nD) : (dat0 V c).arrAt 2 cfg0.N = V c (Pipeline.arrRef spec0 2) :=
  ((dat0 V c).arrAt_in 2 rfl cfg0.N).trans (A_eq0 V c 2)
theorem arrIn0_3 (c : Dev nD) : (dat0 V c).arrAt 3 cfg0.N = V c (Pipeline.arrRef spec0 3) :=
  ((dat0 V c).arrAt_in 3 rfl cfg0.N).trans (A_eq0 V c 3)
theorem arrIn0_4 (c : Dev nD) : (dat0 V c).arrAt 4 cfg0.N = V c (Pipeline.arrRef spec0 4) :=
  ((dat0 V c).arrAt_in 4 rfl cfg0.N).trans (A_eq0 V c 4)
theorem arrIn0_5 (c : Dev nD) : (dat0 V c).arrAt 5 cfg0.N = V c (Pipeline.arrRef spec0 5) :=
  ((dat0 V c).arrAt_in 5 rfl cfg0.N).trans (A_eq0 V c 5)
theorem arrIn0_6 (c : Dev nD) : (dat0 V c).arrAt 6 cfg0.N = V c (Pipeline.arrRef spec0 6) :=
  ((dat0 V c).arrAt_in 6 rfl cfg0.N).trans (A_eq0 V c 6)

end Inputs0

end Cert.KernelIdeal.Hand

end
-- ==== Proof.KernelIdealReads1.lean ====
/-
  The second kernel call's input blocks, read off their arrays, and its input arrays after the call. At point
  t = 50 i + j of the 4 x 50 grid: the window matrix's block is rows 2048 i … of the 8192 x 128 matrix; the two hidden
  layers' weights and biases are whole arrays at every point; the output layer's weights' block is columns 640 j … of
  the 512 x 32000 matrix and the one-row output bias' block columns 640 j … of the row; the first call's output column's
  block is rows 2048 i … of the 8192 x 1 column. A block's coordinate on an axis is (block index) x (block size) + the
  coordinate inside the block, and the block indices are decided over the grid. No input array is written back.
-/
import proofs.«128076_j14156212207627_1_alg».proof.Proof.KernelIdealR1Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Reads1
variable (V : (c : Dev nD) → (b : Ref sig .tc) → Buf (Elt F) ((c : Thread nD τ).loc b))

/-- The printed index maps of the input windows, decided over the grid: the window matrix moves with the row tile, the
    output layer's weights and bias with the column tile, the other layers' arrays are whole. -/
theorem idx1_in : ∀ t : Fin cfg1.N,
    win1_0.index t (0 : Fin 2) = t.val / 50 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = t.val % 50
    ∧ win1_6.index t (0 : Fin 2) = 0 ∧ win1_6.index t (1 : Fin 2) = t.val % 50
    ∧ win1_7.index t (0 : Fin 2) = t.val / 50 ∧ win1_7.index t (1 : Fin 2) = 0 :=
  (by decide +kernel : ∀ t : Fin grid1.N, _)

/-- The window matrix's block at point t is rows 2048 (t / 50) … of the window matrix. -/
theorem iblk1_win (c : Dev nD) (t : Fin cfg1.N) (p : Fin 2048) (k : Fin 128) :
    (iblk1 V c 0 t : S2048x128.Idx → Elt F .f32) (ix2 p k)
      = (V c main_v27 : S8192x128.Idx → Elt F .f32)
          (ix2 ⟨2048 * (t.val / 50) + p.val, by have := N_1; have := t.isLt; have := p.isLt; have hN : cfg1.N = grid1.N := rfl; omega⟩ k) := by
  have e := idx1_in t
  unfold iblk1
  rw [View.read_apply]
  show (V c main_v27 : S8192x128.Idx → Elt F .f32) _ = _
  refine congrArg (V c main_v27 : S8192x128.Idx → Elt F .f32) (funext fun a => Fin.ext ?_)
  match a with
  | ⟨0, _⟩ => show win1_0.index t (0 : Fin 2) * 2048 + 1 * p.val = 2048 * (t.val / 50) + p.val; rw [e.1]; omega
  | ⟨1, _⟩ => show win1_0.index t (1 : Fin 2) * 128 + 1 * k.val = k.val; rw [e.2.1]; omega

/-- The first layer's weights' block at every point is the whole array. -/
theorem iblk1_W1 (c : Dev nD) (t : Fin cfg1.N) : (iblk1 V c 1 t : S128x512.Idx → Elt F .f32) = V c main_arg4 := by
  have e := idx1_in t
  funext y
  unfold iblk1
  rw [View.read_apply]
  show (V c main_arg4 : S128x512.Idx → Elt F .f32) _ = (V c main_arg4 : S128x512.Idx → Elt F .f32) y
  refine congrArg (V c main_arg4 : S128x512.Idx → Elt F .f32) (funext fun a => Fin.ext ?_)
  match a with
  | ⟨0, _⟩ => show win1_1.index t (0 : Fin 2) * 128 + 1 * (y 0).val = (y 0).val; rw [e.2.2.1]; omega
  | ⟨1, _⟩ => show win1_1.index t (1 : Fin 2) * 512 + 1 * (y 1).val = (y 1).val; rw [e.2.2.2.1]; omega

/-- The second layer's weights' block at every point is the whole array. -/
theorem iblk1_W2 (c : Dev nD) (t : Fin cfg1.N) : (iblk1 V c 3 t : S512x512.Idx → Elt F .f32) = V c main_arg6 := by
  have e := idx1_in t
  funext y
  unfold iblk1
  rw [View.read_apply]
  show (V c main_arg6 : S512x512.Idx → Elt F .f32) _ = (V c main_arg6 : S512x512.Idx → Elt F .f32) y
  refine congrArg (V c main_arg6 : S512x512.Idx → Elt F .f32) (funext fun a => Fin.ext ?_)
  match a with
  | ⟨0, _⟩ => show win1_3.index t (0 : Fin 2) * 512 + 1 * (y 0).val = (y 0).val; rw [e.2.2.2.2.2.1]; omega
  | ⟨1, _⟩ => show win1_3.index t (1 : Fin 2) * 512 + 1 * (y 1).val = (y 1).val; rw [e.2.2.2.2.2.2.1]; omega

/-- The first layer's bias' block at every point is the whole array. -/
theorem iblk1_b1 (c : Dev nD) (t : Fin cfg1.N) : (iblk1 V c 2 t : S512.Idx → Elt F .f32) = V c main_arg5 := by
  have e := idx1_in t
  funext y
  unfold iblk1
  rw [View.read_apply]
  show (V c main_arg5 : S512.Idx → Elt F .f32) _ = (V c main_arg5 : S512.Idx → Elt F .f32) y
  refine congrArg (V c main_arg5 : S512.Idx → Elt F .f32) (funext fun a => Fin.ext ?_)
  match a with
  | ⟨0, _⟩ => show win1_2.index t (0 : Fin 1) * 512 + 1 * (y 0).val = (y 0).val; rw [e.2.2.2.2.1]; omega

/-- The second layer's bias' block at every point is the whole array. -/
theorem iblk1_b2 (c : Dev nD) (t : Fin cfg1.N) : (iblk1 V c 4 t : S512.Idx → Elt F .f32) = V c main_arg7 := by
  have e := idx1_in t
  funext y
  unfold iblk1
  rw [View.read_apply]
  show (V c main_arg7 : S512.Idx → Elt F .f32) _ = (V c main_arg7 : S512.Idx → Elt F .f32) y
  refine congrArg (V c main_arg7 : S512.Idx → Elt F .f32) (funext fun a => Fin.ext ?_)
  match a with
  | ⟨0, _⟩ => show win1_4.index t (0 : Fin 1) * 512 + 1 * (y 0).val = (y 0).val; rw [e.2.2.2.2.2.2.2.1]; omega

/-- The output layer's weights' block at point t is columns 640 (t mod 50) … of the array. -/
theorem iblk1_Wo (c : Dev nD) (t : Fin cfg1.N) (k : Fin 512) (q : Fin 640) :
    (iblk1 V c 5 t : S512x640.Idx → Elt F .f32) (ix2 k q)
      = (V c main_arg8 : S512x32000.Idx → Elt F .f32)
          (ix2 k ⟨640 * (t.val % 50) + q.val, by have := q.isLt; omega⟩) := by
  have e := idx1_in t
  unfold iblk1
  rw [View.read_apply]
  show (V c main_arg8 : S512x32000.Idx → Elt F .f32) _ = _
  refine congrArg (V c main_arg8 : S512x32000.Idx → Elt F .f32) (funext fun a => Fin.ext ?_)
  match a with
  | ⟨0, _⟩ => show win1_5.index t (0 : Fin 2) * 512 + 1 * k.val = k.val; rw [e.2.2.2.2.2.2.2.2.1]; omega
  | ⟨1, _⟩ => show win1_5.index t (1 : Fin 2) * 640 + 1 * q.val = 640 * (t.val % 50) + q.val; rw [e.2.2.2.2.2.2.2.2.2.1]; omega

/-- The one-row output bias' block at point t is columns 640 (t mod 50) … of the row. -/
theorem iblk1_bo (c : Dev nD) (t : Fin cfg1.N) (q : Fin 640) :
    (iblk1 V c 6 t : S1x640.Idx → Elt F .f32) (ix2 0 q)
      = (V c main_v28 : S1x32000.Idx → Elt F .f32)
          (ix2 0 ⟨640 * (t.val % 50) + q.val, by have := q.isLt; omega⟩) := by
  have e := idx1_in t
  unfold iblk1
  rw [View.read_apply]
  show (V c main_v28 : S1x32000.Idx → Elt F .f32) _ = _
  refine congrArg (V c main_v28 : S1x32000.Idx → Elt F .f32) (funext fun a => Fin.ext ?_)
  match a with
  | ⟨0, _⟩ => show win1_6.index t (0 : Fin 2) * 1 + 1 * 0 = 0; rw [e.2.2.2.2.2.2.2.2.2.2.1]
  | ⟨1, _⟩ => show win1_6.index t (1 : Fin 2) * 640 + 1 * q.val = 640 * (t.val % 50) + q.val; rw [e.2.2.2.2.2.2.2.2.2.2.2.1]; omega

/-- The first call's output column's block at point t is rows 2048 (t / 50) … of the column. -/
theorem iblk1_lse (c : Dev nD) (t : Fin cfg1.N) (p : Fin 2048) :
    (iblk1 V c 7 t : S2048x1.Idx → Elt F .f32) (ix2 p 0)
      = (V c main_v29 : S8192x1.Idx → Elt F .f32)
          (ix2 ⟨2048 * (t.val / 50) + p.val, by have := N_1; have := t.isLt; have := p.isLt; have hN : cfg1.N = grid1.N := rfl; omega⟩ 0) := by
  have e := idx1_in t
  unfold iblk1
  rw [View.read_apply]
  show (V c main_v29 : S8192x1.Idx → Elt F .f32) _ = _
  refine congrArg (V c main_v29 : S8192x1.Idx → Elt F .f32) (funext fun a => Fin.ext ?_)
  match a with
  | ⟨0, _⟩ => show win1_7.index t (0 : Fin 2) * 2048 + 1 * p.val = 2048 * (t.val / 50) + p.val; rw [e.2.2.2.2.2.2.2.2.2.2.2.2.1]; omega
  | ⟨1, _⟩ => show win1_7.index t (1 : Fin 2) * 1 + 1 * 0 = 0; rw [e.2.2.2.2.2.2.2.2.2.2.2.2.2]

end Reads1

section Inputs1
variable (V : (c : Dev nD) → (b : Ref sig .tc) → Buf (Elt F) ((c : Thread nD τ).loc b))

/-! An input window's array is never written back: after the call it holds what the call found. -/
theorem arrIn1_0 (c : Dev nD) : (dat1 V c).arrAt 0 cfg1.N = V c (Pipeline.arrRef spec1 0) :=
  ((dat1 V c).arrAt_in 0 rfl cfg1.N).trans (A_eq1 V c 0)
theorem arrIn1_1 (c : Dev nD) : (dat1 V c).arrAt 1 cfg1.N = V c (Pipeline.arrRef spec1 1) :=
  ((dat1 V c).arrAt_in 1 rfl cfg1.N).trans (A_eq1 V c 1)
theorem arrIn1_2 (c : Dev nD) : (dat1 V c).arrAt 2 cfg1.N = V c (Pipeline.arrRef spec1 2) :=
  ((dat1 V c).arrAt_in 2 rfl cfg1.N).trans (A_eq1 V c 2)
theorem arrIn1_3 (c : Dev nD) : (dat1 V c).arrAt 3 cfg1.N = V c (Pipeline.arrRef spec1 3) :=
  ((dat1 V c).arrAt_in 3 rfl cfg1.N).trans (A_eq1 V c 3)
theorem arrIn1_4 (c : Dev nD) : (dat1 V c).arrAt 4 cfg1.N = V c (Pipeline.arrRef spec1 4) :=
  ((dat1 V c).arrAt_in 4 rfl cfg1.N).trans (A_eq1 V c 4)
theorem arrIn1_5 (c : Dev nD) : (dat1 V c).arrAt 5 cfg1.N = V c (Pipeline.arrRef spec1 5) :=
  ((dat1 V c).arrAt_in 5 rfl cfg1.N).trans (A_eq1 V c 5)
theorem arrIn1_6 (c : Dev nD) : (dat1 V c).arrAt 6 cfg1.N = V c (Pipeline.arrRef spec1 6) :=
  ((dat1 V c).arrAt_in 6 rfl cfg1.N).trans (A_eq1 V c 6)
theorem arrIn1_7 (c : Dev nD) : (dat1 V c).arrAt 7 cfg1.N = V c (Pipeline.arrRef spec1 7) :=
  ((dat1 V c).arrAt_in 7 rfl cfg1.N).trans (A_eq1 V c 7)

end Inputs1

end Cert.KernelIdeal.Hand

end
-- ==== Proof.KernelIdealBlocks.lean ====
/-
  Both kernel calls' blocks and arrays: each input block read off its array, each output array from the blocks written
  back, each input array unchanged.
-/
import proofs.«128076_j14156212207627_1_alg».proof.Proof.KernelIdealBlocks0
import proofs.«128076_j14156212207627_1_alg».proof.Proof.KernelIdealBlocks1
import proofs.«128076_j14156212207627_1_alg».proof.Proof.KernelIdealReads0
import proofs.«128076_j14156212207627_1_alg».proof.Proof.KernelIdealReads1
-- ==== Proof.KernelIdealR0Body.lean ====
/-
  Kernel 1: the body obligation at every grid point, and the invariant's two ends.
-/
import proofs.«128076_j14156212207627_1_alg».proof.Proof.KernelIdealR0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (V : (c : Dev nD) → (b : Ref sig .tc) → Buf (Elt F) ((c : Thread nD τ).loc b))

/-- What the body is called with at point `t`: the invariant, the (empty) dues, each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the column tile says which of the three cases the point is in; the inputs' buffers hold their
    blocks; the invariant hands over the scratch buffers at what the point before left (at anything before the first
    point) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 200 := lt_of_lt_of_eq t.isLt (show cfg0.N = 200 from N_0)
  by_cases h0 : t.val % 50 = 0
  · have h1 : ¬t.val % 50 = 49 := by omega
    rw [Dat.leavesExact_idle (dat0 V c) 7 t (idleAt0_7 t (fun h => h1 ((hcond0_1 t).mp h))) (noFlush0_7 t (fun h => h1 ((hcond0_1 t).mp h)))]
    rw [outsAt0_A V c t h0]
    unfold stepA sout0_A_0 sout0_A_1 sout0_A_2; (try dsimp only)
    by_cases hz : t.val = 0
    · rw [PhiS0_castSucc V c t, PhiS0_zero V c _ _ hz, PhiA0_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => by have := (hcond0_1 t).mp h; omega) (iblk0 V c 0 t) (iblk0 V c 1 t) (iblk0 V c 2 t) (iblk0 V c 3 t) (iblk0 V c 4 t) (iblk0 V c 5 t) (iblk0 V c 6 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [HS0 HS1 HS2 Hoth Hg]
      · isplitl [HS0 HS1 HS2 Hoth]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases h1 : t.val % 50 = 49
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold stepC out0_C_7 sout0_C_1 sout0_C_2; (try dsimp only)
      rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, HS0, ⟨%es1, HS1⟩, ⟨%es2, HS2⟩⟩
      isplitl [HS0 HS1 HS2 Hoth Hg]
      · isplitl [HS0 HS1 HS2 Hoth]
        · isplitl [HS0 HS1 HS2]
          · isplitl [HS0]; · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_C_7 c _ _ _ _ _ _ _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold stepB sout0_B_1 sout0_B_2; (try dsimp only)
      rw [PhiS0_castSucc V c t, PhiS0_pos V c _ _ hz]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hoth Hg]
      · isplitl [HS0 HS1 HS2 Hoth]
        · isplitl [HS0 HS1 HS2]
          · isplitl [HS0]; · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _)
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the scratch buffers' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1, HS2⟩, Hoth⟩, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

theorem Phi_last0 (c : Dev nD) : (dat0 V c).Φ (Fin.last cfg0.N) ⊢ Pipeline.ΦA spec0 c :=
  Phi_out0 V c _ (by rw [Fin.val_last]; have : cfg0.N = 200 := N_0; omega)

end Body

end Cert.KernelIdeal.Hand

end
-- ==== Proof.KernelIdealR1Body.lean ====
/-
  Kernel 2: the body obligation at every grid point, and the invariant's two ends.
-/
import proofs.«128076_j14156212207627_1_alg».proof.Proof.KernelIdealR1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Body
variable (V : (c : Dev nD) → (b : Ref sig .tc) → Buf (Elt F) ((c : Thread nD τ).loc b))

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the column tile says which case the point is in; the inputs' buffers hold their blocks; the
    invariant hands over the scratch buffer at what the point before left and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val % 50 = 0
  · rw [outsAt1_A V c t h0]
    unfold stepA1 out1_A_8 sout1_A_0; (try dsimp only)
    by_cases hz : t.val = 0
    · rw [PhiS1_castSucc V c t, PhiS1_zero V c _ _ hz, PhiA1_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    · rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      iintro ⟨H0, H1, H2, H3, H4, H5, H6, H7, ⟨%e8, H8⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
  · have hz : t.val ≠ 0 := fun e => h0 (by rw [e])
    rw [outsAt1_B V c t h0]
    unfold stepB1 out1_B_8; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    iintro ⟨H0, H1, H2, H3, H4, H5, H6, H7, ⟨%e8, H8⟩, HS0⟩
    isplitl [HS0 Hoth Hg]
    · isplitl [HS0 Hoth]
      · isplitl [HS0]; · iexact HS0
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_B_8 c _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hoth⟩, Hg⟩
  isplitl [HS0 Hoth]
  · isplitl [HS0]; · iexists _; iexact HS0
    iexact Hoth
  iexact Hg

theorem Phi_last1 (c : Dev nD) : (dat1 V c).Φ (Fin.last cfg1.N) ⊢ Pipeline.ΦA spec1 c :=
  Phi_out1 V c _ (by rw [Fin.val_last]; have : cfg1.N = 200 := N_1; omega)

end Body

end Cert.KernelIdeal.Hand

end
-- ==== Proof.KernelIdealMain.lean ====
/-
  The whole run of the kernel program: the host operations, then kernel 1, then kernel 2, composed in order. Between
  two of them the core holds every unscoped buffer at a named valuation: the launch contents, then those after the
  host operations, then with kernel 1's arrays at what its pipeline leaves, then with kernel 2's.
-/
import proofs.«128076_j14156212207627_1_alg».proof.Proof.KernelIdealR0Body
import proofs.«128076_j14156212207627_1_alg».proof.Proof.KernelIdealR1Body
import proofs.«128076_j14156212207627_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- After the host operations (kernel 1's entry). -/
abbrev W1 (c : Dev nD) : Valuation τ sig (Elt F) := Gen.V1 m c
abbrev VA : (c : Dev nD) → (b : Ref sig .tc) → Buf (Elt F) ((c : Thread nD τ).loc b) := fun c b => W1 m c b
/-- After kernel 1: its arrays at what its pipeline leaves, every other buffer as entered (kernel 2's entry). -/
def W2 (c : Dev nD) : Valuation τ sig (Elt F) :=
  Pipeline.withArrays spec0 c (W1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VB : (c : Dev nD) → (b : Ref sig .tc) → Buf (Elt F) ((c : Thread nD τ).loc b) := fun c b => W2 m c b
theorem hF0 (c : Dev nD) (w : Fin cfg0.W) : (dat0 (VA m) c).arrAt w cfg0.N = VB m c (Pipeline.arrRef spec0 w) :=
  (W2_arr m c w).symm
theorem hrest0 (c : Dev nD) : ∀ b, b ∉ Finset.univ.image (Pipeline.arrRef spec0) → VB m c b = VA m c b :=
  fun b hb => W2_of_ne m c b fun w e => hb (Finset.mem_image.mpr ⟨w, Finset.mem_univ _, e⟩)

/-- After kernel 2. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VC : (c : Dev nD) → (b : Ref sig .tc) → Buf (Elt F) ((c : Thread nD τ).loc b) := fun c b => W3 m c b
theorem hF1 (c : Dev nD) (w : Fin cfg1.W) : (dat1 (VB m) c).arrAt w cfg1.N = VC m c (Pipeline.arrRef spec1 w) :=
  (W3_arr m c w).symm
theorem hrest1 (c : Dev nD) : ∀ b, b ∉ Finset.univ.image (Pipeline.arrRef spec1) → VC m c b = VB m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
/-- The host operations as a segment, from the launch contents. -/
abbrev hseg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Gen.V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The two kernel calls as segments -/

set_option backward.isDefEq.respectTransparency.types false in
/-- Kernel 1 over the thread state: entered from every unscoped buffer at the contents after the host operations, left
    with its arrays at what its pipeline leaves. Its arrays are split out of the unscoped buffers and put back; the
    generator register goes into the invariant and comes back; nothing is owed; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last0 (VA m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state, in the same way: entered at the contents kernel 1 left, left with its arrays at what
    its pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Phi_last1 (VB m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m),
    .region (reg0 m),
    .region (reg1 m) ]

theorem main_run (c : Dev nD) : main (F := F) c = Pipeline.Seg.run (segs m) := by
  rw [main_chain c, Pipeline.Seg.run_eq_chain]
  rfl

set_option backward.isDefEq.respectTransparency.types false in
/-- From any memory with zero counters every weakly fair execution of the program terminates, nothing faulting, and every
    final state has every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Hand

end
-- ==== Proof.KernelIdealArgs.lean ====
/-
  The run read at the program's arguments and at its result: no host operation and no kernel call writes an argument,
  so each ends as launched; the result array ends at what kernel 2's pipeline leaves in it.
-/
import proofs.«128076_j14156212207627_1_alg».proof.Proof.KernelIdealMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = m ((c : Thread nD τ).loc main_arg0) := Gen.V1_of m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = m ((c : Thread nD τ).loc main_arg1) := Gen.V1_of m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := Gen.V1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := Gen.V1_of m c main_arg3 (by decide)
theorem W3_main_arg9 (c : Dev nD) : W3 m c (Proc.devRef .tc main_arg9) = m ((c : Thread nD τ).loc main_arg9) :=
  calc W3 m c (Proc.devRef .tc main_arg9)
    _ = W2 m c (Proc.devRef .tc main_arg9) := W3_of_ne m c main_arg9 (by decide)
    _ = W1 m c (Proc.devRef .tc main_arg9) := W2_of_ne m c main_arg9 (by decide)
    _ = m ((c : Thread nD τ).loc main_arg9) := Gen.V1_of m c main_arg9 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := (W3_arr m c 1).trans (((dat1 (VB m) c).arrAt_in 1 rfl _).trans (A_eq1 (VB m) c 1))
    _ = W1 m c (Proc.devRef .tc main_arg4) := (W2_arr m c 1).trans (((dat0 (VA m) c).arrAt_in 1 rfl _).trans (A_eq0 (VA m) c 1))
    _ = m ((c : Thread nD τ).loc main_arg4) := Gen.V1_of m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := (W3_arr m c 2).trans (((dat1 (VB m) c).arrAt_in 2 rfl _).trans (A_eq1 (VB m) c 2))
    _ = W1 m c (Proc.devRef .tc main_arg5) := (W2_arr m c 2).trans (((dat0 (VA m) c).arrAt_in 2 rfl _).trans (A_eq0 (VA m) c 2))
    _ = m ((c : Thread nD τ).loc main_arg5) := Gen.V1_of m c main_arg5 (by decide)
theorem W3_main_arg6 (c : Dev nD) : W3 m c (Proc.devRef .tc main_arg6) = m ((c : Thread nD τ).loc main_arg6) :=
  calc W3 m c (Proc.devRef .tc main_arg6)
    _ = W2 m c (Proc.devRef .tc main_arg6) := (W3_arr m c 3).trans (((dat1 (VB m) c).arrAt_in 3 rfl _).trans (A_eq1 (VB m) c 3))
    _ = W1 m c (Proc.devRef .tc main_arg6) := (W2_arr m c 3).trans (((dat0 (VA m) c).arrAt_in 3 rfl _).trans (A_eq0 (VA m) c 3))
    _ = m ((c : Thread nD τ).loc main_arg6) := Gen.V1_of m c main_arg6 (by decide)
theorem W3_main_arg7 (c : Dev nD) : W3 m c (Proc.devRef .tc main_arg7) = m ((c : Thread nD τ).loc main_arg7) :=
  calc W3 m c (Proc.devRef .tc main_arg7)
    _ = W2 m c (Proc.devRef .tc main_arg7) := (W3_arr m c 4).trans (((dat1 (VB m) c).arrAt_in 4 rfl _).trans (A_eq1 (VB m) c 4))
    _ = W1 m c (Proc.devRef .tc main_arg7) := (W2_arr m c 4).trans (((dat0 (VA m) c).arrAt_in 4 rfl _).trans (A_eq0 (VA m) c 4))
    _ = m ((c : Thread nD τ).loc main_arg7) := Gen.V1_of m c main_arg7 (by decide)
theorem W3_main_arg8 (c : Dev nD) : W3 m c (Proc.devRef .tc main_arg8) = m ((c : Thread nD τ).loc main_arg8) :=
  calc W3 m c (Proc.devRef .tc main_arg8)
    _ = W2 m c (Proc.devRef .tc main_arg8) := (W3_arr m c 5).trans (((dat1 (VB m) c).arrAt_in 5 rfl _).trans (A_eq1 (VB m) c 5))
    _ = W1 m c (Proc.devRef .tc main_arg8) := (W2_arr m c 5).trans (((dat0 (VA m) c).arrAt_in 5 rfl _).trans (A_eq0 (VA m) c 5))
    _ = m ((c : Thread nD τ).loc main_arg8) := Gen.V1_of m c main_arg8 (by decide)

/-- The window matrix, the one-row bias and kernel 1's output as kernel 2 finds them. -/
theorem VB_win (c : Dev nD) : VB m c main_v27 = VA m c main_v27 :=
  (W2_arr m c 0).trans (((dat0 (VA m) c).arrAt_in 0 rfl _).trans (A_eq0 (VA m) c 0))
theorem VB_bias (c : Dev nD) : VB m c main_v28 = VA m c main_v28 :=
  (W2_arr m c 6).trans (((dat0 (VA m) c).arrAt_in 6 rfl _).trans (A_eq0 (VA m) c 6))
theorem VB_lse (c : Dev nD) : VB m c main_v29 = (dat0 (VA m) c).arrAt 7 cfg0.N := W2_arr m c 7
theorem VB_arg4 (c : Dev nD) : VB m c main_arg4 = VA m c main_arg4 :=
  (W2_arr m c 1).trans (((dat0 (VA m) c).arrAt_in 1 rfl _).trans (A_eq0 (VA m) c 1))
theorem VB_arg5 (c : Dev nD) : VB m c main_arg5 = VA m c main_arg5 :=
  (W2_arr m c 2).trans (((dat0 (VA m) c).arrAt_in 2 rfl _).trans (A_eq0 (VA m) c 2))
theorem VB_arg6 (c : Dev nD) : VB m c main_arg6 = VA m c main_arg6 :=
  (W2_arr m c 3).trans (((dat0 (VA m) c).arrAt_in 3 rfl _).trans (A_eq0 (VA m) c 3))
theorem VB_arg7 (c : Dev nD) : VB m c main_arg7 = VA m c main_arg7 :=
  (W2_arr m c 4).trans (((dat0 (VA m) c).arrAt_in 4 rfl _).trans (A_eq0 (VA m) c 4))
theorem VB_arg8 (c : Dev nD) : VB m c main_arg8 = VA m c main_arg8 :=
  (W2_arr m c 5).trans (((dat0 (VA m) c).arrAt_in 5 rfl _).trans (A_eq0 (VA m) c 5))

/-- Every weakly fair execution terminates; the result array ends at what kernel 2's pipeline leaves, every argument as
    launched. -/
theorem run_result : θ_run defs (onTc (τ := τ) (main (F := F))) ⟨m, fun _ => 0, ρ⟩ (fun r => ∀ c : Dev nD,
      r.2.mem ((c.tc : Thread nD τ).loc main_v30) = (dat1 (VB m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v30 (by decide))).trans (W3_arr m c 8),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c),
     (h c _ (mem_uc main_arg7 (by decide))).trans (W3_main_arg7 m c),
     (h c _ (mem_uc main_arg8 (by decide))).trans (W3_main_arg8 m c),
     (h c _ (mem_uc main_arg9 (by decide))).trans (W3_main_arg9 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.KernelIdeal.Hand

end
-- ==== Proof.KernelPrefixTerm.lean ====
/-
  The kernel's host prefix, read back: what the buffers hold after the host operations that precede the two kernel calls.

  * The window matrix (8192 rows of 128 numbers) is a closed term of the first four arguments: token indices (negative
    ones counted from the end) select four table slots and four weights per token; each slot (negative ones counted
    from the end) selects a row of the embedding table, which is multiplied by its weight; the four weighted rows of a
    token are summed, the 65536 tokens are regrouped in eights, and each group of eight is summed.
  * The output bias as a one-row matrix is the bias vector: entry (0, q) of the reshaped array is entry q.
  * Every argument array is unchanged.
-/
import proofs.«128076_j14156212207627_1_alg».proof.Proof.Gen.KernelIdeal.Regions
import Idealize.ShloMosaic.Lib.Pipeline.Value
import Idealize.ShloMosaic.Lib.ValueIdx

noncomputable section

namespace Cert.KernelPrefix

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The token indices with negative ones counted from the end: x < 0 ? x + 32000 : x. -/
def tok (x0 : IVec S16x4096 32) : IVec S16x4096 32 :=
  select (cmpi .slt x0 (broadcastInDim S16x4096 ![] bcast_S_S16x4096 (constantI S_ 32 0#32)))
    (addi x0 (broadcastInDim S16x4096 ![] bcast_S_S16x4096 (constantI S_ 32 32000#32))) x0

/-- The four table slots of each token: rows of the slot table gathered at the token indices. -/
def slot (x0 : IVec S16x4096 32) (x1 : IVec S32000x4 32) : IVec S16x4096x4 32 :=
  Host.gather gather_S32000x4_S16x4096x1_S16x4096x4_2_0_n_n_0_2_14 x1
    (broadcastInDim S16x4096x1 ![0, 1] bcast_S16x4096_S16x4096x1_0_1 (tok x0))

/-- The four weights of each token: rows of the weight table gathered at the token indices. -/
def wgt (x0 : IVec S16x4096 32) (x2 : FVec Ideal S32000x4 .f32) : FVec Ideal S16x4096x4 .f32 :=
  Host.gather gather_S32000x4_S16x4096x1_S16x4096x4_2_0_n_n_0_2_14 x2
    (broadcastInDim S16x4096x1 ![0, 1] bcast_S16x4096_S16x4096x1_0_1 (tok x0))

/-- The slots with negative ones counted from the end. -/
def slotW (x0 : IVec S16x4096 32) (x1 : IVec S32000x4 32) : IVec S16x4096x4 32 :=
  select (cmpi .slt (slot x0 x1) (broadcastInDim S16x4096x4 ![] bcast_S_S16x4096x4 (constantI S_ 32 0#32)))
    (addi (slot x0 x1) (broadcastInDim S16x4096x4 ![] bcast_S_S16x4096x4 (constantI S_ 32 32000#32))) (slot x0 x1)

/-- The weighted embedding rows: each slot's row of the embedding table times the slot's weight. -/
def wrow (x0 : IVec S16x4096 32) (x1 : IVec S32000x4 32) (x2 : FVec Ideal S32000x4 .f32) (x3 : FVec Ideal S32000x128 .f32) :
    FVec Ideal S16x4096x4x128 .f32 :=
  mulf (Host.gather gather_S32000x128_S16x4096x4x1_S16x4096x4x128_3_0_n_n_0_3_1128 x3
      (broadcastInDim S16x4096x4x1 ![0, 1, 2] bcast_S16x4096x4_S16x4096x4x1_0_1_2 (slotW x0 x1)))
    (broadcastInDim S16x4096x4x128 ![0, 1, 2, 3] bcast_S16x4096x4x1_S16x4096x4x128_0_1_2_3
      (broadcastInDim S16x4096x4x1 ![0, 1, 2] bcast_S16x4096x4_S16x4096x4x1_0_1_2 (wgt x0 x2)))

/-- The window matrix: the weighted rows summed over the four slots, the tokens regrouped in eights and summed. -/
def winTerm (x0 : IVec S16x4096 32) (x1 : IVec S32000x4 32) (x2 : FVec Ideal S32000x4 .f32) (x3 : FVec Ideal S32000x128 .f32) :
    FVec Ideal S8192x128 .f32 :=
  Host.reduceAdd
    (shapeCast S8192x8x128
      (shapeCast S65536x128
        (Host.reduceAdd (wrow x0 x1 x2 x3) (constant (F := Ideal) S_ .f32 0x00000000#32) reducesTo_S16x4096x4x128_S16x4096x128_d2 h_S_)
        shapeCasts_S16x4096x128_S65536x128)
      shapeCasts_S65536x128_S8192x8x128)
    (constant (F := Ideal) S_ .f32 0x00000000#32) reducesTo_S8192x8x128_S8192x128_d1 h_S_

set_option maxHeartbeats 4000000 in
/-- After the host prefix the window matrix's buffer holds the window term of the launch contents of the first four arguments. -/
theorem V1_win_term (c : Dev nD) :
    (V1 m c main_v27 : S8192x128.Idx → EReal) = winTerm (m ((c : Thread nD τ).loc main_arg0)) (m ((c : Thread nD τ).loc main_arg1)) (m ((c : Thread nD τ).loc main_arg2)) (m ((c : Thread nD τ).loc main_arg3)) := by
  dsimp only [V1, V0, hostOps0]
  after_results
  rfl

/-- A vector of 32000 entries reshaped to one row: entry (0, q) is entry q. -/
theorem reshape_row (x : S32000.Idx → EReal) (q : Fin 32000) :
    shapeCast S1x32000 x shapeCasts_S32000_S1x32000 (ix2 0 q) = x (ix1 q) :=
  shapeCast_apply x _ (ix2 0 q) (ix1 q)
    (by rw [Shape.rowMajor_val_one, Shape.rowMajor_val_two]; show q.val = 0 * 32000 + q.val; omega)

/-- After the host prefix the one-row bias buffer holds the bias argument: entry (0, q) is entry q of the launch contents. -/
theorem V1_bout (c : Dev nD) (q : Fin 32000) :
    (V1 m c main_v28 : S1x32000.Idx → EReal) (ix2 0 q) = (m ((c : Thread nD τ).loc main_arg9)) (ix1 q) := by
  have e : (V1 m c main_v28 : S1x32000.Idx → EReal)
      = shapeCast S1x32000 ((m ((c : Thread nD τ).loc main_arg9)) : S32000.Idx → EReal) shapeCasts_S32000_S1x32000 := by
    dsimp only [V1, V0, hostOps0]; after_results; rfl
  rw [e]; exact reshape_row _ q

/-! The host prefix writes no argument: each argument's buffer holds its launch contents. -/
theorem V1_arg0 (c : Dev nD) : V1 m c main_arg0 = (m ((c : Thread nD τ).loc main_arg0)) := V1_of m c main_arg0 (by decide)
theorem V1_arg1 (c : Dev nD) : V1 m c main_arg1 = (m ((c : Thread nD τ).loc main_arg1)) := V1_of m c main_arg1 (by decide)
theorem V1_arg2 (c : Dev nD) : V1 m c main_arg2 = (m ((c : Thread nD τ).loc main_arg2)) := V1_of m c main_arg2 (by decide)
theorem V1_arg3 (c : Dev nD) : V1 m c main_arg3 = (m ((c : Thread nD τ).loc main_arg3)) := V1_of m c main_arg3 (by decide)
theorem V1_arg4 (c : Dev nD) : V1 m c main_arg4 = (m ((c : Thread nD τ).loc main_arg4)) := V1_of m c main_arg4 (by decide)
theorem V1_arg5 (c : Dev nD) : V1 m c main_arg5 = (m ((c : Thread nD τ).loc main_arg5)) := V1_of m c main_arg5 (by decide)
theorem V1_arg6 (c : Dev nD) : V1 m c main_arg6 = (m ((c : Thread nD τ).loc main_arg6)) := V1_of m c main_arg6 (by decide)
theorem V1_arg7 (c : Dev nD) : V1 m c main_arg7 = (m ((c : Thread nD τ).loc main_arg7)) := V1_of m c main_arg7 (by decide)
theorem V1_arg8 (c : Dev nD) : V1 m c main_arg8 = (m ((c : Thread nD τ).loc main_arg8)) := V1_of m c main_arg8 (by decide)
theorem V1_arg9 (c : Dev nD) : V1 m c main_arg9 = (m ((c : Thread nD τ).loc main_arg9)) := V1_of m c main_arg9 (by decide)

end Cert.KernelPrefix

end
-- ==== Proof.KernelPrefix.lean ====
/-
  The kernel's host prefix against the reference's: both programs begin with the same host operations, so the window
  matrix the kernel's two calls read is the window matrix the reference computes from the same first four arguments.
  The kernel side's closed term and the reference's chain of named values are the same operations in the same order
  over the same literal shapes; they agree by unfolding.
-/
import proofs.«128076_j14156212207627_1_alg».proof.Proof.KernelPrefixTerm
import proofs.«128076_j14156212207627_1_alg».proof.Proof.RefRead

noncomputable section

namespace Cert.KernelPrefix

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

set_option maxRecDepth 8192 in
/-- The window term is the reference's window matrix of the same four arrays. -/
theorem winTerm_eq_ref (x0 : IVec S16x4096 32) (x1 : IVec S32000x4 32) (x2 : FVec Ideal S32000x4 .f32)
    (x3 : FVec Ideal S32000x128 .f32) :
    winTerm x0 x1 x2 x3 = Cert.ReferenceIdeal.Read.val_main_v27 (F := Ideal) x0 x1 x2 x3 := rfl

/-- After the host prefix the window matrix's buffer holds the reference's window matrix of the launch contents of the
    first four arguments. -/
theorem V1_win (c : Dev nD) :
    (V1 m c main_v27 : S8192x128.Idx → EReal)
      = Cert.ReferenceIdeal.Read.val_main_v27 (F := Ideal) (m ((c : Thread nD τ).loc main_arg0)) (m ((c : Thread nD τ).loc main_arg1))
          (m ((c : Thread nD τ).loc main_arg2)) (m ((c : Thread nD τ).loc main_arg3)) :=
  (V1_win_term m c).trans (winTerm_eq_ref _ _ _ _)

end Cert.KernelPrefix

end
-- ==== Proof.PreFinite.lean ====
/-
  The precondition decoded: when the printed predicate is all ones, every float argument array holds real numbers only.

  The predicate is the conjunction, over the eight float arrays, of "every entry x has |x| < +infinity". On extended
  reals |x| = max x (-x), and max x (-x) < +infinity excludes both infinities, so x is a real number.
-/
import proofs.«128076_j14156212207627_1_alg».proof.Defs
import proofs.«128076_j14156212207627_1_alg».proof.Proof.LibRealArrays
import Idealize.ShloMosaic.Lib.ReduceAll
import Idealize.ShloMosaic.Lib.ValueIdx

noncomputable section

namespace Cert.PreFinite

open Idealize.ShloMosaic Idealize.ShloMosaic.TcCoe Idealize.SL.Sem Cert.LibMoments Cert.Pre_finite_inputs

/-- The rank-0 shape has one index. -/
instance : Subsingleton S_.Idx := ⟨fun a b => funext fun d => d.elim0⟩

/-- The bit pattern 0x7F800000 is +infinity. -/
theorem inf_bits : Ideal.ofBits .f32 0x7F800000#32 = (⊤ : EReal) := by simp [Ideal.ofBits, Ideal.ieee]

/-- An extended real whose absolute value is below +infinity is a real number. -/
theorem isR_of_abs_lt (x : EReal) (h : Ideal.cmp .olt (max x (-x)) (Ideal.ofBits .f32 0x7F800000#32) = 1#1) : IsR x := by
  rw [inf_bits] at h
  induction x using EReal.rec with
  | bot => simp [Ideal.cmp] at h
  | coe r => exact ⟨r, rfl⟩
  | top => simp [Ideal.cmp] at h

/-- One array's test: if "every |x i| < +infinity" came out 1, every entry is a real number. -/
theorem all_isR {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
          (constantI S_ 1 1#1) hr hu ValueIdx.ix0 = 1#1) (i : s.Idx) : IsR (x i) :=
  isR_of_abs_lt (x i) (Host.reduce_andi_all _ _ hr hu ValueIdx.ix0 h i)

/-- THE PRECONDITION DECODED: the predicate all ones makes every entry of every float argument a real number. -/
theorem finite_of_pre [Facts] (x0 : IVec S16x4096 32) (x1 : IVec S32000x4 32) (x2 : FVec Ideal S32000x4 .f32)
    (x3 : FVec Ideal S32000x128 .f32) (x4 : FVec Ideal S128x512 .f32) (x5 : FVec Ideal S512 .f32)
    (x6 : FVec Ideal S512x512 .f32) (x7 : FVec Ideal S512 .f32) (x8 : FVec Ideal S512x32000 .f32)
    (x9 : FVec Ideal S32000 .f32)
    (h : fn (F := Ideal) x0 x1 x2 x3 x4 x5 x6 x7 x8 x9 = fun _ => 1#1) :
    (∀ i, IsR (x2 i)) ∧ (∀ i, IsR (x3 i)) ∧ (∀ i, IsR (x4 i)) ∧ (∀ i, IsR (x5 i)) ∧ (∀ i, IsR (x6 i))
      ∧ (∀ i, IsR (x7 i)) ∧ (∀ i, IsR (x8 i)) ∧ (∀ i, IsR (x9 i)) := by
  have h0 := congrFun h ValueIdx.ix0
  dsimp only [fn, fn_part1, fn_part2] at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h2, h3⟩ := IntOp.andi_eq_one.1 h0
  exact ⟨all_isR _ _ _ x2 h2, all_isR _ _ _ x3 h3, all_isR _ _ _ x4 h4, all_isR _ _ _ x5 h5, all_isR _ _ _ x6 h6,
    all_isR _ _ _ x7 h7, all_isR _ _ _ x8 h8, all_isR _ _ _ x9 h9⟩

/-- The same on a launch memory: under the kernel's precondition every float argument array of every device holds
    real numbers only. -/
theorem finite_of_Pre_KernelIdeal [Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S32000x4.Idx, IsR ((m ((c.tc : Thread Cert.KernelIdeal.nD Cert.KernelIdeal.τ).loc Cert.KernelIdeal.main_arg2) : Cert.KernelIdeal.S32000x4.Idx → EReal) i))
      ∧ (∀ i : Cert.KernelIdeal.S32000x128.Idx, IsR ((m ((c.tc : Thread Cert.KernelIdeal.nD Cert.KernelIdeal.τ).loc Cert.KernelIdeal.main_arg3) : Cert.KernelIdeal.S32000x128.Idx → EReal) i))
      ∧ (∀ i : Cert.KernelIdeal.S128x512.Idx, IsR ((m ((c.tc : Thread Cert.KernelIdeal.nD Cert.KernelIdeal.τ).loc Cert.KernelIdeal.main_arg4) : Cert.KernelIdeal.S128x512.Idx → EReal) i))
      ∧ (∀ i : Cert.KernelIdeal.S512.Idx, IsR ((m ((c.tc : Thread Cert.KernelIdeal.nD Cert.KernelIdeal.τ).loc Cert.KernelIdeal.main_arg5) : Cert.KernelIdeal.S512.Idx → EReal) i))
      ∧ (∀ i : Cert.KernelIdeal.S512x512.Idx, IsR ((m ((c.tc : Thread Cert.KernelIdeal.nD Cert.KernelIdeal.τ).loc Cert.KernelIdeal.main_arg6) : Cert.KernelIdeal.S512x512.Idx → EReal) i))
      ∧ (∀ i : Cert.KernelIdeal.S512.Idx, IsR ((m ((c.tc : Thread Cert.KernelIdeal.nD Cert.KernelIdeal.τ).loc Cert.KernelIdeal.main_arg7) : Cert.KernelIdeal.S512.Idx → EReal) i))
      ∧ (∀ i : Cert.KernelIdeal.S512x32000.Idx, IsR ((m ((c.tc : Thread Cert.KernelIdeal.nD Cert.KernelIdeal.τ).loc Cert.KernelIdeal.main_arg8) : Cert.KernelIdeal.S512x32000.Idx → EReal) i))
      ∧ (∀ i : Cert.KernelIdeal.S32000.Idx, IsR ((m ((c.tc : Thread Cert.KernelIdeal.nD Cert.KernelIdeal.τ).loc Cert.KernelIdeal.main_arg9) : Cert.KernelIdeal.S32000.Idx → EReal) i)) :=
  finite_of_pre _ _ _ _ _ _ _ _ _ _ (h c)

end Cert.PreFinite

end
-- ==== Proof.RefSide3.lean ====
/-
  The window matrix of the reference is a matrix of reals when the mask table and the embedding table are.

  Each entry of the window matrix is zero plus a sum of eight entries of an array that is, entry by entry, zero plus a sum
  of four products of an entry of the embedding table and an entry of the mask table (the gathers pick entries of the
  tables, whatever the indices; the reshapes and broadcasts only move entries). Finite sums and products of reals are reals.
-/
import proofs.«128076_j14156212207627_1_alg».proof.Proof.RefRead
import proofs.«128076_j14156212207627_1_alg».proof.Proof.LibRealArrays

noncomputable section

namespace Cert.RefSide

open Cert.ReferenceIdeal Cert.ReferenceIdeal.Gen Cert.ReferenceIdeal.Read Idealize.ShloMosaic Cert.LibMoments
open scoped BigOperators

/-- Every entry of the reference's window matrix is a real, when every entry of the mask table and of the embedding
    table is. -/
theorem win_isR (x0 : (⟨S16x4096, .i32⟩ : BufTy).Contents (Elt Ideal)) (x1 : (⟨S32000x4, .i32⟩ : BufTy).Contents (Elt Ideal))
    (x2 : (⟨S32000x4, .f32⟩ : BufTy).Contents (Elt Ideal)) (x3 : (⟨S32000x128, .f32⟩ : BufTy).Contents (Elt Ideal))
    (h2 : ∀ i, IsR (x2 i)) (h3 : ∀ i, IsR (x3 i)) :
    ∀ i, IsR (val_main_v27 (F := Ideal) x0 x1 x2 x3 i) := by
  have hz : IsR (Ideal.ofBits .f32 0x00000000#32) := by rw [Ideal.ofBits_zero_f32]; exact IsR_zero
  have h13 : ∀ i, IsR (val_main_v13 (F := Ideal) x0 x2 i) := fun i => by
    unfold val_main_v13
    exact isR_gather _ x2 h2 _ i
  have h20 : ∀ i, IsR (val_main_v20 (F := Ideal) x0 x1 x3 i) := fun i => by
    unfold val_main_v20
    exact isR_gather _ x3 h3 _ i
  have h23 : ∀ i, IsR (val_main_v23 (F := Ideal) x0 x1 x2 x3 i) := fun i => by
    rw [val_main_v23_apply, val_main_v22_apply, val_main_v21_apply]
    exact (h20 i).mul (h13 _)
  have h24 : ∀ i, IsR (val_main_v24 (F := Ideal) x0 x1 x2 x3 i) := fun i => by
    unfold val_main_v24
    exact isR_reduceAdd _ h23 _ (fun _ => hz) _ _ i
  have h26 : ∀ i, IsR (val_main_v26 (F := Ideal) x0 x1 x2 x3 i) := fun i => by
    rw [val_main_v26_apply, val_main_v25_apply]
    exact h24 _
  intro i
  unfold val_main_v27
  exact isR_reduceAdd _ h26 _ (fun _ => hz) _ _ i

end Cert.RefSide

end
-- ==== Proof.KernelIdealResult.lean ====
/-
  The kernel program's result on extended reals: the array kernel 2 leaves is the specification's result — the
  log-softmax of the scores of the window matrix the host operations build — when every float input is finite.

  Row tile i of the window matrix gives the hidden tile; column tile j of the output layer gives the tile of scores.
  Kernel 1's scratch buffers follow the online recurrence over the column tiles, so its output column holds, for each
  row, the log-sum-exp of the row's 32000 scores; kernel 2 stores scores minus that value, which for finite scores is
  the log-softmax. The blocks of the two output arrays tile them, so the arrays are these functions of the index.
-/
import proofs.«128076_j14156212207627_1_alg».proof.Proof.KernelIdealValue0
import proofs.«128076_j14156212207627_1_alg».proof.Proof.KernelIdealValue1
import proofs.«128076_j14156212207627_1_alg».proof.Proof.KernelIdealBlocks
import proofs.«128076_j14156212207627_1_alg».proof.Proof.KernelIdealArgs
import proofs.«128076_j14156212207627_1_alg».proof.Proof.KernelPrefix
import proofs.«128076_j14156212207627_1_alg».proof.Proof.PreFinite
import proofs.«128076_j14156212207627_1_alg».proof.Proof.RefSide3
import proofs.«128076_j14156212207627_1_alg».proof.Proof.Gen.Pre_finite_inputs
import proofs.«128076_j14156212207627_1_alg».proof.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.KMath Idealize.ShloMosaic.ValueIdx
open Cert.LibMoments (IsR)

theorem ix2_congr {a b : ℕ} (p p' : Fin a) (k k' : Fin b) (hp : p.val = p'.val) (hk : k.val = k'.val) : ix2 p k = ix2 p' k' := by
  rw [Fin.ext hp, Fin.ext hk]

theorem eq_mod_of_lt {a n : ℕ} (h : a < n) : a = a % n := (Nat.mod_eq_of_lt h).symm

section Result
variable (m : (ℓ : Loc nD τ sig) → Buf (Elt Ideal) ℓ) (c : Dev nD)

/-- Row tile i of the window matrix. -/
def Xt (i : ℕ) : Vec Ideal S2048x128 .f32 :=
  fun y => (VA m c main_v27 : S8192x128.Idx → EReal) (ix2 ⟨(2048 * i + (y 0).val) % 8192, Nat.mod_lt _ (by norm_num)⟩ ⟨(y 1).val, (y 1).isLt⟩)
/-- Column tile j of the output layer's weights. -/
def WoN (j : ℕ) : Vec Ideal S512x640 .f32 :=
  fun y => (VA m c main_arg8 : S512x32000.Idx → EReal) (ix2 ⟨(y 0).val, (y 0).isLt⟩ ⟨(640 * j + (y 1).val) % 32000, Nat.mod_lt _ (by norm_num)⟩)
/-- Column tile j of the output layer's bias, kept as one row. -/
def boN (j : ℕ) : Vec Ideal S1x640 .f32 :=
  fun y => (VA m c main_v28 : S1x32000.Idx → EReal) (ix2 0 ⟨(640 * j + (y 1).val) % 32000, Nat.mod_lt _ (by norm_num)⟩)

/-! ## The blocks of kernel 1 -/

theorem hb0_0 (t : Fin cfg0.N) : (iblk0 (VA m) c 0 t : Vec Ideal S2048x128 .f32) = Xt m c (t.val / 50) := by
  have hN : t.val < 200 := lt_of_lt_of_eq t.isLt (show cfg0.N = 200 from N_0)
  funext y
  obtain ⟨p, k, rfl⟩ : ∃ (p : Fin 2048) (k : Fin 128), y = ix2 p k := ⟨y 0, y 1, eq_ix2 y⟩
  rw [iblk0_win (VA m) c t p k]
  unfold Xt
  refine congrArg (VA m c main_v27 : S8192x128.Idx → EReal) (ix2_congr _ _ _ _ ?_ rfl)
  exact eq_mod_of_lt (show 2048 * (t.val / 50) + p.val < 8192 by have := p.isLt; omega)
theorem hb0_5 (t : Fin cfg0.N) : (iblk0 (VA m) c 5 t : Vec Ideal S512x640 .f32) = WoN m c (t.val % 50) := by
  funext y
  obtain ⟨k, q, rfl⟩ : ∃ (k : Fin 512) (q : Fin 640), y = ix2 k q := ⟨y 0, y 1, eq_ix2 y⟩
  rw [iblk0_Wo (VA m) c t k q]
  unfold WoN
  refine congrArg (VA m c main_arg8 : S512x32000.Idx → EReal) (ix2_congr _ _ _ _ rfl ?_)
  exact eq_mod_of_lt (show 640 * (t.val % 50) + q.val < 32000 by have := q.isLt; omega)
theorem hb0_6 (t : Fin cfg0.N) : (iblk0 (VA m) c 6 t : Vec Ideal S1x640 .f32) = boN m c (t.val % 50) := by
  funext y
  obtain ⟨u, q, rfl⟩ : ∃ (u : Fin 1) (q : Fin 640), y = ix2 u q := ⟨y 0, y 1, eq_ix2 y⟩
  obtain rfl : u = 0 := Subsingleton.elim _ _
  rw [iblk0_bo (VA m) c t q]
  unfold boN
  refine congrArg (VA m c main_v28 : S1x32000.Idx → EReal) (ix2_congr _ _ _ _ rfl ?_)
  exact eq_mod_of_lt (show 640 * (t.val % 50) + q.val < 32000 by have := q.isLt; omega)

/-! ## The blocks of kernel 2: the same arrays, found as kernel 1 left them -/

theorem hb1_0 (t : Fin cfg1.N) : (iblk1 (VB m) c 0 t : Vec Ideal S2048x128 .f32) = Xt m c (t.val / 50) := by
  have hN : t.val < 200 := lt_of_lt_of_eq t.isLt (show cfg1.N = 200 from N_1)
  funext y
  obtain ⟨p, k, rfl⟩ : ∃ (p : Fin 2048) (k : Fin 128), y = ix2 p k := ⟨y 0, y 1, eq_ix2 y⟩
  rw [iblk1_win (VB m) c t p k, VB_win m c]
  unfold Xt
  refine congrArg (VA m c main_v27 : S8192x128.Idx → EReal) (ix2_congr _ _ _ _ ?_ rfl)
  exact eq_mod_of_lt (show 2048 * (t.val / 50) + p.val < 8192 by have := p.isLt; omega)
theorem hb1_5 (t : Fin cfg1.N) : (iblk1 (VB m) c 5 t : Vec Ideal S512x640 .f32) = WoN m c (t.val % 50) := by
  funext y
  obtain ⟨k, q, rfl⟩ : ∃ (k : Fin 512) (q : Fin 640), y = ix2 k q := ⟨y 0, y 1, eq_ix2 y⟩
  rw [iblk1_Wo (VB m) c t k q, VB_arg8 m c]
  unfold WoN
  refine congrArg (VA m c main_arg8 : S512x32000.Idx → EReal) (ix2_congr _ _ _ _ rfl ?_)
  exact eq_mod_of_lt (show 640 * (t.val % 50) + q.val < 32000 by have := q.isLt; omega)
theorem hb1_6 (t : Fin cfg1.N) : (iblk1 (VB m) c 6 t : Vec Ideal S1x640 .f32) = boN m c (t.val % 50) := by
  funext y
  obtain ⟨u, q, rfl⟩ : ∃ (u : Fin 1) (q : Fin 640), y = ix2 u q := ⟨y 0, y 1, eq_ix2 y⟩
  obtain rfl : u = 0 := Subsingleton.elim _ _
  rw [iblk1_bo (VB m) c t q, VB_bias m c]
  unfold boN
  refine congrArg (VA m c main_v28 : S1x32000.Idx → EReal) (ix2_congr _ _ _ _ rfl ?_)
  exact eq_mod_of_lt (show 640 * (t.val % 50) + q.val < 32000 by have := q.isLt; omega)

/-- Kernel 1's output column, read by kernel 2 at row tile i: the row tile's log-sum-exp values. -/
theorem hb1_7 (t : Fin cfg1.N) :
    (iblk1 (VB m) c 7 t : Vec Ideal S2048x1 .f32)
      = lse (k0_pay2 (Xt m c (t.val / 50)) (VA m c main_arg4) (VA m c main_arg5) (VA m c main_arg6) (VA m c main_arg7)) (WoN m c) (boN m c) := by
  have hN : t.val < 200 := lt_of_lt_of_eq t.isLt (show cfg1.N = 200 from N_1)
  funext y
  obtain ⟨p, u, rfl⟩ : ∃ (p : Fin 2048) (u : Fin 1), y = ix2 p u := ⟨y 0, y 1, eq_ix2 y⟩
  obtain rfl : u = 0 := Subsingleton.elim _ _
  rw [iblk1_lse (VB m) c t p, VB_lse m c, arr0 (VA m) c ⟨2048 * (t.val / 50) + p.val, by have := p.isLt; omega⟩]
  have hd : (2048 * (t.val / 50) + p.val) / 2048 = t.val / 50 := by have := p.isLt; omega
  have hm : (2048 * (t.val / 50) + p.val) % 2048 = p.val := by have := p.isLt; omega
  have hl := lse_at (VA m) c (Xt m c) (VA m c main_arg4) (VA m c main_arg5) (VA m c main_arg6) (VA m c main_arg7) (WoN m c) (boN m c)
    (hb0_0 m c) (iblk0_W1 (VA m) c) (iblk0_b1 (VA m) c) (iblk0_W2 (VA m) c) (iblk0_b2 (VA m) c) (hb0_5 m c) (hb0_6 m c)
    (t.val / 50) (by omega) (by have : cfg0.N = 200 := N_0; omega)
  have hn1 : 50 * ((2048 * (t.val / 50) + p.val) / 2048) + 49 < cfg0.N := by rw [hd]; have : cfg0.N = 200 := N_0; omega
  have hn2 : 50 * (t.val / 50) + 49 < cfg0.N := by have : cfg0.N = 200 := N_0; omega
  have hc := outsAt0_congr (VA m) c (50 * ((2048 * (t.val / 50) + p.val) / 2048) + 49) (50 * (t.val / 50) + 49) hn1 hn2 (by rw [hd])
  refine (congrFun (congrArg Prod.fst hc) _).trans ?_
  rw [hl]
  exact congrArg _ (ix2_congr _ _ _ _ hm rfl)

/-! ## The result -/

/-- Finite inputs: every entry of the window matrix and of the seven weight and bias arrays is a real. -/
structure Finite : Prop where
  win : ∀ i, IsR ((VA m c main_v27 : S8192x128.Idx → EReal) i)
  W1 : ∀ i, IsR ((VA m c main_arg4 : S128x512.Idx → EReal) i)
  b1 : ∀ i, IsR ((VA m c main_arg5 : S512.Idx → EReal) i)
  W2 : ∀ i, IsR ((VA m c main_arg6 : S512x512.Idx → EReal) i)
  b2 : ∀ i, IsR ((VA m c main_arg7 : S512.Idx → EReal) i)
  Wout : ∀ i, IsR ((VA m c main_arg8 : S512x32000.Idx → EReal) i)
  bout : ∀ i, IsR ((m ((c : Thread nD τ).loc main_arg9) : S32000.Idx → EReal) i)

/-- The array kernel 2 leaves is the specification's result of the window matrix, index by index. -/
theorem result_at (hf : Finite m c) (r : Fin 8192) (q : Fin 32000) :
    ((dat1 (VB m) c).arrAt 8 cfg1.N : S8192x32000.Idx → EReal) (ix2 r q)
      = Cert.Spec.result (VA m c main_v27 : S8192x128.Idx → EReal) (VA m c main_arg4) (VA m c main_arg5) (VA m c main_arg6) (VA m c main_arg7)
          (VA m c main_arg8) (m ((c : Thread nD τ).loc main_arg9)) (ix2 r q) := by
  have hr := r.isLt; have hq := q.isLt
  have hn : 50 * (r.val / 2048) + q.val / 640 < cfg1.N := by have : cfg1.N = 200 := N_1; omega
  rw [arr1 (VB m) c r q]
  have ho := (out_at (VB m) c (Xt m c) (VA m c main_arg4) (VA m c main_arg5) (VA m c main_arg6) (VA m c main_arg7) (WoN m c) (boN m c)
    (fun i => lse (k0_pay2 (Xt m c i) (VA m c main_arg4) (VA m c main_arg5) (VA m c main_arg6) (VA m c main_arg7)) (WoN m c) (boN m c))
    (hb1_0 m c) (fun t => (iblk1_W1 (VB m) c t).trans (VB_arg4 m c)) (fun t => (iblk1_b1 (VB m) c t).trans (VB_arg5 m c))
    (fun t => (iblk1_W2 (VB m) c t).trans (VB_arg6 m c)) (fun t => (iblk1_b2 (VB m) c t).trans (VB_arg7 m c))
    (hb1_5 m c) (hb1_6 m c) (hb1_7 m c) _ hn).2
  have hd : (50 * (r.val / 2048) + q.val / 640) / 50 = r.val / 2048 := by omega
  have hm : (50 * (r.val / 2048) + q.val / 640) % 50 = q.val / 640 := by omega
  rw [ho, hd, hm]
  have hk := out_block (Xt m c (r.val / 2048)) (VA m c main_arg4) (VA m c main_arg5) (VA m c main_arg6) (VA m c main_arg7) (WoN m c) (boN m c)
    (VA m c main_arg8) (m ((c : Thread nD τ).loc main_arg9))
    (fun i => hf.win _) hf.W1 hf.b1 hf.W2 hf.b2 hf.Wout hf.bout
    (fun j hj k cc => by
      unfold WoN
      refine congrArg (VA m c main_arg8 : S512x32000.Idx → EReal) (ix2_congr _ _ _ _ rfl ?_)
      show (640 * j + cc.val) % 32000 = 640 * j + cc.val
      exact Nat.mod_eq_of_lt (by have := cc.isLt; omega))
    (fun j hj cc => by
      unfold boN
      have e := Cert.KernelPrefix.V1_bout m c ⟨(640 * j + cc.val) % 32000, Nat.mod_lt _ (by norm_num)⟩
      refine e.trans (congrArg (m ((c : Thread nD τ).loc main_arg9) : S32000.Idx → EReal) (congrArg ix1 (Fin.ext ?_)))
      show (640 * j + cc.val) % 32000 = 640 * j + cc.val
      exact Nat.mod_eq_of_lt (by have := cc.isLt; omega))
    (q.val / 640) (by omega) ⟨r.val % 2048, Nat.mod_lt _ (by norm_num)⟩ ⟨q.val % 640, Nat.mod_lt _ (by norm_num)⟩
  refine hk.trans ?_
  refine (Cert.Spec.result_row (Xt m c (r.val / 2048)) (VA m c main_v27 : S8192x128.Idx → EReal) _ _ _ _ _ _
    ⟨r.val % 2048, Nat.mod_lt _ (by norm_num)⟩ r (fun k => ?_) _).trans ?_
  · unfold Xt
    refine congrArg (VA m c main_v27 : S8192x128.Idx → EReal) (ix2_congr _ _ _ _ ?_ rfl)
    show (2048 * (r.val / 2048) + r.val % 2048) % 8192 = r.val
    rw [Nat.div_add_mod]; exact Nat.mod_eq_of_lt hr
  · refine congrArg _ (ix2_congr _ _ _ _ rfl ?_)
    show 640 * (q.val / 640) + q.val % 640 = q.val
    exact Nat.div_add_mod _ _

/-- Under the precondition every float input is finite, and so is the window matrix. -/
theorem finite_of_pre (hpre : Cert.Pre_KernelIdeal m) : Finite m c := by
  obtain ⟨h2, h3, h4, h5, h6, h7, h8, h9⟩ := Cert.PreFinite.finite_of_Pre_KernelIdeal m hpre c
  refine ⟨fun i => ?_, fun i => ?_, fun i => ?_, fun i => ?_, fun i => ?_, fun i => ?_, h9⟩
  · show IsR ((Gen.V1 m c main_v27 : S8192x128.Idx → EReal) i)
    rw [Cert.KernelPrefix.V1_win m c]
    exact Cert.RefSide.win_isR _ _ _ _ h2 h3 i
  · show IsR ((Gen.V1 m c main_arg4 : S128x512.Idx → EReal) i)
    rw [Cert.KernelPrefix.V1_arg4 m c]; exact h4 i
  · show IsR ((Gen.V1 m c main_arg5 : S512.Idx → EReal) i)
    rw [Cert.KernelPrefix.V1_arg5 m c]; exact h5 i
  · show IsR ((Gen.V1 m c main_arg6 : S512x512.Idx → EReal) i)
    rw [Cert.KernelPrefix.V1_arg6 m c]; exact h6 i
  · show IsR ((Gen.V1 m c main_arg7 : S512.Idx → EReal) i)
    rw [Cert.KernelPrefix.V1_arg7 m c]; exact h7 i
  · show IsR ((Gen.V1 m c main_arg8 : S512x32000.Idx → EReal) i)
    rw [Cert.KernelPrefix.V1_arg8 m c]; exact h8 i

/-- THE KERNEL PROGRAM'S RESULT under the precondition: the specification's result of the window matrix the reference
    also builds, and of the weight and bias arguments. -/
theorem result_eq (hpre : Cert.Pre_KernelIdeal m) :
    ((dat1 (VB m) c).arrAt 8 cfg1.N : S8192x32000.Idx → EReal)
      = Cert.Spec.result (Cert.ReferenceIdeal.Read.val_main_v27 (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  funext idx
  obtain ⟨r, q, rfl⟩ : ∃ (r : Fin 8192) (q : Fin 32000), idx = ix2 r q := ⟨idx 0, idx 1, eq_ix2 idx⟩
  rw [result_at m c (finite_of_pre m c hpre) r q]
  have e0 : (VA m c main_v27 : S8192x128.Idx → EReal) = _ := Cert.KernelPrefix.V1_win m c
  have e4 : (VA m c main_arg4 : S128x512.Idx → EReal) = _ := Cert.KernelPrefix.V1_arg4 m c
  have e5 : (VA m c main_arg5 : S512.Idx → EReal) = _ := Cert.KernelPrefix.V1_arg5 m c
  have e6 : (VA m c main_arg6 : S512x512.Idx → EReal) = _ := Cert.KernelPrefix.V1_arg6 m c
  have e7 : (VA m c main_arg7 : S512.Idx → EReal) = _ := Cert.KernelPrefix.V1_arg7 m c
  have e8 : (VA m c main_arg8 : S512x32000.Idx → EReal) = _ := Cert.KernelPrefix.V1_arg8 m c
  rw [e0, e4, e5, e6, e7, e8]

end Result

end Cert.KernelIdeal.Hand

end
-- ==== Proof.RefRunAfter.lean ====
/-
  The reference's run: a straight-line list of host operations runs to the end, and every buffer ends at the fold of the
  operations' results over its launch contents.
-/
import proofs.«128076_j14156212207627_1_alg».proof.Proof.RefRun

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: every weakly fair execution of the reference terminates, and
    every final state has each buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.Value

end
-- ==== Proof.LibHostSums.lean ====
/-
  GENERAL lemmas: host sums read at an index, on the extended reals, at any extents.

  * a host sum over the lane axis of a matrix, read at row `n`: the initial value plus the sum of the row's entries;
  * a sum over the index set of a column `[n, 1]` is the sum over its rows.
-/
import proofs.«128076_j14156212207627_1_alg».proof.Proof.LibLayout
import Idealize.ShloMosaic.Lib.ValueIdx
import Idealize.ShloMosaic.PureOps.Ideal.Laws

noncomputable section

open scoped BigOperators
open Idealize.ShloMosaic Idealize.ShloMosaic.ValueIdx

namespace Cert.LibHostSums

/-- A host sum over the lane axis, at row `n`. -/
theorem hostLaneSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel)
    (n : Fin a) :
    Host.reduceAdd (F := Ideal) y init h' hu (ix1 n) = init (Shape.Idx.first hu) + ∑ k : Fin b, y (ix2 n k) := by
  simp only [Host.reduceAdd, Ideal.hostReduceAdd_def]
  rw [Ideal.hostReduceAdd_single h' h]
  exact congrArg (_ + ·) (Finset.sum_congr rfl fun k _ => congrArg y (Cert.LibLayout.lift_row h n k))

/-- A sum over the index set of a column is the sum over its rows. -/
theorem sum_column {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibHostSums

end
-- ==== Proof.RefSide.lean ====
/-
  The reference program read as the specification.

  After its window matrix (rows of 128 numbers, one row per window) the reference applies three dense layers
  (a product, plus a bias laid along the rows; the first two followed by a maximum with zero) and then, per row,
  the log-softmax: the row's maximum m is subtracted (a maximum with minus infinity on the way changes nothing),
  the exponentials are summed, and the logarithm of the sum is subtracted. Every step is an exact operation on the
  extended reals, so the result is, entry by entry, the specification's result of the same window matrix, with no
  condition on the inputs.
-/
import proofs.«128076_j14156212207627_1_alg».proof.Proof.RefRead
import proofs.«128076_j14156212207627_1_alg».proof.Proof.Spec
import proofs.«128076_j14156212207627_1_alg».proof.Proof.LibHostSums

noncomputable section

namespace Cert.RefSide

open Cert.ReferenceIdeal Cert.ReferenceIdeal.Gen Cert.ReferenceIdeal.Read Idealize.ShloMosaic Idealize.ShloMosaic.ValueIdx
open Cert.LibDenseLayers Cert.Sage
open scoped BigOperators

/-! ## The dense stages, for any window matrix -/

/-- The first rectifier: a maximum with the zero constant laid over the matrix. -/
theorem relu_stage0 (a : FVec Ideal S8192x512 .f32) :
    maximumf a (val_main_call0_v0 (F := Ideal)) = relu a := by
  funext i
  show max (a i) (val_main_call0_v0 (F := Ideal) i) = max (a i) _
  rw [val_main_call0_v0_apply]
  rfl

/-- The second rectifier. -/
theorem relu_stage1 (a : FVec Ideal S8192x512 .f32) :
    maximumf a (val_main_call1_v0 (F := Ideal)) = relu a := by
  funext i
  show max (a i) (val_main_call1_v0 (F := Ideal) i) = max (a i) _
  rw [val_main_call1_v0_apply]
  rfl

/-- The first product plus its bias laid along the rows is the affine layer. -/
theorem affine1 (win : FVec Ideal S8192x128 .f32) (w : FVec Ideal S128x512 .f32) (b : FVec Ideal S512 .f32) :
    addf (Host.dotGeneral dot_S8192x128_S128x512_S8192x512_1_0_0_1_n_n none win w) (val_main_v30 (F := Ideal) b)
      = affine win w b := by
  unfold val_main_v30 val_main_v29
  exact affine_of_dot (by decide) _ rfl rfl lhs_main_v28_0 lhs_main_v28_1 rhs_main_v28_0 rhs_main_v28_1 _ _ win w b

/-- The second product plus its bias. -/
theorem affine2 (h : FVec Ideal S8192x512 .f32) (w : FVec Ideal S512x512 .f32) (b : FVec Ideal S512 .f32) :
    addf (Host.dotGeneral dot_S8192x512_S512x512_S8192x512_1_0_0_1_n_n none h w) (val_main_v35 (F := Ideal) b)
      = affine h w b := by
  unfold val_main_v35 val_main_v34
  exact affine_of_dot (by decide) _ rfl rfl lhs_main_v33_0 lhs_main_v33_1 rhs_main_v33_0 rhs_main_v33_1 _ _ h w b

/-- The output product plus its bias. -/
theorem affine3 (h : FVec Ideal S8192x512 .f32) (w : FVec Ideal S512x32000 .f32) (b : FVec Ideal S32000 .f32) :
    addf (Host.dotGeneral dot_S8192x512_S512x32000_S8192x32000_1_0_0_1_n_n none h w) (val_main_v40 (F := Ideal) b)
      = affine h w b := by
  unfold val_main_v40 val_main_v39
  exact affine_of_dot (by decide) _ rfl rfl lhs_main_v38_0 lhs_main_v38_1 rhs_main_v38_0 rhs_main_v38_1 _ _ h w b

/-- The host's maximum over the columns, from minus infinity, read at row p: the row's maximum. -/
theorem rowmax_stage (z : FVec Ideal S8192x32000 .f32) (p : Fin 8192) :
    Host.reduce FloatOps.maximumf z (val_main_call2_cst (F := Ideal)) reducesTo_S8192x32000_S8192_d1 h_S_ (ix1 p)
      = rowMax (fun q => z (ix2 p q)) := by
  have h : S8192x32000.Reduces [1] S8192 := by decide
  rw [Host.reduce_eq_fold_single FloatOps.maximumf z _ reducesTo_S8192x32000_S8192_d1 h h_S_]
  exact congrArg (fun f : Fin 32000 → EReal => (Finset.univ : Finset (Fin 32000)).fold max (Ideal.ofBits .f32 0xFF800000#32) f)
    (funext fun k => congrArg z (Cert.LibLayout.lift_row h p k))

section
variable (x0 : (⟨S16x4096, .i32⟩ : BufTy).Contents (Elt Ideal)) (x1 : (⟨S32000x4, .i32⟩ : BufTy).Contents (Elt Ideal))
  (x2 : (⟨S32000x4, .f32⟩ : BufTy).Contents (Elt Ideal)) (x3 : (⟨S32000x128, .f32⟩ : BufTy).Contents (Elt Ideal))
  (x4 : (⟨S128x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x32000, .f32⟩ : BufTy).Contents (Elt Ideal)) (x9 : (⟨S32000, .f32⟩ : BufTy).Contents (Elt Ideal))

/-- The scores of the reference are the specification's scores of its window matrix. -/
theorem scores_stage :
    val_main_v41 (F := Ideal) x0 x1 x2 x3 x4 x5 x6 x7 x8 x9 = Cert.Spec.scores (val_main_v27 (F := Ideal) x0 x1 x2 x3) x4 x5 x6 x7 x8 x9 := by
  unfold val_main_v41 val_main_v38 val_main_v37 val_main_v36 val_main_v33 val_main_v32 val_main_v31 val_main_v28
  generalize val_main_v27 (F := Ideal) x0 x1 x2 x3 = win
  rw [affine1, relu_stage0, affine2, relu_stage1, affine3]
  rfl

/-- The row maximum laid back over the columns, read at (p, c). -/
theorem max_stage (p : Fin 8192) (c : Fin 32000) :
    val_main_call2_v4 (F := Ideal) x0 x1 x2 x3 x4 x5 x6 x7 x8 x9 (ix2 p c) = rowMax (fun q' => val_main_v41 (F := Ideal) x0 x1 x2 x3 x4 x5 x6 x7 x8 x9 (ix2 p q')) := by
  rw [val_main_call2_v4_apply, val_main_call2_v3_apply, val_main_call2_v2_apply, val_main_call2_v1_apply]
  have e : idx_main_call2_v3 (idx_main_call2_v4 (ix2 p c)) = ix1 p :=
    funext fun a => Fin.ext (by match a with | ⟨0, _⟩ => rfl)
  rw [e]
  unfold val_main_call2_v0
  rw [rowmax_stage]
  exact max_start_rowMax _

/-- The shifted scores, read at (p, c). -/
theorem shift_stage (p : Fin 8192) (c : Fin 32000) :
    val_main_call2_v5 (F := Ideal) x0 x1 x2 x3 x4 x5 x6 x7 x8 x9 (ix2 p c)
      = val_main_v41 (F := Ideal) x0 x1 x2 x3 x4 x5 x6 x7 x8 x9 (ix2 p c) - rowMax (fun q' => val_main_v41 (F := Ideal) x0 x1 x2 x3 x4 x5 x6 x7 x8 x9 (ix2 p q')) := by
  rw [val_main_call2_v5_apply, max_stage]
  rfl

/-- The reference's result is the specification's result of its window matrix. -/
theorem ref_result :
    val_main_v42 (F := Ideal) x0 x1 x2 x3 x4 x5 x6 x7 x8 x9 = Cert.Spec.result (val_main_v27 (F := Ideal) x0 x1 x2 x3) x4 x5 x6 x7 x8 x9 := by
  funext i
  obtain ⟨p, q, rfl⟩ : ∃ (p : Fin 8192) (q : Fin 32000), i = ix2 p q := ⟨i 0, i 1, eq_ix2 i⟩
  show _ = lsmAt (fun q' => Cert.Spec.scores (val_main_v27 (F := Ideal) x0 x1 x2 x3) x4 x5 x6 x7 x8 x9 (ix2 p q')) q
  rw [← scores_stage, val_main_v42_apply, shift_stage, val_main_call2_v10_apply, val_main_call2_v9_apply,
    val_main_call2_v8_apply, val_main_call2_v7_apply]
  have hs : val_main_call2_cst_1 (F := Ideal) (Shape.Idx.first h_S_)
        + ∑ k : Fin 32000, val_main_call2_v6 (F := Ideal) x0 x1 x2 x3 x4 x5 x6 x7 x8 x9
            (idx_main_call2_v7 (idx_main_call2_v8 (idx_main_call2_v10 (ix2 p q))) k)
      = ∑ q' : Fin 32000, Ideal.exp (val_main_v41 (F := Ideal) x0 x1 x2 x3 x4 x5 x6 x7 x8 x9 (ix2 p q')
          - rowMax fun q'' => val_main_v41 (F := Ideal) x0 x1 x2 x3 x4 x5 x6 x7 x8 x9 (ix2 p q'')) := by
    rw [val_main_call2_cst_1_apply]
    show Ideal.ofBits .f32 0x00000000#32 + _ = _
    rw [Ideal.ofBits_zero_f32, zero_add]
    refine Finset.sum_congr rfl fun k _ => ?_
    have e : idx_main_call2_v7 (idx_main_call2_v8 (idx_main_call2_v10 (ix2 p q))) k = ix2 p k :=
      funext fun a => Fin.ext (by match a with | ⟨0, _⟩ => rfl | ⟨1, _⟩ => rfl)
    rw [e, val_main_call2_v6_apply, shift_stage]
    rfl
  rw [hs, Ideal.subf_def, Ideal.hostUnary_log_def]
  unfold lsmAt
  exact Eq.refl _
end

end Cert.RefSide

end
-- ==== Proof.RefSide2.lean ====
/-
  The reference's run, with its result named.

  The reference is a straight line of host operations, so it runs to the end and every buffer ends at the fold of the
  operations' results over the launch contents. At the result buffer that fold is the last stage of the reference as a
  function of the ten arguments' launch contents, which is the specification's result of the window matrix; at an
  argument buffer, which no operation writes, it is the launch contents.
-/
import proofs.«128076_j14156212207627_1_alg».proof.Defs
import proofs.«128076_j14156212207627_1_alg».proof.Proof.Gen.Pre_finite_inputs
import proofs.«128076_j14156212207627_1_alg».proof.Proof.RefRunAfter
import proofs.«128076_j14156212207627_1_alg».proof.Proof.RefSide

noncomputable section

namespace Cert.RefSide

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

/-- Contents carried to a buffer's type and back are unchanged. -/
theorem ofBuf_toBuf {sig : RefSig} {Val : EltTy → Type} {T : BufTy} (x : TRef sig T) (v : T.Contents Val) :
    x.ofBuf (x.toBuf v) = v := by
  show cast _ (cast _ v) = v
  rw [cast_cast, cast_eq]

set_option maxHeartbeats 400000 in
/-- The fold of the operations' results at the result buffer is the last stage, as a function of the launch contents of
    the ten arguments. -/
theorem fold_v42 (m : (ℓ : Loc nD τ sig) → Buf (Elt Ideal) ℓ) (c : Dev nD) :
    after (ops (F := Ideal)) (launchContents m c) (Proc.devRef .tc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  after_results_simp
  simp only [ofBuf_toBuf]
  rfl

set_option maxHeartbeats 400000 in
/-- No operation writes argument 0: it ends at its launch contents. -/
theorem fold_arg0 (m : (ℓ : Loc nD τ sig) → Buf (Elt Ideal) ℓ) (c : Dev nD) :
    after (ops (F := Ideal)) (launchContents m c) (Proc.devRef .tc main_arg0) = m ((c.tc : Thread nD τ).loc main_arg0) := by
  after_results_simp <;> rfl

set_option maxHeartbeats 400000 in
/-- No operation writes argument 1: it ends at its launch contents. -/
theorem fold_arg1 (m : (ℓ : Loc nD τ sig) → Buf (Elt Ideal) ℓ) (c : Dev nD) :
    after (ops (F := Ideal)) (launchContents m c) (Proc.devRef .tc main_arg1) = m ((c.tc : Thread nD τ).loc main_arg1) := by
  after_results_simp <;> rfl

set_option maxHeartbeats 400000 in
/-- No operation writes argument 2: it ends at its launch contents. -/
theorem fold_arg2 (m : (ℓ : Loc nD τ sig) → Buf (Elt Ideal) ℓ) (c : Dev nD) :
    after (ops (F := Ideal)) (launchContents m c) (Proc.devRef .tc main_arg2) = m ((c.tc : Thread nD τ).loc main_arg2) := by
  after_results_simp <;> rfl

set_option maxHeartbeats 400000 in
/-- No operation writes argument 3: it ends at its launch contents. -/
theorem fold_arg3 (m : (ℓ : Loc nD τ sig) → Buf (Elt Ideal) ℓ) (c : Dev nD) :
    after (ops (F := Ideal)) (launchContents m c) (Proc.devRef .tc main_arg3) = m ((c.tc : Thread nD τ).loc main_arg3) := by
  after_results_simp <;> rfl

set_option maxHeartbeats 400000 in
/-- No operation writes argument 4: it ends at its launch contents. -/
theorem fold_arg4 (m : (ℓ : Loc nD τ sig) → Buf (Elt Ideal) ℓ) (c : Dev nD) :
    after (ops (F := Ideal)) (launchContents m c) (Proc.devRef .tc main_arg4) = m ((c.tc : Thread nD τ).loc main_arg4) := by
  after_results_simp <;> rfl

set_option maxHeartbeats 400000 in
/-- No operation writes argument 5: it ends at its launch contents. -/
theorem fold_arg5 (m : (ℓ : Loc nD τ sig) → Buf (Elt Ideal) ℓ) (c : Dev nD) :
    after (ops (F := Ideal)) (launchContents m c) (Proc.devRef .tc main_arg5) = m ((c.tc : Thread nD τ).loc main_arg5) := by
  after_results_simp <;> rfl

set_option maxHeartbeats 400000 in
/-- No operation writes argument 6: it ends at its launch contents. -/
theorem fold_arg6 (m : (ℓ : Loc nD τ sig) → Buf (Elt Ideal) ℓ) (c : Dev nD) :
    after (ops (F := Ideal)) (launchContents m c) (Proc.devRef .tc main_arg6) = m ((c.tc : Thread nD τ).loc main_arg6) := by
  after_results_simp <;> rfl

set_option maxHeartbeats 400000 in
/-- No operation writes argument 7: it ends at its launch contents. -/
theorem fold_arg7 (m : (ℓ : Loc nD τ sig) → Buf (Elt Ideal) ℓ) (c : Dev nD) :
    after (ops (F := Ideal)) (launchContents m c) (Proc.devRef .tc main_arg7) = m ((c.tc : Thread nD τ).loc main_arg7) := by
  after_results_simp <;> rfl

set_option maxHeartbeats 400000 in
/-- No operation writes argument 8: it ends at its launch contents. -/
theorem fold_arg8 (m : (ℓ : Loc nD τ sig) → Buf (Elt Ideal) ℓ) (c : Dev nD) :
    after (ops (F := Ideal)) (launchContents m c) (Proc.devRef .tc main_arg8) = m ((c.tc : Thread nD τ).loc main_arg8) := by
  after_results_simp <;> rfl

set_option maxHeartbeats 400000 in
/-- No operation writes argument 9: it ends at its launch contents. -/
theorem fold_arg9 (m : (ℓ : Loc nD τ sig) → Buf (Elt Ideal) ℓ) (c : Dev nD) :
    after (ops (F := Ideal)) (launchContents m c) (Proc.devRef .tc main_arg9) = m ((c.tc : Thread nD τ).loc main_arg9) := by
  after_results_simp <;> rfl

/-- The reference runs; its result buffer ends at the specification's result of the window matrix of its arguments, and
    its ten arguments end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v42)
        = Cert.Spec.result (val_main_v27 (F := Ideal) (m ((c.tc : Thread nD τ).loc main_arg0)) (m ((c.tc : Thread nD τ).loc main_arg1)) (m ((c.tc : Thread nD τ).loc main_arg2)) (m ((c.tc : Thread nD τ).loc main_arg3)))
            (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c main_v42).trans (fold_v42 m c)).trans (ref_result _ _ _ _ _ _ _ _ _ _),
      (h c main_arg0).trans (fold_arg0 m c), (h c main_arg1).trans (fold_arg1 m c), (h c main_arg2).trans (fold_arg2 m c),
      (h c main_arg3).trans (fold_arg3 m c), (h c main_arg4).trans (fold_arg4 m c), (h c main_arg5).trans (fold_arg5 m c),
      (h c main_arg6).trans (fold_arg6 m c), (h c main_arg7).trans (fold_arg7 m c), (h c main_arg8).trans (fold_arg8 m c),
      (h c main_arg9).trans (fold_arg9 m c)⟩)
    (run_after (F := Ideal) m ρ)

/-- The reference runs and leaves its arguments unchanged. -/
theorem frame_ri : Cert.frame_ReferenceIdeal := fun m ρ _ =>
  (θ_run Cert.ReferenceIdeal.defs _ _).mono (fun _ h c => (h c).2) (ref_run m ρ)

end Cert.RefSide

end
-- ==== Proof.lean ====
/-
  The certificate. A kernel program of two Pallas calls against a jnp reference, on extended reals, under the
  precondition that every float input is finite.

  Both programs build the same window matrix win (8192 rows of 128 numbers) by the same host operations (two gathers
  through token and sub-token tables, a masked sum over sub-tokens, a sum over windows of eight tokens), send it through two
  rectified affine layers and an affine output layer to 8192 rows of 32000 scores, and take the log-softmax of each row.
  The reference does this on whole matrices. The kernel program tiles the rows by 2048 and the score columns by 640:
  its first call keeps, per row, a running maximum m and a running sum l of exp(score - m) over the column tiles
  (m from minus infinity, l from 0; m' = max(m, tile maximum), l' = l exp(m - m') + tile sum of exp(score - m')) and
  writes m + log l after the last tile; its second call recomputes each tile of scores and subtracts that value.
  On reals the recurrence's l after all tiles is the sum over the whole row of exp(score - m), and
  score - (m + log l) = (score - m) - log l, the reference's log-softmax; finiteness of the inputs makes every
  score a real (a row holding +infinity would make the two sides differ).

  The frames: the reference is a straight-line list of host operations; the kernel program's run is composed from its
  host operations and the two calls' pipelines, each call's body proved at every grid point in its two or three control
  cases, the scratch buffers' contents carried from point to point. No rewrite was applied in printing the idealized
  kernel program, so that conjunct is trivial.
-/
import proofs.«128076_j14156212207627_1_alg».proof.Defs
import proofs.«128076_j14156212207627_1_alg».proof.Proof.KernelArgs
import proofs.«128076_j14156212207627_1_alg».proof.Proof.KernelIdealResult
import proofs.«128076_j14156212207627_1_alg».proof.Proof.RefSide2
import proofs.«128076_j14156212207627_1_alg».proof.Proof.Gen.Kernel
import proofs.«128076_j14156212207627_1_alg».proof.Proof.Gen.KernelIdeal
import proofs.«128076_j14156212207627_1_alg».proof.Proof.Gen.ReferenceIdeal
import proofs.«128076_j14156212207627_1_alg».proof.Proof.Gen.Pre_finite_inputs

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := Cert.RefSide.frame_ri

/-- From memories agreeing on the arguments both programs end with the specification's result of the common window
    matrix: the kernel program by its two calls' values, the reference by its stages read back. -/
theorem algebraic : Cert.algebraic_KernelIdeal_ReferenceIdeal := by
  intro m ρ m' ρ' hpre hagree
  refine ⟨fun c => Cert.Spec.result (Cert.ReferenceIdeal.Read.val_main_v27 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Hand.result_eq m c hpre), (h c).2⟩)
      (Cert.KernelIdeal.Hand.run_result (F := Ideal) m ρ)
  · refine (θ_run Cert.ReferenceIdeal.defs _ _).mono (fun r h c => ⟨(h c).1.trans ?_, (h c).2⟩) (Cert.RefSide.ref_run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
